-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S4x64x64 : Shape := ⟨3, ![4, 64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  bcast_S_S4x64x64 : S_.BroadcastsInDim S4x64x64 (![] : Fin 0 → Fin S4x64x64.rank)
  reducesTo_S4x64x64_S_d0_1_2 : S4x64x64.ReducesTo [0, 1, 2] S_

variable [Facts]

def fn_part1 {F : FTy → Type} [FloatOps F] (main_arg5 : FVec F S40 .f32) (main_arg6 : FVec F S4x64x64 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S4x64x64 .f32 := Host.absf main_arg6
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  main_v28

def fn {F : FTy → Type} [FloatOps F] (main_arg0 : FVec F S100000x128 .f32) (main_arg1 : IVec S2x800000 32) (main_arg2 : FVec F S128x64 .f32) (main_arg3 : FVec F S64 .f32) (main_arg4 : FVec F S64x40 .f32) (main_arg5 : FVec F S40 .f32) (main_arg6 : FVec F S4x64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_arg6 main_v13 main_v16
-- ==== Kernel.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S4x64x64 : Shape := ⟨3, ![4, 64, 64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S900000x64 : Shape := ⟨2, ![900000, 64]⟩
abbrev S1x64x64 : Shape := ⟨3, ![1, 64, 64]⟩
abbrev S64x64 : Shape := ⟨2, ![64, 64]⟩
abbrev S1x40 : Shape := ⟨2, ![1, 40]⟩
abbrev S100000x40 : Shape := ⟨2, ![100000, 40]⟩
abbrev S10000x40 : Shape := ⟨2, ![10000, 40]⟩

abbrev nBuf : Space → Nat
  | .hbm => 125
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S4x64x64, .f32⟩
  | .hbm, ⟨7, _⟩ => ⟨S100000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S_, .f32⟩
  | .hbm, ⟨15, _⟩ => ⟨S900000, .f32⟩
  | .hbm, ⟨16, _⟩ => ⟨S_, .f32⟩
  | .hbm, ⟨17, _⟩ => ⟨S100000, .f32⟩
  | .hbm, ⟨18, _⟩ => ⟨S900000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S900000, .i32⟩
  | .hbm, ⟨30, _⟩ => ⟨S900000, .i1⟩
  | .hbm, ⟨31, _⟩ => ⟨S_, .i32⟩
  | .hbm, ⟨32, _⟩ => ⟨S900000, .i32⟩
  | .hbm, ⟨33, _⟩ => ⟨S900000, .i32⟩
  | .hbm, ⟨34, _⟩ => ⟨S900000, .i32⟩
  | .hbm, ⟨35, _⟩ => ⟨S900000x1, .i32⟩
  | .hbm, ⟨36, _⟩ => ⟨S900000, .f32⟩
  | .hbm, ⟨37, _⟩ => ⟨S_, .i32⟩
  | .hbm, ⟨38, _⟩ => ⟨S900000, .i32⟩
  | .hbm, ⟨39, _⟩ => ⟨S900000, .i1⟩
  | .hbm, ⟨40, _⟩ => ⟨S_, .i32⟩
  | .hbm, ⟨41, _⟩ => ⟨S900000, .i32⟩
  | .hbm, ⟨42, _⟩ => ⟨S900000, .i32⟩
  | .hbm, ⟨43, _⟩ => ⟨S900000, .i32⟩
  | .hbm, ⟨44, _⟩ => ⟨S900000x1, .i32⟩
  | .hbm, ⟨45, _⟩ => ⟨S900000, .f32⟩
  | .hbm, ⟨46, _⟩ => ⟨S900000, .f32⟩
  | .hbm, ⟨47, _⟩ => ⟨S1x64, .f32⟩
  | .hbm, ⟨48, _⟩ => ⟨S100000x64, .f32⟩
  | .hbm, ⟨49, _⟩ => ⟨S900000x1, .f32⟩
  | .hbm, ⟨50, _⟩ => ⟨S_, .i32⟩
  | .hbm, ⟨51, _⟩ => ⟨S900000, .i32⟩
  | .hbm, ⟨52, _⟩ => ⟨S900000, .i1⟩
  | .hbm, ⟨53, _⟩ => ⟨S_, .i32⟩
  | .hbm, ⟨54, _⟩ => ⟨S900000, .i32⟩
  | .hbm, ⟨55, _⟩ => ⟨S900000, .i32⟩
  | .hbm, ⟨56, _⟩ => ⟨S900000, .i32⟩
  | .hbm, ⟨57, _⟩ => ⟨S900000x1, .i32⟩
  | .hbm, ⟨58, _⟩ => ⟨S900000x64, .f32⟩
  | .hbm, ⟨59, _⟩ => ⟨S900000x64, .f32⟩
  | .hbm, ⟨60, _⟩ => ⟨S900000x64, .f32⟩
  | .hbm, ⟨61, _⟩ => ⟨S_, .f32⟩
  | .hbm, ⟨62, _⟩ => ⟨S100000x64, .f32⟩
  | .hbm, ⟨63, _⟩ => ⟨S900000x1, .i32⟩
  | .hbm, ⟨64, _⟩ => ⟨S100000x64, .f32⟩
  | .hbm, ⟨65, _⟩ => ⟨S100000x64, .f32⟩
  | .hbm, ⟨66, _⟩ => ⟨S900000x1, .f32⟩
  | .hbm, ⟨67, _⟩ => ⟨S_, .i32⟩
  | .hbm, ⟨68, _⟩ => ⟨S900000, .i32⟩
  | .hbm, ⟨69, _⟩ => ⟨S900000, .i1⟩
  | .hbm, ⟨70, _⟩ => ⟨S_, .i32⟩
  | .hbm, ⟨71, _⟩ => ⟨S900000, .i32⟩
  | .hbm, ⟨72, _⟩ => ⟨S900000, .i32⟩
  | .hbm, ⟨73, _⟩ => ⟨S900000, .i32⟩
  | .hbm, ⟨74, _⟩ => ⟨S900000x1, .i32⟩
  | .hbm, ⟨75, _⟩ => ⟨S900000x64, .f32⟩
  | .hbm, ⟨76, _⟩ => ⟨S900000x64, .f32⟩
  | .hbm, ⟨77, _⟩ => ⟨S900000x64, .f32⟩
  | .hbm, ⟨78, _⟩ => ⟨S_, .f32⟩
  | .hbm, ⟨79, _⟩ => ⟨S100000x64, .f32⟩
  | .hbm, ⟨80, _⟩ => ⟨S900000x1, .i32⟩
  | .hbm, ⟨81, _⟩ => ⟨S100000x64, .f32⟩
  | .hbm, ⟨82, _⟩ => ⟨S1x64x64, .f32⟩
  | .hbm, ⟨83, _⟩ => ⟨S64x64, .f32⟩
  | .hbm, ⟨84, _⟩ => ⟨S100000x64, .f32⟩
  | .hbm, ⟨85, _⟩ => ⟨S900000x1, .f32⟩
  | .hbm, ⟨86, _⟩ => ⟨S_, .i32⟩
  | .hbm, ⟨87, _⟩ => ⟨S900000, .i32⟩
  | .hbm, ⟨88, _⟩ => ⟨S900000, .i1⟩
  | .hbm, ⟨89, _⟩ => ⟨S_, .i32⟩
  | .hbm, ⟨90, _⟩ => ⟨S900000, .i32⟩
  | .hbm, ⟨91, _⟩ => ⟨S900000, .i32⟩
  | .hbm, ⟨92, _⟩ => ⟨S900000, .i32⟩
  | .hbm, ⟨93, _⟩ => ⟨S900000x1, .i32⟩
  | .hbm, ⟨94, _⟩ => ⟨S900000x64, .f32⟩
  | .hbm, ⟨95, _⟩ => ⟨S900000x64, .f32⟩
  | .hbm, ⟨96, _⟩ => ⟨S900000x64, .f32⟩
  | .hbm, ⟨97, _⟩ => ⟨S_, .f32⟩
  | .hbm, ⟨98, _⟩ => ⟨S100000x64, .f32⟩
  | .hbm, ⟨99, _⟩ => ⟨S900000x1, .i32⟩
  | .hbm, ⟨100, _⟩ => ⟨S100000x64, .f32⟩
  | .hbm, ⟨101, _⟩ => ⟨S1x64x64, .f32⟩
  | .hbm, ⟨102, _⟩ => ⟨S64x64, .f32⟩
  | .hbm, ⟨103, _⟩ => ⟨S100000x64, .f32⟩
  | .hbm, ⟨104, _⟩ => ⟨S900000x1, .f32⟩
  | .hbm, ⟨105, _⟩ => ⟨S_, .i32⟩
  | .hbm, ⟨106, _⟩ => ⟨S900000, .i32⟩
  | .hbm, ⟨107, _⟩ => ⟨S900000, .i1⟩
  | .hbm, ⟨108, _⟩ => ⟨S_, .i32⟩
  | .hbm, ⟨109, _⟩ => ⟨S900000, .i32⟩
  | .hbm, ⟨110, _⟩ => ⟨S900000, .i32⟩
  | .hbm, ⟨111, _⟩ => ⟨S900000, .i32⟩
  | .hbm, ⟨112, _⟩ => ⟨S900000x1, .i32⟩
  | .hbm, ⟨113, _⟩ => ⟨S900000x64, .f32⟩
  | .hbm, ⟨114, _⟩ => ⟨S900000x64, .f32⟩
  | .hbm, ⟨115, _⟩ => ⟨S900000x64, .f32⟩
  | .hbm, ⟨116, _⟩ => ⟨S_, .f32⟩
  | .hbm, ⟨117, _⟩ => ⟨S100000x64, .f32⟩
  | .hbm, ⟨118, _⟩ => ⟨S900000x1, .i32⟩
  | .hbm, ⟨119, _⟩ => ⟨S100000x64, .f32⟩
  | .hbm, ⟨120, _⟩ => ⟨S1x64x64, .f32⟩
  | .hbm, ⟨121, _⟩ => ⟨S64x64, .f32⟩
  | .hbm, ⟨122, _⟩ => ⟨S100000x64, .f32⟩
  | .hbm, ⟨123, _⟩ => ⟨S1x40, .f32⟩
  | .hbm, ⟨124, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S64x40, .f32⟩
  | .local _ .vmem, ⟨34, _⟩ => ⟨S1x40, .f32⟩
  | .local _ .vmem, ⟨35, _⟩ => ⟨S10000x40, .f32⟩
  | .local _ .vmem, ⟨36, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_15 : Ref sig .tc := ⟨.hbm, 105, rfl⟩
abbrev main_v79 : Ref sig .tc := ⟨.hbm, 106, rfl⟩
abbrev main_v80 : Ref sig .tc := ⟨.hbm, 107, rfl⟩
abbrev main_c_16 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg3_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem3_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S10000x64_S10000x64 : S10000x64.ShapeCasts S10000x64
  slices_S4x64x64_S1x64x64_1_0_0 : S4x64x64.Slices ![1, 0, 0] S1x64x64
  shapeCasts_S1x64x64_S64x64 : S1x64x64.ShapeCasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_2_0_0 : S4x64x64.Slices ![2, 0, 0] S1x64x64
  slices_S4x64x64_S1x64x64_3_0_0 : S4x64x64.Slices ![3, 0, 0] S1x64x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x128_S128x64_S10000x64_1_0_0_1_n_n_wf : DotDims.WF S10000x128 S128x64 S10000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x40.size a ≤ S64x40.size a
  hwx5_1 : ∀ i : grid5.Coords, EltTy.bits .f32 = 32 ∨ (Rect.block (s := S64x40) S64x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x40.size a ≤ S100000x40.size a
  hwx5_3 : ∀ i : grid5.Coords, EltTy.bits .f32 = 32 ∨ (Rect.block (s := S100000x40) S10000x40.size (cc5_transform_3 i) (hinb5_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v90) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v93) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S64x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S10000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S4x64x64 : Shape := ⟨3, ![4, 64, 64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x64 : Shape := ⟨2, ![100000, 64]⟩
abbrev S1x64 : Shape := ⟨2, ![1, 64]⟩
abbrev S900000x64 : Shape := ⟨2, ![900000, 64]⟩
abbrev S1x64x64 : Shape := ⟨3, ![1, 64, 64]⟩
abbrev S64x64 : Shape := ⟨2, ![64, 64]⟩
abbrev S100000x40 : Shape := ⟨2, ![100000, 40]⟩
abbrev S1x40 : Shape := ⟨2, ![1, 40]⟩

abbrev nBuf : Space → Nat
  | .hbm => 186
  | .vmem => 0
  | .smem => 0
  | _ => 0

abbrev hbmTy0_0 (i : Nat) : BufTy := match i % 128 with
  | 0 => ⟨S100000x128, .f32⟩
  | 1 => ⟨S2x800000, .i32⟩
  | 2 => ⟨S128x64, .f32⟩
  | 3 => ⟨S64, .f32⟩
  | 4 => ⟨S64x40, .f32⟩
  | 5 => ⟨S40, .f32⟩
  | 6 => ⟨S4x64x64, .f32⟩
  | 7 => ⟨S100000, .i32⟩
  | 8 => ⟨S1x800000, .i32⟩
  | 9 => ⟨S800000, .i32⟩
  | 10 => ⟨S900000, .i32⟩
  | 11 => ⟨S1x800000, .i32⟩
  | 12 => ⟨S800000, .i32⟩
  | 13 => ⟨S900000, .i32⟩
  | 14 => ⟨S_, .f32⟩
  | 15 => ⟨S900000, .f32⟩
  | 16 => ⟨S_, .f32⟩
  | 17 => ⟨S100000, .f32⟩
  | 18 => ⟨S900000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S900000, .i32⟩
  | 30 => ⟨S900000, .i1⟩
  | 31 => ⟨S_, .i32⟩
  | 32 => ⟨S900000, .i32⟩
  | 33 => ⟨S900000, .i32⟩
  | 34 => ⟨S900000, .i32⟩
  | 35 => ⟨S900000x1, .i32⟩
  | 36 => ⟨S900000, .f32⟩
  | 37 => ⟨S900000, .f32⟩
  | 38 => ⟨S_, .i32⟩
  | 39 => ⟨S900000, .i32⟩
  | 40 => ⟨S900000, .i1⟩
  | 41 => ⟨S_, .i32⟩
  | 42 => ⟨S900000, .i32⟩
  | 43 => ⟨S900000, .i32⟩
  | 44 => ⟨S900000, .i32⟩
  | 45 => ⟨S900000x1, .i32⟩
  | 46 => ⟨S900000, .f32⟩
  | 47 => ⟨S900000, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S900000x1, .f32⟩
  | 56 => ⟨S_, .i32⟩
  | 57 => ⟨S900000, .i32⟩
  | 58 => ⟨S900000, .i1⟩
  | 59 => ⟨S_, .i32⟩
  | 60 => ⟨S900000, .i32⟩
  | 61 => ⟨S900000, .i32⟩
  | 62 => ⟨S900000, .i32⟩
  | 63 => ⟨S900000x1, .i32⟩
  | 64 => ⟨S900000x64, .f32⟩
  | 65 => ⟨S900000x64, .f32⟩
  | 66 => ⟨S900000x64, .f32⟩
  | 67 => ⟨S_, .f32⟩
  | 68 => ⟨S100000x64, .f32⟩
  | 69 => ⟨S900000x1, .i32⟩
  | 70 => ⟨S100000x64, .f32⟩
  | 71 => ⟨S_, .f32⟩
  | 72 => ⟨S100000x64, .f32⟩
  | 73 => ⟨S100000x64, .f32⟩
  | 74 => ⟨S900000x1, .f32⟩
  | 75 => ⟨S_, .i32⟩
  | 76 => ⟨S900000, .i32⟩
  | 77 => ⟨S900000, .i1⟩
  | 78 => ⟨S_, .i32⟩
  | 79 => ⟨S900000, .i32⟩
  | 80 => ⟨S900000, .i32⟩
  | 81 => ⟨S900000, .i32⟩
  | 82 => ⟨S900000x1, .i32⟩
  | 83 => ⟨S900000x64, .f32⟩
  | 84 => ⟨S900000x64, .f32⟩
  | 85 => ⟨S900000x64, .f32⟩
  | 86 => ⟨S_, .f32⟩
  | 87 => ⟨S100000x64, .f32⟩
  | 88 => ⟨S900000x1, .i32⟩
  | 89 => ⟨S100000x64, .f32⟩
  | 90 => ⟨S_, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S1x64x64, .f32⟩
  | 101 => ⟨S64x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S900000x1, .f32⟩
  | 111 => ⟨S_, .i32⟩
  | 112 => ⟨S900000, .i32⟩
  | 113 => ⟨S900000, .i1⟩
  | 114 => ⟨S_, .i32⟩
  | 115 => ⟨S900000, .i32⟩
  | 116 => ⟨S900000, .i32⟩
  | 117 => ⟨S900000, .i32⟩
  | 118 => ⟨S900000x1, .i32⟩
  | 119 => ⟨S900000x64, .f32⟩
  | 120 => ⟨S900000x64, .f32⟩
  | 121 => ⟨S900000x64, .f32⟩
  | 122 => ⟨S_, .f32⟩
  | 123 => ⟨S100000x64, .f32⟩
  | 124 => ⟨S900000x1, .i32⟩
  | 125 => ⟨S100000x64, .f32⟩
  | 126 => ⟨S_, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S1x64x64, .f32⟩
  | 9 => ⟨S64x64, .f32⟩
  | 10 => ⟨S100000x64, .f32⟩
  | 11 => ⟨S_, .f32⟩
  | 12 => ⟨S100000x64, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S900000x1, .f32⟩
  | 19 => ⟨S_, .i32⟩
  | 20 => ⟨S900000, .i32⟩
  | 21 => ⟨S900000, .i1⟩
  | 22 => ⟨S_, .i32⟩
  | 23 => ⟨S900000, .i32⟩
  | 24 => ⟨S900000, .i32⟩
  | 25 => ⟨S900000, .i32⟩
  | 26 => ⟨S900000x1, .i32⟩
  | 27 => ⟨S900000x64, .f32⟩
  | 28 => ⟨S900000x64, .f32⟩
  | 29 => ⟨S900000x64, .f32⟩
  | 30 => ⟨S_, .f32⟩
  | 31 => ⟨S100000x64, .f32⟩
  | 32 => ⟨S900000x1, .i32⟩
  | 33 => ⟨S100000x64, .f32⟩
  | 34 => ⟨S_, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S1x64x64, .f32⟩
  | 45 => ⟨S64x64, .f32⟩
  | 46 => ⟨S100000x64, .f32⟩
  | 47 => ⟨S_, .f32⟩
  | 48 => ⟨S100000x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S100000x40, .f32⟩
  | 55 => ⟨S1x40, .f32⟩
  | 56 => ⟨S100000x40, .f32⟩
  | 57 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call2_cst : Ref sig .tc := ⟨.hbm, 71, rfl⟩
abbrev main_call2_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call3_cst : Ref sig .tc := ⟨.hbm, 107, rfl⟩
abbrev main_call3_v0 : Ref sig .tc := ⟨.hbm, 108, rfl⟩
abbrev main_v76 : Ref sig .tc := ⟨.hbm, 109, rfl⟩
abbrev main_v77 : Ref sig .tc := ⟨.hbm, 110, rfl⟩
abbrev main_c_16 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_18 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_19 : Ref sig .tc := ⟨.hbm, 126, rfl⟩
abbrev main_v90 : Ref sig .tc := ⟨.hbm, 127, rfl⟩
abbrev main_v91 : Ref sig .tc := ⟨.hbm, 128, rfl⟩
abbrev main_cst_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_21 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_22 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_call4_cst : Ref sig .tc := ⟨.hbm, 143, rfl⟩
abbrev main_call4_v0 : Ref sig .tc := ⟨.hbm, 144, rfl⟩
abbrev main_v103 : Ref sig .tc := ⟨.hbm, 145, rfl⟩
abbrev main_v104 : Ref sig .tc := ⟨.hbm, 146, rfl⟩
abbrev main_c_23 : Ref sig .tc := ⟨.hbm, 147, rfl⟩
abbrev main_v105 : Ref sig .tc := ⟨.hbm, 148, rfl⟩
abbrev main_v106 : Ref sig .tc := ⟨.hbm, 149, rfl⟩
abbrev main_c_24 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_25 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_26 : Ref sig .tc := ⟨.hbm, 162, rfl⟩
abbrev main_v117 : Ref sig .tc := ⟨.hbm, 163, rfl⟩
abbrev main_v118 : Ref sig .tc := ⟨.hbm, 164, rfl⟩
abbrev main_cst_27 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_28 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_29 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_call5_cst : Ref sig .tc := ⟨.hbm, 179, rfl⟩
abbrev main_call5_v0 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S900000x1_S900000x64_0_1 : S900000x1.BroadcastsInDim S900000x64 (![0, 1] : Fin 2 → Fin S900000x64.rank)
  slices_S4x64x64_S1x64x64_1_0_0 : S4x64x64.Slices ![1, 0, 0] S1x64x64
  shapeCasts_S1x64x64_S64x64 : S1x64x64.ShapeCasts S64x64
  slices_S4x64x64_S1x64x64_2_0_0 : S4x64x64.Slices ![2, 0, 0] S1x64x64
  slices_S4x64x64_S1x64x64_3_0_0 : S4x64x64.Slices ![3, 0, 0] S1x64x64
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.ResultRun.lean ====
/-
  The idealized kernel's run with its result named.

  The program is fourteen segments in a row: stretches of host operations and six kernel regions. Each segment
  is entered from the buffer contents the one before it left, so the contents at the return are a fold through the
  segments from the launch memory. Every execution terminates with every unscoped buffer at that fold's last value;
  read at the result buffer this names the result, and read at an argument's buffer it is the launch contents.
-/
import proofs.«116112_j81028853006976_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    value of the fold through the segments and the seven argument arrays as launched. -/
theorem run : θ_run defs (onTc (τ := τ) (main (F := F))) ⟨m, fun _ => 0, ρ⟩ (fun r => ∀ c : Dev nD,
      r.2.mem ((c.tc : Thread nD τ).loc main_v95) = W14 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v95 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.ResultRun

end
-- ==== Proof.LibKeep.lean ====
/-
  A buffer that a stretch of host operations does not write keeps its contents through the stretch.

  The contents of a device's buffers after a list of host operations are a fold over the list: each operation replaces the
  buffers it writes and leaves every other buffer. So the fold read at a buffer that no operation of the list writes is
  the contents before the list at that buffer. For a literal list over literal buffers this is decided operation by
  operation: each operation's written buffer is a different reference from the one read.
-/
import Idealize.ShloMosaic.Lib.StableHlo.Run

namespace Cert.Keep

open Idealize.ShloMosaic Idealize.ShloMosaic.StableHlo

/-- `keeps ops` closes a goal `after ops V b = V b` (or one that unfolds to it by abbreviations) when no operation of the
    literal list `ops` — nullary to quaternary operations, reshapes, indexed binary operations, an outlined function's
    typed-reference operations — writes the literal buffer `b`: every operation's written buffer is compared with `b`. -/
macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

end Cert.Keep
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.Stages.lean ====
/-
  The network as stage functions of whole arrays, on the extended reals.

  A graph of 100000 nodes and 800000 edges, each node also joined to itself: `ends0` and `ends1` list the 900000
  sources and targets. A node's degree counts the edges into it; `dinv` is its inverse square root where the degree is
  positive and zero elsewhere; an edge's weight is the product of `dinv` at its two ends (`normK`; `normR` is the same
  with a factor one in the middle). `prop` sends features along the edges: row `e` of the table is taken at the edge's
  source, scaled by the edge's weight and added into the row of its target. The dense stages are
  `fc0 x w b = max (x · w + b) 0`, `relu h = max h 0`,
  `layer β β' u v w = max (β · s + β' · (s · w)) 0` with `s = 0.9 · u + 0.1 · v` (both f32 words), and
  `fc1 h w b = h · w + b`. The network is `fc1` of three residual layers over `relu (prop (fc0 x))`.
-/
import proofs.«116112_j81028853006976_1_alg».proof.Proof.Gen.ReferenceIdeal
import Idealize.ShloMosaic.PureOps.Ideal

noncomputable section

namespace Cert.Gcn

open Cert.ReferenceIdeal Cert.ReferenceIdeal.Facts₀ Idealize.ShloMosaic

/-- Arrays of 32-bit integers and of extended reals of a shape. -/
abbrev I32 (s : Shape) := IVec s 32
abbrev F32 (s : Shape) := FVec Ideal s .f32

/-- The edges' sources, then every node once. -/
def ends0 (e : I32 S2x800000) : I32 S900000 :=
  concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0

/-- The edges' targets, then every node once. -/
def ends1 (e : I32 S2x800000) : I32 S900000 :=
  concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0

/-- The f32 word `b` at every entry of a shape. -/
abbrev splat1 (b : BitVec 32) : F32 S100000 := broadcastInDim S100000 ![] bcast_S_S100000 (constant (F := Ideal) S_ .f32 b)
abbrev splatE (b : BitVec 32) : F32 S900000 := broadcastInDim S900000 ![] bcast_S_S900000 (constant (F := Ideal) S_ .f32 b)
abbrev splat2 (b : BitVec 32) : F32 S100000x64 := broadcastInDim S100000x64 ![] bcast_S_S100000x64 (constant (F := Ideal) S_ .f32 b)

/-- A node's degree: one for every edge into it. -/
def deg (col : I32 S900000) : F32 S100000 :=
  Host.scatterAdd (F := Ideal) scatter_S100000_S900000x1_S900000_n_0_0_1 (splat1 0x00000000#32)
    (broadcastInDim S900000x1 ![0] bcast_S900000_S900000x1_0 col) (splatE 0x3F800000#32)

/-- The inverse square root of the degree where it is positive, zero elsewhere. -/
def dinv (col : I32 S900000) : F32 S100000 :=
  select (cmpf .ogt (deg col) (splat1 0x00000000#32)) (Host.rsqrt (F := Ideal) (deg col))
    (broadcastInDim S100000 ![] bcast_S_S100000 (id (constant (F := Ideal) S_ .f32 0x00000000#32)))

/-- Node numbers as gather indices: a negative number counted from the end, as a column. -/
def wrap (v : I32 S900000) : I32 S900000x1 :=
  broadcastInDim S900000x1 ![0] bcast_S900000_S900000x1_0
    (select (cmpi .slt v (broadcastInDim S900000 ![] bcast_S_S900000 (constantI S_ 32 0#32)))
      (addi v (broadcastInDim S900000 ![] bcast_S_S900000 (constantI S_ 32 100000#32))) v)

/-- An edge's weight: `dinv` at its source times `dinv` at its target. -/
def normK (row col : I32 S900000) : F32 S900000 :=
  mulf (Host.gather gather_S100000_S900000x1_S900000_n_0_n_n_0_1_1 (dinv col) (wrap row))
    (Host.gather gather_S100000_S900000x1_S900000_n_0_n_n_0_1_1 (dinv col) (wrap col))

/-- The same with the unit edge weight written out between the two factors. -/
def normR (row col : I32 S900000) : F32 S900000 :=
  mulf (mulf (Host.gather gather_S100000_S900000x1_S900000_n_0_n_n_0_1_1 (dinv col) (wrap row)) (splatE 0x3F800000#32))
    (Host.gather gather_S100000_S900000x1_S900000_n_0_n_n_0_1_1 (dinv col) (wrap col))

/-- Features sent along the edges: taken at each edge's source, scaled by its weight, added at its target. -/
def prop (nrm : F32 S900000) (row col : I32 S900000) (h : F32 S100000x64) : F32 S100000x64 :=
  Host.scatterAdd (F := Ideal) scatter_S100000x64_S900000x1_S900000x64_1_0_0_1 (splat2 0x00000000#32)
    (broadcastInDim S900000x1 ![0] bcast_S900000_S900000x1_0 col)
    (mulf (broadcastInDim S900000x64 ![0, 1] bcast_S900000x1_S900000x64_0_1 (broadcastInDim S900000x1 ![0] bcast_S900000_S900000x1_0 nrm))
      (Host.gather gather_S100000x64_S900000x1_S900000x64_1_0_n_n_0_1_164 h (wrap row)))

/-- The rectifier. -/
def relu (h : F32 S100000x64) : F32 S100000x64 := maximumf h (splat2 0x00000000#32)

/-- The first dense layer with its bias and rectifier. -/
def fc0 (x : F32 S100000x128) (w : F32 S128x64) (b : F32 S64) : F32 S100000x64 :=
  relu (addf (Host.dotGeneral (F := Ideal) dot_S100000x128_S128x64_S100000x64_1_0_0_1_n_n none x w)
    (broadcastInDim S100000x64 ![0, 1] bcast_S1x64_S100000x64_0_1 (broadcastInDim S1x64 ![1] bcast_S64_S1x64_1 b)))

/-- The residual combination of the propagated features and the first layer's. -/
def comb (u v : F32 S100000x64) : F32 S100000x64 := addf (mulf (splat2 0x3F666666#32) u) (mulf (splat2 0x3DCCCCCD#32) v)

/-- A residual layer with the f32 words `β`, `β'`. -/
def layer (β β' : BitVec 32) (u v : F32 S100000x64) (w : F32 S64x64) : F32 S100000x64 :=
  relu (addf (mulf (splat2 β) (comb u v))
    (mulf (splat2 β') (Host.dotGeneral (F := Ideal) dot_S100000x64_S64x64_S100000x64_1_0_0_1_n_n none (comb u v) w)))

/-- The last dense layer with its bias. -/
def fc1 (h : F32 S100000x64) (w : F32 S64x40) (b : F32 S40) : F32 S100000x40 :=
  addf (Host.dotGeneral (F := Ideal) dot_S100000x64_S64x40_S100000x40_1_0_0_1_n_n none h w)
    (broadcastInDim S100000x40 ![0, 1] bcast_S1x40_S100000x40_0_1 (broadcastInDim S1x40 ![1] bcast_S40_S1x40_1 b))

/-- The three layers' weight matrices out of the stack of four. -/
def w1 (s : F32 S4x64x64) : F32 S64x64 := shapeCast _ (extractStridedSlice S1x64x64 ![1, 0, 0] s slices_S4x64x64_S1x64x64_1_0_0) shapeCasts_S1x64x64_S64x64
def w2 (s : F32 S4x64x64) : F32 S64x64 := shapeCast _ (extractStridedSlice S1x64x64 ![2, 0, 0] s slices_S4x64x64_S1x64x64_2_0_0) shapeCasts_S1x64x64_S64x64
def w3 (s : F32 S4x64x64) : F32 S64x64 := shapeCast _ (extractStridedSlice S1x64x64 ![3, 0, 0] s slices_S4x64x64_S1x64x64_3_0_0) shapeCasts_S1x64x64_S64x64

/-- The features after the first propagation. -/
def feat1 (nrm : F32 S900000) (row col : I32 S900000) (x : F32 S100000x128) (w : F32 S128x64) (b : F32 S64) : F32 S100000x64 :=
  relu (prop nrm row col (fc0 x w b))
def feat2 (nrm : F32 S900000) (row col : I32 S900000) (x : F32 S100000x128) (w : F32 S128x64) (b : F32 S64) (s : F32 S4x64x64) : F32 S100000x64 :=
  layer 0x3F46E010#32 0x3E647FBE#32 (prop nrm row col (feat1 nrm row col x w b)) (feat1 nrm row col x w b) (w1 s)
def feat3 (nrm : F32 S900000) (row col : I32 S900000) (x : F32 S100000x128) (w : F32 S128x64) (b : F32 S64) (s : F32 S4x64x64) : F32 S100000x64 :=
  layer 0x3F588995#32 0x3E1DD9AD#32 (prop nrm row col (feat2 nrm row col x w b s)) (feat1 nrm row col x w b) (w2 s)
def feat4 (nrm : F32 S900000) (row col : I32 S900000) (x : F32 S100000x128) (w : F32 S128x64) (b : F32 S64) (s : F32 S4x64x64) : F32 S100000x64 :=
  layer 0x3F61D8F9#32 0x3DF1383B#32 (prop nrm row col (feat3 nrm row col x w b s)) (feat1 nrm row col x w b) (w3 s)

/-- The network's output. -/
def out (nrm : F32 S900000) (row col : I32 S900000) (x : F32 S100000x128) (w : F32 S128x64) (b : F32 S64)
    (w' : F32 S64x40) (b' : F32 S40) (s : F32 S4x64x64) : F32 S100000x40 :=
  fc1 (feat4 nrm row col x w b s) w' b'

end Cert.Gcn

end
-- ==== Proof.HostK.lean ====
/-
  What the kernel program's host stretches compute.

  Before the first region the program lists the edges' ends, counts degrees, takes the inverse square roots and
  multiplies them at the two ends of every edge, and reshapes the first bias to a row. Between regions it sends the last
  region's features along the edges (gather at the sources, scale, scatter-add at the targets) and cuts the next layer's
  weight matrix out of the stack; before the last region it reshapes the last bias to a row. Each of these is read here
  off the fold of the stretch's operations, from any contents `V` the stretch starts from, as the stage function of
  `V` at the buffers the stretch reads.
-/
import proofs.«116112_j81028853006976_1_alg».proof.Proof.Gen.KernelIdeal.Launch
import proofs.«116112_j81028853006976_1_alg».proof.Proof.LibHostRead
import proofs.«116112_j81028853006976_1_alg».proof.Proof.Stages

set_option maxRecDepth 16384

noncomputable section

namespace Cert.KernelIdeal.HostK

open Cert.KernelIdeal Cert.KernelIdeal.Gen Idealize.ShloMosaic Idealize.ShloMosaic.TcCoe Idealize.ShloMosaic.StableHlo
open Cert.HostRead

variable (V : Valuation τ sig (Elt Ideal))

/-- The edges' sources after the first three stretches. -/
theorem pre_row : after hostOps0_2 (after hostOps0_1 (after hostOps0 V)) (Proc.devRef .tc main_v3)
    = Cert.Gcn.ends0 (V (Proc.devRef .tc main_arg1)) := by
  read_results
  rfl

/-- The edges' targets after the first three stretches. -/
theorem pre_col : after hostOps0_2 (after hostOps0_1 (after hostOps0 V)) (Proc.devRef .tc main_v6)
    = Cert.Gcn.ends1 (V (Proc.devRef .tc main_arg1)) := by
  read_results
  rfl

/-- The edge weights after the first three stretches. -/
theorem pre_norm : after hostOps0_2 (after hostOps0_1 (after hostOps0 V)) (Proc.devRef .tc main_v29)
    = Cert.Gcn.normK (Cert.Gcn.ends0 (V (Proc.devRef .tc main_arg1))) (Cert.Gcn.ends1 (V (Proc.devRef .tc main_arg1))) := by
  read_results
  rfl

/-- The first bias as a row after the first three stretches. -/
theorem pre_bias : after hostOps0_2 (after hostOps0_1 (after hostOps0 V)) (Proc.devRef .tc main_v30)
    = shapeCast S1x64 (V (Proc.devRef .tc main_arg3)) Facts₀.shapeCasts_S64_S1x64 := by
  read_results
  rfl

/-- The first propagation. -/
theorem prop1 : after hostOps1 V (Proc.devRef .tc main_v44)
    = Cert.Gcn.prop (V (Proc.devRef .tc main_v29)) (V (Proc.devRef .tc main_v3)) (V (Proc.devRef .tc main_v6)) (V (Proc.devRef .tc main_v31)) := by
  read_results
  rfl

/-- The second propagation and the first layer's weights. -/
theorem prop2 : after hostOps2 V (Proc.devRef .tc main_v58)
    = Cert.Gcn.prop (V (Proc.devRef .tc main_v29)) (V (Proc.devRef .tc main_v3)) (V (Proc.devRef .tc main_v6)) (V (Proc.devRef .tc main_v45)) := by
  read_results
  rfl
theorem weights1 : after hostOps2 V (Proc.devRef .tc main_v60) = Cert.Gcn.w1 (V (Proc.devRef .tc main_arg6)) := by
  read_results
  rfl

/-- The third propagation and the second layer's weights. -/
theorem prop3 : after hostOps3 V (Proc.devRef .tc main_v74)
    = Cert.Gcn.prop (V (Proc.devRef .tc main_v29)) (V (Proc.devRef .tc main_v3)) (V (Proc.devRef .tc main_v6)) (V (Proc.devRef .tc main_v61)) := by
  read_results
  rfl
theorem weights2 : after hostOps3 V (Proc.devRef .tc main_v76) = Cert.Gcn.w2 (V (Proc.devRef .tc main_arg6)) := by
  read_results
  rfl

/-- The fourth propagation and the third layer's weights. -/
theorem prop4 : after hostOps4 V (Proc.devRef .tc main_v90)
    = Cert.Gcn.prop (V (Proc.devRef .tc main_v29)) (V (Proc.devRef .tc main_v3)) (V (Proc.devRef .tc main_v6)) (V (Proc.devRef .tc main_v77)) := by
  read_results
  rfl
theorem weights3 : after hostOps4 V (Proc.devRef .tc main_v92) = Cert.Gcn.w3 (V (Proc.devRef .tc main_arg6)) := by
  read_results
  rfl

/-- The last bias as a row. -/
theorem bias5 : after hostOps5 V (Proc.devRef .tc main_v94)
    = shapeCast S1x40 (V (Proc.devRef .tc main_arg5)) Facts₀.shapeCasts_S40_S1x40 := by
  read_results
  rfl

end Cert.KernelIdeal.HostK

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.Payloads.lean ====
/-
  What each kernel body stores, read at an entry, on the extended reals.

  Every body works on a band of rows. Its stored value at row `p`, column `q` depends on row `p` of the banded
  operands and on the whole of the small ones:
  * the first dense layer: `max (∑ k, x (p, k) · w (k, q) + b (0, q)) 0`;
  * the rectifier: `max (x (p, q)) 0`;
  * a residual layer with the combination `s (p, k) = a · u (p, k) + a' · v (p, k)` of the propagated features `u` and
    the first layer's features `v`: `max (β · s (p, q) + β' · ∑ k, s (p, k) · w (k, q)) 0`;
  * the last dense layer: `∑ k, x (p, k) · w (k, q) + b (0, q)`.
  A change of float format is the identity on the extended reals, and a matrix product into the zero accumulator is
  the plain sum of products.
-/
import proofs.«116112_j81028853006976_1_alg».proof.Proof.Gen.KernelIdeal.Skeleton
import proofs.«116112_j81028853006976_1_alg».proof.Proof.LibPlainDot
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx
open scoped BigOperators

/-- The residual combination at an entry. -/
def comb (a a' : EReal) (u v : EReal) : EReal := a * u + a' * v

/-- The first dense layer's stored value at `(p, q)`. -/
theorem dense_relu_apply (x : Vec Ideal S10000x128 .f32) (w : Vec Ideal S128x64 .f32) (b : Vec Ideal S1x64 .f32)
    (p : Fin 10000) (q : Fin 64) :
    k0_pay1 (F := Ideal) x w b (ix2 p q)
      = max ((∑ k : Fin 128, x (ix2 p k) * w (ix2 k q)) + b (ix2 (0 : Fin 1) q)) (Ideal.ofBits .f32 0x00000000#32) := by
  have hm : FloatOps.matmul (F := Ideal) dot_S10000x128_S128x64_S10000x64_1_0_0_1_n_n none
      (truncf .bf16 x bitsLt_bf16_f32 : FVec Ideal S10000x128 .bf16) (truncf .bf16 w bitsLt_bf16_f32 : FVec Ideal S128x64 .bf16)
      (constant S10000x64 .f32 0x00000000#32) (ix2 p q) = ∑ k : Fin 128, x (ix2 p k) * w (ix2 k q) := by
    rw [Ideal.matmul_constant_zero_apply]
    exact Cert.PlainDot.contraction_eq (M := 10000) (K := 128) (N := 64) x w p q
  have hb : broadcastTo S10000x64 (shapeCast S1x64 b shapeCasts_S1x64_S1x64) broadcasts_S1x64_S10000x64 (ix2 p q)
      = b (ix2 (0 : Fin 1) q) := by
    rw [shapeCast_self]; exact broadcastTo_1b_ab_apply b _ p q
  unfold k0_pay1
  exact congrArg₂ max (congrArg₂ (· + ·) hm hb) rfl

/-- The rectifier's stored value at `(p, q)`. -/
theorem relu_apply (x : Vec Ideal S10000x64 .f32) (p : Fin 10000) (q : Fin 64) :
    k1_pay1 (F := Ideal) x (ix2 p q) = max (x (ix2 p q)) (Ideal.ofBits .f32 0x00000000#32) := by
  have hx : shapeCast S10000x64 x shapeCasts_S10000x64_S10000x64 = x := shapeCast_self x _
  unfold k1_pay1
  exact congrArg₂ max (congrFun hx (ix2 p q)) rfl

/-- The last dense layer's stored value at `(p, q)`. -/
theorem dense_apply (x : Vec Ideal S10000x64 .f32) (w : Vec Ideal S64x40 .f32) (b : Vec Ideal S1x40 .f32)
    (p : Fin 10000) (q : Fin 40) :
    k5_pay1 (F := Ideal) x w b (ix2 p q)
      = (∑ k : Fin 64, x (ix2 p k) * w (ix2 k q)) + b (ix2 (0 : Fin 1) q) := by
  have hx : shapeCast S10000x64 x shapeCasts_S10000x64_S10000x64 = x := shapeCast_self x _
  have hm : FloatOps.matmul (F := Ideal) dot_S10000x64_S64x40_S10000x40_1_0_0_1_n_n none
      (truncf .bf16 (shapeCast S10000x64 x shapeCasts_S10000x64_S10000x64) bitsLt_bf16_f32 : FVec Ideal S10000x64 .bf16)
      (truncf .bf16 w bitsLt_bf16_f32 : FVec Ideal S64x40 .bf16)
      (constant S10000x40 .f32 0x00000000#32) (ix2 p q) = ∑ k : Fin 64, x (ix2 p k) * w (ix2 k q) := by
    rw [hx, Ideal.matmul_constant_zero_apply]
    exact Cert.PlainDot.contraction_eq (M := 10000) (K := 64) (N := 40) x w p q
  have hb : broadcastTo S10000x40 (shapeCast S1x40 b shapeCasts_S1x40_S1x40) broadcasts_S1x40_S10000x40 (ix2 p q)
      = b (ix2 (0 : Fin 1) q) := by
    rw [shapeCast_self]; exact broadcastTo_1b_ab_apply b _ p q
  unfold k5_pay1
  exact congrArg₂ (· + ·) hm hb

/-- Residual layer 1's stored value at `(p, q)`. -/
theorem layer2_apply (u v : Vec Ideal S10000x64 .f32) (w : Vec Ideal S64x64 .f32) (p : Fin 10000) (q : Fin 64) :
    k2_pay1 (F := Ideal) u v w (ix2 p q)
      = max (Ideal.ofBits .f32 0x3F46E010#32 * comb (Ideal.ofBits .f32 0x3F666666#32) (Ideal.ofBits .f32 0x3DCCCCCD#32) (u (ix2 p q)) (v (ix2 p q))
          + Ideal.ofBits .f32 0x3E647FBE#32 * ∑ k : Fin 64,
              comb (Ideal.ofBits .f32 0x3F666666#32) (Ideal.ofBits .f32 0x3DCCCCCD#32) (u (ix2 p k)) (v (ix2 p k)) * w (ix2 k q))
        (Ideal.ofBits .f32 0x00000000#32) := by
  have hu : shapeCast S10000x64 u shapeCasts_S10000x64_S10000x64 = u := shapeCast_self u _
  have hv : shapeCast S10000x64 v shapeCasts_S10000x64_S10000x64 = v := shapeCast_self v _
  have hw : shapeCast S64x64 w shapeCasts_S64x64_S64x64 = w := shapeCast_self w _
  have hm : ∀ s : Vec Ideal S10000x64 .f32, FloatOps.matmul (F := Ideal) dot_S10000x64_S64x64_S10000x64_1_0_0_1_n_n none
      (truncf .bf16 s bitsLt_bf16_f32 : FVec Ideal S10000x64 .bf16)
      (truncf .bf16 (shapeCast S64x64 w shapeCasts_S64x64_S64x64) bitsLt_bf16_f32 : FVec Ideal S64x64 .bf16)
      (constant S10000x64 .f32 0x00000000#32) (ix2 p q) = ∑ k : Fin 64, s (ix2 p k) * w (ix2 k q) := by
    intro s
    rw [hw, Ideal.matmul_constant_zero_apply]
    exact Cert.PlainDot.contraction_eq (M := 10000) (K := 64) (N := 64) s w p q
  unfold k2_pay1
  rw [hu, hv]
  exact congrArg₂ max (congrArg₂ (· + ·) rfl (congrArg (Ideal.ofBits .f32 0x3E647FBE#32 * ·) (hm _))) rfl

/-- Residual layer 2's stored value at `(p, q)`. -/
theorem layer3_apply (u v : Vec Ideal S10000x64 .f32) (w : Vec Ideal S64x64 .f32) (p : Fin 10000) (q : Fin 64) :
    k3_pay1 (F := Ideal) u v w (ix2 p q)
      = max (Ideal.ofBits .f32 0x3F588995#32 * comb (Ideal.ofBits .f32 0x3F666666#32) (Ideal.ofBits .f32 0x3DCCCCCD#32) (u (ix2 p q)) (v (ix2 p q))
          + Ideal.ofBits .f32 0x3E1DD9AD#32 * ∑ k : Fin 64,
              comb (Ideal.ofBits .f32 0x3F666666#32) (Ideal.ofBits .f32 0x3DCCCCCD#32) (u (ix2 p k)) (v (ix2 p k)) * w (ix2 k q))
        (Ideal.ofBits .f32 0x00000000#32) := by
  have hu : shapeCast S10000x64 u shapeCasts_S10000x64_S10000x64 = u := shapeCast_self u _
  have hv : shapeCast S10000x64 v shapeCasts_S10000x64_S10000x64 = v := shapeCast_self v _
  have hw : shapeCast S64x64 w shapeCasts_S64x64_S64x64 = w := shapeCast_self w _
  have hm : ∀ s : Vec Ideal S10000x64 .f32, FloatOps.matmul (F := Ideal) dot_S10000x64_S64x64_S10000x64_1_0_0_1_n_n none
      (truncf .bf16 s bitsLt_bf16_f32 : FVec Ideal S10000x64 .bf16)
      (truncf .bf16 (shapeCast S64x64 w shapeCasts_S64x64_S64x64) bitsLt_bf16_f32 : FVec Ideal S64x64 .bf16)
      (constant S10000x64 .f32 0x00000000#32) (ix2 p q) = ∑ k : Fin 64, s (ix2 p k) * w (ix2 k q) := by
    intro s
    rw [hw, Ideal.matmul_constant_zero_apply]
    exact Cert.PlainDot.contraction_eq (M := 10000) (K := 64) (N := 64) s w p q
  unfold k3_pay1
  rw [hu, hv]
  exact congrArg₂ max (congrArg₂ (· + ·) rfl (congrArg (Ideal.ofBits .f32 0x3E1DD9AD#32 * ·) (hm _))) rfl

/-- Residual layer 3's stored value at `(p, q)`. -/
theorem layer4_apply (u v : Vec Ideal S10000x64 .f32) (w : Vec Ideal S64x64 .f32) (p : Fin 10000) (q : Fin 64) :
    k4_pay1 (F := Ideal) u v w (ix2 p q)
      = max (Ideal.ofBits .f32 0x3F61D8F9#32 * comb (Ideal.ofBits .f32 0x3F666666#32) (Ideal.ofBits .f32 0x3DCCCCCD#32) (u (ix2 p q)) (v (ix2 p q))
          + Ideal.ofBits .f32 0x3DF1383B#32 * ∑ k : Fin 64,
              comb (Ideal.ofBits .f32 0x3F666666#32) (Ideal.ofBits .f32 0x3DCCCCCD#32) (u (ix2 p k)) (v (ix2 p k)) * w (ix2 k q))
        (Ideal.ofBits .f32 0x00000000#32) := by
  have hu : shapeCast S10000x64 u shapeCasts_S10000x64_S10000x64 = u := shapeCast_self u _
  have hv : shapeCast S10000x64 v shapeCasts_S10000x64_S10000x64 = v := shapeCast_self v _
  have hw : shapeCast S64x64 w shapeCasts_S64x64_S64x64 = w := shapeCast_self w _
  have hm : ∀ s : Vec Ideal S10000x64 .f32, FloatOps.matmul (F := Ideal) dot_S10000x64_S64x64_S10000x64_1_0_0_1_n_n none
      (truncf .bf16 s bitsLt_bf16_f32 : FVec Ideal S10000x64 .bf16)
      (truncf .bf16 (shapeCast S64x64 w shapeCasts_S64x64_S64x64) bitsLt_bf16_f32 : FVec Ideal S64x64 .bf16)
      (constant S10000x64 .f32 0x00000000#32) (ix2 p q) = ∑ k : Fin 64, s (ix2 p k) * w (ix2 k q) := by
    intro s
    rw [hw, Ideal.matmul_constant_zero_apply]
    exact Cert.PlainDot.contraction_eq (M := 10000) (K := 64) (N := 64) s w p q
  unfold k4_pay1
  rw [hu, hv]
  exact congrArg₂ max (congrArg₂ (· + ·) rfl (congrArg (Ideal.ofBits .f32 0x3DF1383B#32 * ·) (hm _))) rfl

end Cert.KernelIdeal.Payloads

end
-- ==== Proof.StagesAt.lean ====
/-
  The dense stages read at an entry.

  At row `r`, column `q` of a whole array, on the extended reals:
  `fc0 x w b = max (∑ k, x (r, k) · w (k, q) + b q) 0`, `relu h = max (h (r, q)) 0`,
  `layer β β' u v w = max (β · s (r, q) + β' · ∑ k, s (r, k) · w (k, q)) 0` with `s = 0.9 · u + 0.1 · v`, and
  `fc1 h w b = ∑ k, h (r, k) · w (k, q) + b q`. A word broadcast to a shape is that word at every entry, a bias
  broadcast along the rows is the bias at the column, and the host's matrix product is the plain sum of products.
-/
import proofs.«116112_j81028853006976_1_alg».proof.Proof.Stages
import proofs.«116112_j81028853006976_1_alg».proof.Proof.LibPlainDot
import Idealize.ShloMosaic.Lib.ValueLayout
import Idealize.ShloMosaic.Lib.Pipeline.Value

noncomputable section

namespace Cert.Gcn

open Cert.ReferenceIdeal Cert.ReferenceIdeal.Facts₀ Idealize.ShloMosaic Idealize.ShloMosaic.ValueIdx
open scoped BigOperators

/-- A word broadcast over the feature table is that word at every entry. -/
theorem splat2_apply (b : BitVec 32) (i : S100000x64.Idx) : splat2 b i = Ideal.ofBits .f32 b :=
  broadcastInDim_apply _ bcast_S_S100000x64 _ i (fun a => a.elim0) (fun a => a.elim0)

/-- The residual combination at a pair of entries. -/
def combAt (u v : EReal) : EReal := Ideal.ofBits .f32 0x3F666666#32 * u + Ideal.ofBits .f32 0x3DCCCCCD#32 * v

theorem relu_apply (h : F32 S100000x64) (i : S100000x64.Idx) :
    relu h i = max (h i) (Ideal.ofBits .f32 0x00000000#32) := by
  unfold relu
  exact congrArg (max (h i)) (splat2_apply _ i)

theorem comb_apply (u v : F32 S100000x64) (i : S100000x64.Idx) : comb u v i = combAt (u i) (v i) := by
  unfold comb combAt
  show splat2 _ i * u i + splat2 _ i * v i = _
  rw [splat2_apply, splat2_apply]

/-- The bias of the first dense layer, broadcast along the rows, at `(r, q)`. -/
theorem bias64_apply (b : F32 S64) (r : Fin 100000) (q : Fin 64) :
    broadcastInDim S100000x64 ![0, 1] bcast_S1x64_S100000x64_0_1 (broadcastInDim S1x64 ![1] bcast_S64_S1x64_1 b) (ix2 r q) = b (ix1 q) := by
  rw [broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-- The bias of the last dense layer, broadcast along the rows, at `(r, q)`. -/
theorem bias40_apply (b : F32 S40) (r : Fin 100000) (q : Fin 40) :
    broadcastInDim S100000x40 ![0, 1] bcast_S1x40_S100000x40_0_1 (broadcastInDim S1x40 ![1] bcast_S40_S1x40_1 b) (ix2 r q) = b (ix1 q) := by
  rw [broadcastInDim_apply _ bcast_S1x40_S100000x40_0_1 _ (ix2 r q) (ix2 (0 : Fin 1) q) (fun a => match a with
    | ⟨0, _⟩ => by show 0 = if (1 : Nat) = 1 then 0 else r.val; rw [if_pos rfl]
    | ⟨1, _⟩ => by show q.val = if (40 : Nat) = 1 then 0 else q.val; rw [if_neg (by decide)])]
  exact broadcastInDim_apply _ bcast_S40_S1x40_1 b (ix2 (0 : Fin 1) q) (ix1 q) (fun a => match a with
    | ⟨0, _⟩ => by show q.val = if (40 : Nat) = 1 then 0 else q.val; rw [if_neg (by decide)])

theorem fc0_apply (x : F32 S100000x128) (w : F32 S128x64) (b : F32 S64) (r : Fin 100000) (q : Fin 64) :
    fc0 x w b (ix2 r q) = max ((∑ k : Fin 128, x (ix2 r k) * w (ix2 k q)) + b (ix1 q)) (Ideal.ofBits .f32 0x00000000#32) := by
  unfold fc0
  rw [relu_apply]
  refine congrArg (max · _) ?_
  show Host.dotGeneral (F := Ideal) dot_S100000x128_S128x64_S100000x64_1_0_0_1_n_n none x w (ix2 r q) + _ = _
  rw [bias64_apply]
  exact congrArg (· + b (ix1 q)) (Cert.PlainDot.dotGeneral_apply (M := 100000) (K := 128) (N := 64) none _ x w r q)

theorem layer_apply (β β' : BitVec 32) (u v : F32 S100000x64) (w : F32 S64x64) (r : Fin 100000) (q : Fin 64) :
    layer β β' u v w (ix2 r q)
      = max (Ideal.ofBits .f32 β * combAt (u (ix2 r q)) (v (ix2 r q))
          + Ideal.ofBits .f32 β' * ∑ k : Fin 64, combAt (u (ix2 r k)) (v (ix2 r k)) * w (ix2 k q))
        (Ideal.ofBits .f32 0x00000000#32) := by
  unfold layer
  rw [relu_apply]
  refine congrArg (max · _) ?_
  show splat2 β (ix2 r q) * comb u v (ix2 r q)
      + splat2 β' (ix2 r q) * Host.dotGeneral (F := Ideal) dot_S100000x64_S64x64_S100000x64_1_0_0_1_n_n none (comb u v) w (ix2 r q) = _
  rw [splat2_apply, splat2_apply, comb_apply]
  refine congrArg (fun z => Ideal.ofBits .f32 β * combAt (u (ix2 r q)) (v (ix2 r q)) + Ideal.ofBits .f32 β' * z) ?_
  refine (Cert.PlainDot.dotGeneral_apply (M := 100000) (K := 64) (N := 64) none _ (comb u v) w r q).trans ?_
  exact Finset.sum_congr rfl fun k _ => by rw [comb_apply]

theorem fc1_apply (h : F32 S100000x64) (w : F32 S64x40) (b : F32 S40) (r : Fin 100000) (q : Fin 40) :
    fc1 h w b (ix2 r q) = (∑ k : Fin 64, h (ix2 r k) * w (ix2 k q)) + b (ix1 q) := by
  unfold fc1
  show Host.dotGeneral (F := Ideal) dot_S100000x64_S64x40_S100000x40_1_0_0_1_n_n none h w (ix2 r q) + _ = _
  rw [bias40_apply]
  exact congrArg (· + b (ix1 q)) (Cert.PlainDot.dotGeneral_apply (M := 100000) (K := 64) (N := 40) none _ h w r q)

end Cert.Gcn

end
-- ==== Proof.Region0.lean ====
/-
  Region 0 (the first dense layer) as a whole-array function.

  The region walks ten bands of 10000 rows. At band `t` the body reads rows `10000·t … 10000·t + 9999` of the input,
  the whole weight matrix and the bias row, and writes the same rows of the output. Row `p` of what it writes depends on
  row `p` of the band only, which is row `10000·t + p` of the array, so every band is the restriction of one function of
  the whole arrays — `fc0` — and the ten bands cover the output.
-/
import proofs.«116112_j81028853006976_1_alg».proof.Proof.Gen.KernelIdeal.Frame
import proofs.«116112_j81028853006976_1_alg».proof.Proof.Payloads
import proofs.«116112_j81028853006976_1_alg».proof.Proof.StagesAt

set_option maxRecDepth 16384

noncomputable section

namespace Cert.KernelIdeal.Region0

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the banded windows are at band `t`, the others at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What band `t` writes back is band `t` of `fc0` of the arrays as the region finds them. -/
theorem flushed_eq (c : Dev nD) (b : Cert.Gcn.F32 S64)
    (hb : V c main_v30 = shapeCast S1x64 b Facts₀.shapeCasts_S64_S1x64) (t : Fin cfg0.N) :
    (dat0 V c).flushed 3 t
      = ((cfg0.win 3).blk t).view.read (Elt Ideal) (Cert.Gcn.fc0 (V c main_arg0) (V c main_arg2) b) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨e0, e1, e2, e3, e4, e5, e6, e7⟩ := idx_facts t
  have ht : t.val < 10 := by have h1 : t.val < grid0.N := t.isLt; have h2 := N_0; omega
  funext j
  obtain ⟨p, q, rfl⟩ : ∃ (p : Fin 10000) (q : Fin 64), j = ix2 p q := ⟨j 0, j 1, eq_ix2 j⟩
  have hr : t.val * 10000 + p.val < 100000 := by have := p.isLt; omega
  show k0_pay1 (iblk0 V c 0 t) (iblk0 V c 1 t) (iblk0 V c 2 t) (ix2 p q)
    = Cert.Gcn.fc0 (V c main_arg0) (V c main_arg2) b (((cfg0.win 3).blk t).view.emb (ix2 p q))
  have hemb : ((cfg0.win 3).blk t).view.emb (ix2 p q) = ix2 (⟨t.val * 10000 + p.val, hr⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  rw [hemb, Cert.Gcn.fc0_apply]
  refine (Payloads.dense_relu_apply (iblk0 V c 0 t) (iblk0 V c 1 t) (iblk0 V c 2 t) p q).trans ?_
  have hx : ∀ k : Fin 128, iblk0 V c 0 t (ix2 p k) = V c main_arg0 (ix2 (⟨t.val * 10000 + p.val, hr⟩ : Fin 100000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have hw : ∀ k : Fin 128, iblk0 V c 1 t (ix2 k q) = V c main_arg2 (ix2 k q) := fun k => by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  have hbias : iblk0 V c 2 t (ix2 (0 : Fin 1) q) = b (ix1 q) := by
    show V c main_v30 (((cfg0.win 2).blk t).view.emb (ix2 (0 : Fin 1) q)) = _
    have he : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 64 + 1 * q.val = q.val; omega
    rw [he, hb]
    exact shapeCast_a_1a_apply b _ (0 : Fin 1) q
  exact congrArg₂ max (congrArg₂ (· + ·) (Finset.sum_congr rfl fun k _ => by rw [hx k, hw k]) hbias) rfl

/-- An index of the output is in band `t` iff each coordinate is in the band's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v31).slice (win0_3.rect t)).set ↔ _
  rw [View.set_slice_whole, Rect.mem_set_unit]
  exact Iff.rfl

/-- Every index of the output is in the band of its row's quotient by 10000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN := N_0
  refine ⟨⟨(i 0).val / 10000, by show (i 0).val / 10000 < grid0.N; omega⟩, flush0_3 _, ?_⟩
  rw [mem_blk]
  obtain ⟨e0, e1, e2, e3, e4, e5, e6, e7⟩ := idx_facts ⟨(i 0).val / 10000, by show (i 0).val / 10000 < grid0.N; omega⟩
  intro a
  match a with
  | ⟨0, _⟩ =>
    show win0_3.index _ (0 : Fin 2) * 10000 ≤ (i 0).val ∧ (i 0).val < win0_3.index _ (0 : Fin 2) * 10000 + 10000
    rw [e6]; show (i 0).val / 10000 * 10000 ≤ (i 0).val ∧ (i 0).val < (i 0).val / 10000 * 10000 + 10000; omega
  | ⟨1, _⟩ =>
    show win0_3.index _ (1 : Fin 2) * 64 ≤ (i 1).val ∧ (i 1).val < win0_3.index _ (1 : Fin 2) * 64 + 64
    rw [e7]; omega

/-- The output array after the region is `fc0` of the input, the weights and the bias. -/
theorem value (c : Dev nD) (b : Cert.Gcn.F32 S64) (hb : V c main_v30 = shapeCast S1x64 b Facts₀.shapeCasts_S64_S1x64) :
    (dat0 V c).arrAt 3 cfg0.N = Cert.Gcn.fc0 (V c main_arg0) (V c main_arg2) b :=
  (dat0 V c).arrAt_eq_of_cover 3 _ (fun t _ => flushed_eq V c b hb t) cover

end Cert.KernelIdeal.Region0

end
-- ==== Proof.Region1.lean ====
/-
  Region 1 (the rectifier) as a whole-array function.

  Ten bands of 10000 rows; at band `t` the body reads rows `10000·t …` of its input and writes `max · 0` of them to the
  same rows of the output. Every band is the restriction of `relu` of the whole input, and the bands cover the output.
-/
import proofs.«116112_j81028853006976_1_alg».proof.Proof.Gen.KernelIdeal.Frame
import proofs.«116112_j81028853006976_1_alg».proof.Proof.Payloads
import proofs.«116112_j81028853006976_1_alg».proof.Proof.StagesAt

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: first the output window's, then the input window's. -/
theorem idx_facts : ∀ t : Fin cfg1.N, (win1_1.index t (0 : Fin 2) = t.val ∧ win1_1.index t (1 : Fin 2) = 0)
    ∧ win1_0.index t (0 : Fin 2) = t.val ∧ win1_0.index t (1 : Fin 2) = 0 :=
  (by decide +kernel : ∀ t : Fin grid1.N, _)

/-- What band `t` writes back is band `t` of `relu` of the input array as the region finds it. -/
theorem flushed_eq (c : Dev nD) (t : Fin cfg1.N) :
    (dat1 V c).flushed 1 t = ((cfg1.win 1).blk t).view.read (Elt Ideal) (Cert.Gcn.relu (V c main_v44)) := by
  show (cfg1.win 1).cut (grid1.coords t) ((dat1 V c).after 1 t) = _
  rw [after1_1]
  unfold out1_1
  rw [View.canon_unit_zero hz]
  simp only [View.ld_unit_zero (S := S10000x64) hz]
  obtain ⟨⟨o0, o1⟩, e0, e1⟩ := idx_facts t
  have ht : t.val < 10 := by have h1 : t.val < grid1.N := t.isLt; have h2 := N_1; omega
  funext j
  obtain ⟨p, q, rfl⟩ : ∃ (p : Fin 10000) (q : Fin 64), j = ix2 p q := ⟨j 0, j 1, eq_ix2 j⟩
  have hr : t.val * 10000 + p.val < 100000 := by have := p.isLt; omega
  show k1_pay1 (iblk1 V c 0 t) (ix2 p q) = Cert.Gcn.relu (V c main_v44) (((cfg1.win 1).blk t).view.emb (ix2 p q))
  have hemb : ((cfg1.win 1).blk t).view.emb (ix2 p q) = ix2 (⟨t.val * 10000 + p.val, hr⟩ : Fin 100000) q := by
    funext a; apply Fin.ext
    match a with
    | ⟨0, _⟩ => show win1_1.index t (0 : Fin 2) * 10000 + 1 * p.val = t.val * 10000 + p.val; omega
    | ⟨1, _⟩ => show win1_1.index t (1 : Fin 2) * 64 + 1 * q.val = q.val; omega
  rw [hemb, Cert.Gcn.relu_apply]
  refine (Payloads.relu_apply (iblk1 V c 0 t) p q).trans ?_
  have hx : ∀ k : Fin 64, iblk1 V c 0 t (ix2 p k) = V c main_v44 (ix2 (⟨t.val * 10000 + p.val, hr⟩ : Fin 100000) k) := fun k => by
    show V c main_v44 (((cfg1.win 0).blk t).view.emb (ix2 p k)) = _
    refine congrArg (V c main_v44) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  rw [hx q]

/-- An index of the output is in band `t` iff each coordinate is in the band's range on its axis. -/
theorem mem_blk (t : Fin cfg1.N) (i : S100000x64.Idx) :
    i ∈ ((cfg1.win 1).blk t).view.set ↔ ∀ a : Fin 2, win1_1.index t a * S10000x64.size a ≤ (i a).val
      ∧ (i a).val < win1_1.index t a * S10000x64.size a + S10000x64.size a := by
  show i ∈ ((View.whole main_v45).slice (win1_1.rect t)).set ↔ _
  rw [View.set_slice_whole, Rect.mem_set_unit]
  exact Iff.rfl

/-- Every index of the output is in the band of its row's quotient by 10000. -/
theorem cover (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  have hN := N_1
  refine ⟨⟨(i 0).val / 10000, by show (i 0).val / 10000 < grid1.N; omega⟩, flush1_1 _, ?_⟩
  rw [mem_blk]
  have eo := (idx_facts ⟨(i 0).val / 10000, by show (i 0).val / 10000 < grid1.N; omega⟩).1
  intro a
  match a with
  | ⟨0, _⟩ =>
    show win1_1.index _ (0 : Fin 2) * 10000 ≤ (i 0).val ∧ (i 0).val < win1_1.index _ (0 : Fin 2) * 10000 + 10000
    rw [eo.1]; show (i 0).val / 10000 * 10000 ≤ (i 0).val ∧ (i 0).val < (i 0).val / 10000 * 10000 + 10000; omega
  | ⟨1, _⟩ =>
    show win1_1.index _ (1 : Fin 2) * 64 ≤ (i 1).val ∧ (i 1).val < win1_1.index _ (1 : Fin 2) * 64 + 64
    rw [eo.2]; omega

/-- The output array after the region. -/
theorem value (c : Dev nD) :
    (dat1 V c).arrAt 1 cfg1.N = Cert.Gcn.relu (V c main_v44) :=
  (dat1 V c).arrAt_eq_of_cover 1 _ (fun t _ => flushed_eq V c t) cover

end Cert.KernelIdeal.Region1

end
-- ==== Proof.Region2.lean ====
/-
  Region 2 (residual layer 1) as a whole-array function.

  Ten bands of 10000 rows; at band `t` the body reads rows `10000·t …` of the propagated features and of the first
  layer's features, and the whole weight matrix, and writes the same rows of the output. Row `p` of what it writes depends
  on row `p` of the two bands only, so every band is the restriction of `layer` of the whole arrays, and the bands cover
  the output.
-/
import proofs.«116112_j81028853006976_1_alg».proof.Proof.Gen.KernelIdeal.Frame
import proofs.«116112_j81028853006976_1_alg».proof.Proof.Payloads
import proofs.«116112_j81028853006976_1_alg».proof.Proof.StagesAt

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: first the output window's, then the input windows'. -/
theorem idx_facts : ∀ t : Fin cfg2.N, (win2_3.index t (0 : Fin 2) = t.val ∧ win2_3.index t (1 : Fin 2) = 0)
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- What band `t` writes back is band `t` of `layer` of the arrays as the region finds them. -/
theorem flushed_eq (c : Dev nD) (t : Fin cfg2.N) :
    (dat2 V c).flushed 3 t = ((cfg2.win 3).blk t).view.read (Elt Ideal)
      (Cert.Gcn.layer 0x3F46E010#32 0x3E647FBE#32 (V c main_v58) (V c main_v45) (V c main_v60)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x64) hz]
  obtain ⟨⟨o0, o1⟩, e0, e1, e2, e3, e4, e5⟩ := idx_facts t
  have ht : t.val < 10 := by have h1 : t.val < grid2.N := t.isLt; have h2 := N_2; omega
  funext j
  obtain ⟨p, q, rfl⟩ : ∃ (p : Fin 10000) (q : Fin 64), j = ix2 p q := ⟨j 0, j 1, eq_ix2 j⟩
  have hr : t.val * 10000 + p.val < 100000 := by have := p.isLt; omega
  show k2_pay1 (iblk2 V c 0 t) (iblk2 V c 1 t) (iblk2 V c 2 t) (ix2 p q)
    = Cert.Gcn.layer 0x3F46E010#32 0x3E647FBE#32 (V c main_v58) (V c main_v45) (V c main_v60) (((cfg2.win 3).blk t).view.emb (ix2 p q))
  have hemb : ((cfg2.win 3).blk t).view.emb (ix2 p q) = ix2 (⟨t.val * 10000 + p.val, hr⟩ : Fin 100000) q := by
    funext a; apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  rw [hemb, Cert.Gcn.layer_apply]
  refine (Payloads.layer2_apply (iblk2 V c 0 t) (iblk2 V c 1 t) (iblk2 V c 2 t) p q).trans ?_
  have hu : ∀ k : Fin 64, iblk2 V c 0 t (ix2 p k) = V c main_v58 (ix2 (⟨t.val * 10000 + p.val, hr⟩ : Fin 100000) k) := fun k => by
    show V c main_v58 (((cfg2.win 0).blk t).view.emb (ix2 p k)) = _
    refine congrArg (V c main_v58) ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  have hv : ∀ k : Fin 64, iblk2 V c 1 t (ix2 p k) = V c main_v45 (ix2 (⟨t.val * 10000 + p.val, hr⟩ : Fin 100000) k) := fun k => by
    show V c main_v45 (((cfg2.win 1).blk t).view.emb (ix2 p k)) = _
    refine congrArg (V c main_v45) ?_
    funext a; apply Fin.ext
    match a with
    | ⟨0, _⟩ => show win2_1.index t (0 : Fin 2) * 10000 + 1 * p.val = t.val * 10000 + p.val; omega
    | ⟨1, _⟩ => show win2_1.index t (1 : Fin 2) * 64 + 1 * k.val = k.val; omega
  have hw : ∀ k : Fin 64, iblk2 V c 2 t (ix2 k q) = V c main_v60 (ix2 k q) := fun k => by
    show V c main_v60 (((cfg2.win 2).blk t).view.emb (ix2 k q)) = _
    refine congrArg (V c main_v60) ?_
    funext a; apply Fin.ext
    match a with
    | ⟨0, _⟩ => show win2_2.index t (0 : Fin 2) * 64 + 1 * k.val = k.val; omega
    | ⟨1, _⟩ => show win2_2.index t (1 : Fin 2) * 64 + 1 * q.val = q.val; omega
  have e1 : Payloads.comb (Ideal.ofBits .f32 0x3F666666#32) (Ideal.ofBits .f32 0x3DCCCCCD#32) (iblk2 V c 0 t (ix2 p q)) (iblk2 V c 1 t (ix2 p q))
      = Cert.Gcn.combAt (V c main_v58 (ix2 (⟨t.val * 10000 + p.val, hr⟩ : Fin 100000) q)) (V c main_v45 (ix2 (⟨t.val * 10000 + p.val, hr⟩ : Fin 100000) q)) := by
    rw [hu q, hv q]; rfl
  have e2 : (∑ k : Fin 64, Payloads.comb (Ideal.ofBits .f32 0x3F666666#32) (Ideal.ofBits .f32 0x3DCCCCCD#32) (iblk2 V c 0 t (ix2 p k)) (iblk2 V c 1 t (ix2 p k)) * iblk2 V c 2 t (ix2 k q))
      = ∑ k : Fin 64, Cert.Gcn.combAt (V c main_v58 (ix2 (⟨t.val * 10000 + p.val, hr⟩ : Fin 100000) k)) (V c main_v45 (ix2 (⟨t.val * 10000 + p.val, hr⟩ : Fin 100000) k)) * V c main_v60 (ix2 k q) :=
    Finset.sum_congr rfl fun k _ => by rw [hu k, hv k, hw k]; rfl
  rw [e1, e2]

/-- An index of the output is in band `t` iff each coordinate is in the band's range on its axis. -/
theorem mem_blk (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v61).slice (win2_3.rect t)).set ↔ _
  rw [View.set_slice_whole, Rect.mem_set_unit]
  exact Iff.rfl

/-- Every index of the output is in the band of its row's quotient by 10000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN := N_2
  refine ⟨⟨(i 0).val / 10000, by show (i 0).val / 10000 < grid2.N; omega⟩, flush2_3 _, ?_⟩
  rw [mem_blk]
  have eo := (idx_facts ⟨(i 0).val / 10000, by show (i 0).val / 10000 < grid2.N; omega⟩).1
  intro a
  match a with
  | ⟨0, _⟩ =>
    show win2_3.index _ (0 : Fin 2) * 10000 ≤ (i 0).val ∧ (i 0).val < win2_3.index _ (0 : Fin 2) * 10000 + 10000
    rw [eo.1]; show (i 0).val / 10000 * 10000 ≤ (i 0).val ∧ (i 0).val < (i 0).val / 10000 * 10000 + 10000; omega
  | ⟨1, _⟩ =>
    show win2_3.index _ (1 : Fin 2) * 64 ≤ (i 1).val ∧ (i 1).val < win2_3.index _ (1 : Fin 2) * 64 + 64
    rw [eo.2]; omega

/-- The output array after the region. -/
theorem value (c : Dev nD) :
    (dat2 V c).arrAt 3 cfg2.N = Cert.Gcn.layer 0x3F46E010#32 0x3E647FBE#32 (V c main_v58) (V c main_v45) (V c main_v60) :=
  (dat2 V c).arrAt_eq_of_cover 3 _ (fun t _ => flushed_eq V c t) cover

end Cert.KernelIdeal.Region2

end
-- ==== Proof.Region3.lean ====
/-
  Region 3 (residual layer 2) as a whole-array function.

  Ten bands of 10000 rows; at band `t` the body reads rows `10000·t …` of the propagated features and of the first
  layer's features, and the whole weight matrix, and writes the same rows of the output. Row `p` of what it writes depends
  on row `p` of the two bands only, so every band is the restriction of `layer` of the whole arrays, and the bands cover
  the output.
-/
import proofs.«116112_j81028853006976_1_alg».proof.Proof.Gen.KernelIdeal.Frame
import proofs.«116112_j81028853006976_1_alg».proof.Proof.Payloads
import proofs.«116112_j81028853006976_1_alg».proof.Proof.StagesAt

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: first the output window's, then the input windows'. -/
theorem idx_facts : ∀ t : Fin cfg3.N, (win3_3.index t (0 : Fin 2) = t.val ∧ win3_3.index t (1 : Fin 2) = 0)
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- What band `t` writes back is band `t` of `layer` of the arrays as the region finds them. -/
theorem flushed_eq (c : Dev nD) (t : Fin cfg3.N) :
    (dat3 V c).flushed 3 t = ((cfg3.win 3).blk t).view.read (Elt Ideal)
      (Cert.Gcn.layer 0x3F588995#32 0x3E1DD9AD#32 (V c main_v74) (V c main_v45) (V c main_v76)) := by
  show (cfg3.win 3).cut (grid3.coords t) ((dat3 V c).after 3 t) = _
  rw [after3_3]
  unfold out3_3
  rw [View.canon_unit_zero hz]
  simp only [View.ld_unit_zero (S := S10000x64) hz, View.ld_unit_zero (S := S64x64) hz]
  obtain ⟨⟨o0, o1⟩, e0, e1, e2, e3, e4, e5⟩ := idx_facts t
  have ht : t.val < 10 := by have h1 : t.val < grid3.N := t.isLt; have h2 := N_3; omega
  funext j
  obtain ⟨p, q, rfl⟩ : ∃ (p : Fin 10000) (q : Fin 64), j = ix2 p q := ⟨j 0, j 1, eq_ix2 j⟩
  have hr : t.val * 10000 + p.val < 100000 := by have := p.isLt; omega
  show k3_pay1 (iblk3 V c 0 t) (iblk3 V c 1 t) (iblk3 V c 2 t) (ix2 p q)
    = Cert.Gcn.layer 0x3F588995#32 0x3E1DD9AD#32 (V c main_v74) (V c main_v45) (V c main_v76) (((cfg3.win 3).blk t).view.emb (ix2 p q))
  have hemb : ((cfg3.win 3).blk t).view.emb (ix2 p q) = ix2 (⟨t.val * 10000 + p.val, hr⟩ : Fin 100000) q := by
    funext a; apply Fin.ext
    match a with
    | ⟨0, _⟩ => show win3_3.index t (0 : Fin 2) * 10000 + 1 * p.val = t.val * 10000 + p.val; omega
    | ⟨1, _⟩ => show win3_3.index t (1 : Fin 2) * 64 + 1 * q.val = q.val; omega
  rw [hemb, Cert.Gcn.layer_apply]
  refine (Payloads.layer3_apply (iblk3 V c 0 t) (iblk3 V c 1 t) (iblk3 V c 2 t) p q).trans ?_
  have hu : ∀ k : Fin 64, iblk3 V c 0 t (ix2 p k) = V c main_v74 (ix2 (⟨t.val * 10000 + p.val, hr⟩ : Fin 100000) k) := fun k => by
    show V c main_v74 (((cfg3.win 0).blk t).view.emb (ix2 p k)) = _
    refine congrArg (V c main_v74) ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * k.val = k.val; omega
  have hv : ∀ k : Fin 64, iblk3 V c 1 t (ix2 p k) = V c main_v45 (ix2 (⟨t.val * 10000 + p.val, hr⟩ : Fin 100000) k) := fun k => by
    show V c main_v45 (((cfg3.win 1).blk t).view.emb (ix2 p k)) = _
    refine congrArg (V c main_v45) ?_
    funext a; apply Fin.ext
    match a with
    | ⟨0, _⟩ => show win3_1.index t (0 : Fin 2) * 10000 + 1 * p.val = t.val * 10000 + p.val; omega
    | ⟨1, _⟩ => show win3_1.index t (1 : Fin 2) * 64 + 1 * k.val = k.val; omega
  have hw : ∀ k : Fin 64, iblk3 V c 2 t (ix2 k q) = V c main_v76 (ix2 k q) := fun k => by
    show V c main_v76 (((cfg3.win 2).blk t).view.emb (ix2 k q)) = _
    refine congrArg (V c main_v76) ?_
    funext a; apply Fin.ext
    match a with
    | ⟨0, _⟩ => show win3_2.index t (0 : Fin 2) * 64 + 1 * k.val = k.val; omega
    | ⟨1, _⟩ => show win3_2.index t (1 : Fin 2) * 64 + 1 * q.val = q.val; omega
  have e1 : Payloads.comb (Ideal.ofBits .f32 0x3F666666#32) (Ideal.ofBits .f32 0x3DCCCCCD#32) (iblk3 V c 0 t (ix2 p q)) (iblk3 V c 1 t (ix2 p q))
      = Cert.Gcn.combAt (V c main_v74 (ix2 (⟨t.val * 10000 + p.val, hr⟩ : Fin 100000) q)) (V c main_v45 (ix2 (⟨t.val * 10000 + p.val, hr⟩ : Fin 100000) q)) := by
    rw [hu q, hv q]; rfl
  have e2 : (∑ k : Fin 64, Payloads.comb (Ideal.ofBits .f32 0x3F666666#32) (Ideal.ofBits .f32 0x3DCCCCCD#32) (iblk3 V c 0 t (ix2 p k)) (iblk3 V c 1 t (ix2 p k)) * iblk3 V c 2 t (ix2 k q))
      = ∑ k : Fin 64, Cert.Gcn.combAt (V c main_v74 (ix2 (⟨t.val * 10000 + p.val, hr⟩ : Fin 100000) k)) (V c main_v45 (ix2 (⟨t.val * 10000 + p.val, hr⟩ : Fin 100000) k)) * V c main_v76 (ix2 k q) :=
    Finset.sum_congr rfl fun k _ => by rw [hu k, hv k, hw k]; rfl
  rw [e1, e2]

/-- An index of the output is in band `t` iff each coordinate is in the band's range on its axis. -/
theorem mem_blk (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v77).slice (win3_3.rect t)).set ↔ _
  rw [View.set_slice_whole, Rect.mem_set_unit]
  exact Iff.rfl

/-- Every index of the output is in the band of its row's quotient by 10000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN := N_3
  refine ⟨⟨(i 0).val / 10000, by show (i 0).val / 10000 < grid3.N; omega⟩, flush3_3 _, ?_⟩
  rw [mem_blk]
  have eo := (idx_facts ⟨(i 0).val / 10000, by show (i 0).val / 10000 < grid3.N; omega⟩).1
  intro a
  match a with
  | ⟨0, _⟩ =>
    show win3_3.index _ (0 : Fin 2) * 10000 ≤ (i 0).val ∧ (i 0).val < win3_3.index _ (0 : Fin 2) * 10000 + 10000
    rw [eo.1]; show (i 0).val / 10000 * 10000 ≤ (i 0).val ∧ (i 0).val < (i 0).val / 10000 * 10000 + 10000; omega
  | ⟨1, _⟩ =>
    show win3_3.index _ (1 : Fin 2) * 64 ≤ (i 1).val ∧ (i 1).val < win3_3.index _ (1 : Fin 2) * 64 + 64
    rw [eo.2]; omega

/-- The output array after the region. -/
theorem value (c : Dev nD) :
    (dat3 V c).arrAt 3 cfg3.N = Cert.Gcn.layer 0x3F588995#32 0x3E1DD9AD#32 (V c main_v74) (V c main_v45) (V c main_v76) :=
  (dat3 V c).arrAt_eq_of_cover 3 _ (fun t _ => flushed_eq V c t) cover

end Cert.KernelIdeal.Region3

end
-- ==== Proof.Region4.lean ====
/-
  Region 4 (residual layer 3) as a whole-array function.

  Ten bands of 10000 rows; at band `t` the body reads rows `10000·t …` of the propagated features and of the first
  layer's features, and the whole weight matrix, and writes the same rows of the output. Row `p` of what it writes depends
  on row `p` of the two bands only, so every band is the restriction of `layer` of the whole arrays, and the bands cover
  the output.
-/
import proofs.«116112_j81028853006976_1_alg».proof.Proof.Gen.KernelIdeal.Frame
import proofs.«116112_j81028853006976_1_alg».proof.Proof.Payloads
import proofs.«116112_j81028853006976_1_alg».proof.Proof.StagesAt

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: first the output window's, then the input windows'. -/
theorem idx_facts : ∀ t : Fin cfg4.N, (win4_3.index t (0 : Fin 2) = t.val ∧ win4_3.index t (1 : Fin 2) = 0)
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- What band `t` writes back is band `t` of `layer` of the arrays as the region finds them. -/
theorem flushed_eq (c : Dev nD) (t : Fin cfg4.N) :
    (dat4 V c).flushed 3 t = ((cfg4.win 3).blk t).view.read (Elt Ideal)
      (Cert.Gcn.layer 0x3F61D8F9#32 0x3DF1383B#32 (V c main_v90) (V c main_v45) (V c main_v92)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x64) hz]
  obtain ⟨⟨o0, o1⟩, e0, e1, e2, e3, e4, e5⟩ := idx_facts t
  have ht : t.val < 10 := by have h1 : t.val < grid4.N := t.isLt; have h2 := N_4; omega
  funext j
  obtain ⟨p, q, rfl⟩ : ∃ (p : Fin 10000) (q : Fin 64), j = ix2 p q := ⟨j 0, j 1, eq_ix2 j⟩
  have hr : t.val * 10000 + p.val < 100000 := by have := p.isLt; omega
  show k4_pay1 (iblk4 V c 0 t) (iblk4 V c 1 t) (iblk4 V c 2 t) (ix2 p q)
    = Cert.Gcn.layer 0x3F61D8F9#32 0x3DF1383B#32 (V c main_v90) (V c main_v45) (V c main_v92) (((cfg4.win 3).blk t).view.emb (ix2 p q))
  have hemb : ((cfg4.win 3).blk t).view.emb (ix2 p q) = ix2 (⟨t.val * 10000 + p.val, hr⟩ : Fin 100000) q := by
    funext a; apply Fin.ext
    match a with
    | ⟨0, _⟩ => show win4_3.index t (0 : Fin 2) * 10000 + 1 * p.val = t.val * 10000 + p.val; omega
    | ⟨1, _⟩ => show win4_3.index t (1 : Fin 2) * 64 + 1 * q.val = q.val; omega
  rw [hemb, Cert.Gcn.layer_apply]
  refine (Payloads.layer4_apply (iblk4 V c 0 t) (iblk4 V c 1 t) (iblk4 V c 2 t) p q).trans ?_
  have hu : ∀ k : Fin 64, iblk4 V c 0 t (ix2 p k) = V c main_v90 (ix2 (⟨t.val * 10000 + p.val, hr⟩ : Fin 100000) k) := fun k => by
    show V c main_v90 (((cfg4.win 0).blk t).view.emb (ix2 p k)) = _
    refine congrArg (V c main_v90) ?_
    funext a; apply Fin.ext
    match a with
    | ⟨0, _⟩ => show win4_0.index t (0 : Fin 2) * 10000 + 1 * p.val = t.val * 10000 + p.val; omega
    | ⟨1, _⟩ => show win4_0.index t (1 : Fin 2) * 64 + 1 * k.val = k.val; omega
  have hv : ∀ k : Fin 64, iblk4 V c 1 t (ix2 p k) = V c main_v45 (ix2 (⟨t.val * 10000 + p.val, hr⟩ : Fin 100000) k) := fun k => by
    show V c main_v45 (((cfg4.win 1).blk t).view.emb (ix2 p k)) = _
    refine congrArg (V c main_v45) ?_
    funext a; apply Fin.ext
    match a with
    | ⟨0, _⟩ => show win4_1.index t (0 : Fin 2) * 10000 + 1 * p.val = t.val * 10000 + p.val; omega
    | ⟨1, _⟩ => show win4_1.index t (1 : Fin 2) * 64 + 1 * k.val = k.val; omega
  have hw : ∀ k : Fin 64, iblk4 V c 2 t (ix2 k q) = V c main_v92 (ix2 k q) := fun k => by
    show V c main_v92 (((cfg4.win 2).blk t).view.emb (ix2 k q)) = _
    refine congrArg (V c main_v92) ?_
    funext a; apply Fin.ext
    match a with
    | ⟨0, _⟩ => show win4_2.index t (0 : Fin 2) * 64 + 1 * k.val = k.val; omega
    | ⟨1, _⟩ => show win4_2.index t (1 : Fin 2) * 64 + 1 * q.val = q.val; omega
  have e1 : Payloads.comb (Ideal.ofBits .f32 0x3F666666#32) (Ideal.ofBits .f32 0x3DCCCCCD#32) (iblk4 V c 0 t (ix2 p q)) (iblk4 V c 1 t (ix2 p q))
      = Cert.Gcn.combAt (V c main_v90 (ix2 (⟨t.val * 10000 + p.val, hr⟩ : Fin 100000) q)) (V c main_v45 (ix2 (⟨t.val * 10000 + p.val, hr⟩ : Fin 100000) q)) := by
    rw [hu q, hv q]; rfl
  have e2 : (∑ k : Fin 64, Payloads.comb (Ideal.ofBits .f32 0x3F666666#32) (Ideal.ofBits .f32 0x3DCCCCCD#32) (iblk4 V c 0 t (ix2 p k)) (iblk4 V c 1 t (ix2 p k)) * iblk4 V c 2 t (ix2 k q))
      = ∑ k : Fin 64, Cert.Gcn.combAt (V c main_v90 (ix2 (⟨t.val * 10000 + p.val, hr⟩ : Fin 100000) k)) (V c main_v45 (ix2 (⟨t.val * 10000 + p.val, hr⟩ : Fin 100000) k)) * V c main_v92 (ix2 k q) :=
    Finset.sum_congr rfl fun k _ => by rw [hu k, hv k, hw k]; rfl
  rw [e1, e2]

/-- An index of the output is in band `t` iff each coordinate is in the band's range on its axis. -/
theorem mem_blk (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v93).slice (win4_3.rect t)).set ↔ _
  rw [View.set_slice_whole, Rect.mem_set_unit]
  exact Iff.rfl

/-- Every index of the output is in the band of its row's quotient by 10000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN := N_4
  refine ⟨⟨(i 0).val / 10000, by show (i 0).val / 10000 < grid4.N; omega⟩, flush4_3 _, ?_⟩
  rw [mem_blk]
  have eo := (idx_facts ⟨(i 0).val / 10000, by show (i 0).val / 10000 < grid4.N; omega⟩).1
  intro a
  match a with
  | ⟨0, _⟩ =>
    show win4_3.index _ (0 : Fin 2) * 10000 ≤ (i 0).val ∧ (i 0).val < win4_3.index _ (0 : Fin 2) * 10000 + 10000
    rw [eo.1]; show (i 0).val / 10000 * 10000 ≤ (i 0).val ∧ (i 0).val < (i 0).val / 10000 * 10000 + 10000; omega
  | ⟨1, _⟩ =>
    show win4_3.index _ (1 : Fin 2) * 64 ≤ (i 1).val ∧ (i 1).val < win4_3.index _ (1 : Fin 2) * 64 + 64
    rw [eo.2]; omega

/-- The output array after the region. -/
theorem value (c : Dev nD) :
    (dat4 V c).arrAt 3 cfg4.N = Cert.Gcn.layer 0x3F61D8F9#32 0x3DF1383B#32 (V c main_v90) (V c main_v45) (V c main_v92) :=
  (dat4 V c).arrAt_eq_of_cover 3 _ (fun t _ => flushed_eq V c t) cover

end Cert.KernelIdeal.Region4

end
-- ==== Proof.Region5.lean ====
/-
  Region 5 (the last dense layer) as a whole-array function.

  Ten bands of 10000 rows; at band `t` the body reads rows `10000·t …` of the features, the whole weight matrix and the
  bias row, and writes the same rows of the output. Every band is the restriction of `fc1` of the whole arrays, and the
  bands cover the output.
-/
import proofs.«116112_j81028853006976_1_alg».proof.Proof.Gen.KernelIdeal.Frame
import proofs.«116112_j81028853006976_1_alg».proof.Proof.Payloads
import proofs.«116112_j81028853006976_1_alg».proof.Proof.StagesAt

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: first the output window's, then the input windows'. -/
theorem idx_facts : ∀ t : Fin cfg5.N, (win5_3.index t (0 : Fin 2) = t.val ∧ win5_3.index t (1 : Fin 2) = 0)
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- What band `t` writes back is band `t` of `fc1` of the arrays as the region finds them. -/
theorem flushed_eq (c : Dev nD) (b : Cert.Gcn.F32 S40)
    (hb : V c main_v94 = shapeCast S1x40 b Facts₀.shapeCasts_S40_S1x40) (t : Fin cfg5.N) :
    (dat5 V c).flushed 3 t
      = ((cfg5.win 3).blk t).view.read (Elt Ideal) (Cert.Gcn.fc1 (V c main_v93) (V c main_arg4) b) := by
  show (cfg5.win 3).cut (grid5.coords t) ((dat5 V c).after 3 t) = _
  rw [after5_3]
  unfold out5_3
  rw [View.canon_unit_zero hz]
  simp only [View.ld_unit_zero (S := S10000x64) hz, View.ld_unit_zero (S := S64x40) hz, View.ld_unit_zero (S := S1x40) hz]
  obtain ⟨⟨o0, o1⟩, e0, e1, e2, e3, e4, e5⟩ := idx_facts t
  have ht : t.val < 10 := by have h1 : t.val < grid5.N := t.isLt; have h2 := N_5; omega
  funext j
  obtain ⟨p, q, rfl⟩ : ∃ (p : Fin 10000) (q : Fin 40), j = ix2 p q := ⟨j 0, j 1, eq_ix2 j⟩
  have hr : t.val * 10000 + p.val < 100000 := by have := p.isLt; omega
  show k5_pay1 (iblk5 V c 0 t) (iblk5 V c 1 t) (iblk5 V c 2 t) (ix2 p q)
    = Cert.Gcn.fc1 (V c main_v93) (V c main_arg4) b (((cfg5.win 3).blk t).view.emb (ix2 p q))
  have hemb : ((cfg5.win 3).blk t).view.emb (ix2 p q) = ix2 (⟨t.val * 10000 + p.val, hr⟩ : Fin 100000) q := by
    funext a; apply Fin.ext
    match a with
    | ⟨0, _⟩ => show win5_3.index t (0 : Fin 2) * 10000 + 1 * p.val = t.val * 10000 + p.val; omega
    | ⟨1, _⟩ => show win5_3.index t (1 : Fin 2) * 40 + 1 * q.val = q.val; omega
  rw [hemb, Cert.Gcn.fc1_apply]
  refine (Payloads.dense_apply (iblk5 V c 0 t) (iblk5 V c 1 t) (iblk5 V c 2 t) p q).trans ?_
  have hx : ∀ k : Fin 64, iblk5 V c 0 t (ix2 p k) = V c main_v93 (ix2 (⟨t.val * 10000 + p.val, hr⟩ : Fin 100000) k) := fun k => by
    show V c main_v93 (((cfg5.win 0).blk t).view.emb (ix2 p k)) = _
    refine congrArg (V c main_v93) ?_
    funext a; apply Fin.ext
    match a with
    | ⟨0, _⟩ => show win5_0.index t (0 : Fin 2) * 10000 + 1 * p.val = t.val * 10000 + p.val; omega
    | ⟨1, _⟩ => show win5_0.index t (1 : Fin 2) * 64 + 1 * k.val = k.val; omega
  have hw : ∀ k : Fin 64, iblk5 V c 1 t (ix2 k q) = V c main_arg4 (ix2 k q) := fun k => by
    show V c main_arg4 (((cfg5.win 1).blk t).view.emb (ix2 k q)) = _
    refine congrArg (V c main_arg4) ?_
    funext a; apply Fin.ext
    match a with
    | ⟨0, _⟩ => show win5_1.index t (0 : Fin 2) * 64 + 1 * k.val = k.val; omega
    | ⟨1, _⟩ => show win5_1.index t (1 : Fin 2) * 40 + 1 * q.val = q.val; omega
  have hbias : iblk5 V c 2 t (ix2 (0 : Fin 1) q) = b (ix1 q) := by
    show V c main_v94 (((cfg5.win 2).blk t).view.emb (ix2 (0 : Fin 1) q)) = _
    have he : ((cfg5.win 2).blk t).view.emb (ix2 (0 : Fin 1) q) = ix2 (0 : Fin 1) q := by
      funext a; apply Fin.ext
      match a with
      | ⟨0, _⟩ => show win5_2.index t (0 : Fin 2) * 1 + 1 * 0 = 0; omega
      | ⟨1, _⟩ => show win5_2.index t (1 : Fin 2) * 40 + 1 * q.val = q.val; omega
    rw [he, hb]
    exact shapeCast_a_1a_apply b _ (0 : Fin 1) q
  exact congrArg₂ (· + ·) (Finset.sum_congr rfl fun k _ => by rw [hx k, hw k]) hbias

/-- An index of the output is in band `t` iff each coordinate is in the band's range on its axis. -/
theorem mem_blk (t : Fin cfg5.N) (i : S100000x40.Idx) :
    i ∈ ((cfg5.win 3).blk t).view.set ↔ ∀ a : Fin 2, win5_3.index t a * S10000x40.size a ≤ (i a).val
      ∧ (i a).val < win5_3.index t a * S10000x40.size a + S10000x40.size a := by
  show i ∈ ((View.whole main_v95).slice (win5_3.rect t)).set ↔ _
  rw [View.set_slice_whole, Rect.mem_set_unit]
  exact Iff.rfl

/-- Every index of the output is in the band of its row's quotient by 10000. -/
theorem cover (i : S100000x40.Idx) :
    ∃ t : Fin cfg5.N, (cfg5.win 3).flush t = true ∧ i ∈ ((cfg5.win 3).blk t).view.set := by
  have hi0 : (i 0).val < 100000 := (i 0).isLt
  have hi1 : (i 1).val < 40 := (i 1).isLt
  have hN := N_5
  refine ⟨⟨(i 0).val / 10000, by show (i 0).val / 10000 < grid5.N; omega⟩, flush5_3 _, ?_⟩
  rw [mem_blk]
  have eo := (idx_facts ⟨(i 0).val / 10000, by show (i 0).val / 10000 < grid5.N; omega⟩).1
  intro a
  match a with
  | ⟨0, _⟩ =>
    show win5_3.index _ (0 : Fin 2) * 10000 ≤ (i 0).val ∧ (i 0).val < win5_3.index _ (0 : Fin 2) * 10000 + 10000
    rw [eo.1]; show (i 0).val / 10000 * 10000 ≤ (i 0).val ∧ (i 0).val < (i 0).val / 10000 * 10000 + 10000; omega
  | ⟨1, _⟩ =>
    show win5_3.index _ (1 : Fin 2) * 40 ≤ (i 1).val ∧ (i 1).val < win5_3.index _ (1 : Fin 2) * 40 + 40
    rw [eo.2]; omega

/-- The output array after the region. -/
theorem value (c : Dev nD) (b : Cert.Gcn.F32 S40) (hb : V c main_v94 = shapeCast S1x40 b Facts₀.shapeCasts_S40_S1x40) :
    (dat5 V c).arrAt 3 cfg5.N = Cert.Gcn.fc1 (V c main_v93) (V c main_arg4) b :=
  (dat5 V c).arrAt_eq_of_cover 3 _ (fun t _ => flushed_eq V c b hb t) cover

end Cert.KernelIdeal.Region5

end
-- ==== Proof.ResultValue.lean ====
/-
  The kernel program's result as the network of its arguments.

  The buffer contents at each of the program's fourteen segment boundaries are a fold from the launch memory. Going up the
  fold: the three first stretches leave the edges' ends, their weights and the first bias as a row; region 0 leaves the
  first dense layer; each later stretch propagates the last features and each later region applies its stage to what the
  stretch left; a buffer that a stretch does not write and a region does not own is carried unchanged, and a region's input
  array ends as it was entered. At the last boundary the result buffer holds `out` of the seven arguments.
-/
import proofs.«116112_j81028853006976_1_alg».proof.Proof.Gen.KernelIdeal.Frame
import proofs.«116112_j81028853006976_1_alg».proof.Proof.LibKeep
import proofs.«116112_j81028853006976_1_alg».proof.Proof.HostK
import proofs.«116112_j81028853006976_1_alg».proof.Proof.Region0
import proofs.«116112_j81028853006976_1_alg».proof.Proof.Region1
import proofs.«116112_j81028853006976_1_alg».proof.Proof.Region2
import proofs.«116112_j81028853006976_1_alg».proof.Proof.Region3
import proofs.«116112_j81028853006976_1_alg».proof.Proof.Region4
import proofs.«116112_j81028853006976_1_alg».proof.Proof.Region5

set_option maxRecDepth 16384

noncomputable section

namespace Cert.KernelIdeal.ResultValue

open Cert.KernelIdeal Cert.KernelIdeal.Gen
open Idealize.ShloMosaic Idealize.ShloMosaic.TcCoe Idealize.ShloMosaic.StableHlo Idealize.SL.Sem
open Cert.Keep

variable (m : (ℓ : Loc nD τ sig) → Buf (Elt Ideal) ℓ) (ρ : Dev nD → PrngReg) (c : Dev nD)

/-! ## Before region 0 -/

/-- The edges' sources. -/
theorem w3_row : W3 m ρ c (Proc.devRef .tc main_v3) = (Cert.Gcn.ends0 (m ((c : Thread nD τ).loc main_arg1))) := HostK.pre_row (W0 m ρ c)
/-- The edges' targets. -/
theorem w3_col : W3 m ρ c (Proc.devRef .tc main_v6) = (Cert.Gcn.ends1 (m ((c : Thread nD τ).loc main_arg1))) := HostK.pre_col (W0 m ρ c)
/-- The edges' weights. -/
theorem w3_norm : W3 m ρ c (Proc.devRef .tc main_v29) = (Cert.Gcn.normK (Cert.Gcn.ends0 (m ((c : Thread nD τ).loc main_arg1))) (Cert.Gcn.ends1 (m ((c : Thread nD τ).loc main_arg1)))) := HostK.pre_norm (W0 m ρ c)
/-- The first bias as a row. -/
theorem w3_bias : W3 m ρ c (Proc.devRef .tc main_v30) = shapeCast S1x64 (m ((c : Thread nD τ).loc main_arg3)) Facts₀.shapeCasts_S64_S1x64 := HostK.pre_bias (W0 m ρ c)
/-- The input features, not yet touched. -/
theorem w3_x0 : W3 m ρ c (Proc.devRef .tc main_arg0) = (m ((c : Thread nD τ).loc main_arg0)) :=
  calc W3 m ρ c (Proc.devRef .tc main_arg0)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = (m ((c : Thread nD τ).loc main_arg0)) := rfl

/-- The first weights, not yet touched. -/
theorem w3_x2 : W3 m ρ c (Proc.devRef .tc main_arg2) = (m ((c : Thread nD τ).loc main_arg2)) :=
  calc W3 m ρ c (Proc.devRef .tc main_arg2)
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = (m ((c : Thread nD τ).loc main_arg2)) := rfl

/-! ## Region 0 and the first propagation -/

/-- The first dense layer. -/
theorem w4_h : W4 m ρ c (Proc.devRef .tc main_v31) = (Cert.Gcn.fc0 (m ((c : Thread nD τ).loc main_arg0)) (m ((c : Thread nD τ).loc main_arg2)) (m ((c : Thread nD τ).loc main_arg3))) := by
  have h := Region0.value (V3 m ρ) c (m ((c : Thread nD τ).loc main_arg3)) (w3_bias m ρ c)
  rw [show V3 m ρ c main_arg0 = (m ((c : Thread nD τ).loc main_arg0)) from w3_x0 m ρ c, show V3 m ρ c main_arg2 = (m ((c : Thread nD τ).loc main_arg2)) from w3_x2 m ρ c] at h
  exact (W4_arr m ρ c 3).trans h
/-- The sources, carried. -/
theorem w4_row : W4 m ρ c (Proc.devRef .tc main_v3) = (Cert.Gcn.ends0 (m ((c : Thread nD τ).loc main_arg1))) :=
  calc W4 m ρ c (Proc.devRef .tc main_v3)
    _ = W3 m ρ c (Proc.devRef .tc main_v3) := W4_of_ne m ρ c main_v3 (by decide)
    _ = (Cert.Gcn.ends0 (m ((c : Thread nD τ).loc main_arg1))) := w3_row m ρ c

/-- The targets, carried. -/
theorem w4_col : W4 m ρ c (Proc.devRef .tc main_v6) = (Cert.Gcn.ends1 (m ((c : Thread nD τ).loc main_arg1))) :=
  calc W4 m ρ c (Proc.devRef .tc main_v6)
    _ = W3 m ρ c (Proc.devRef .tc main_v6) := W4_of_ne m ρ c main_v6 (by decide)
    _ = (Cert.Gcn.ends1 (m ((c : Thread nD τ).loc main_arg1))) := w3_col m ρ c

/-- The weights, carried. -/
theorem w4_norm : W4 m ρ c (Proc.devRef .tc main_v29) = (Cert.Gcn.normK (Cert.Gcn.ends0 (m ((c : Thread nD τ).loc main_arg1))) (Cert.Gcn.ends1 (m ((c : Thread nD τ).loc main_arg1)))) :=
  calc W4 m ρ c (Proc.devRef .tc main_v29)
    _ = W3 m ρ c (Proc.devRef .tc main_v29) := W4_of_ne m ρ c main_v29 (by decide)
    _ = (Cert.Gcn.normK (Cert.Gcn.ends0 (m ((c : Thread nD τ).loc main_arg1))) (Cert.Gcn.ends1 (m ((c : Thread nD τ).loc main_arg1)))) := w3_norm m ρ c

/-- The first propagation. -/
theorem w5_p : W5 m ρ c (Proc.devRef .tc main_v44) = (Cert.Gcn.prop (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (Cert.Gcn.fc0 (m ((c : Thread nD τ).loc main_arg0)) (m ((c : Thread nD τ).loc main_arg2)) (m ((c : Thread nD τ).loc main_arg3)))) := by
  have h := HostK.prop1 (W4 m ρ c)
  rw [w4_norm m ρ c, w4_row m ρ c, w4_col m ρ c, w4_h m ρ c] at h
  exact h

/-! ## Region 1 and the second propagation -/

/-- The features after the first propagation. -/
theorem w6_h : W6 m ρ c (Proc.devRef .tc main_v45) = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) := by
  have h := Region1.value (V5 m ρ) c
  rw [show V5 m ρ c main_v44 = (Cert.Gcn.prop (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (Cert.Gcn.fc0 (m ((c : Thread nD τ).loc main_arg0)) (m ((c : Thread nD τ).loc main_arg2)) (m ((c : Thread nD τ).loc main_arg3)))) from w5_p m ρ c] at h
  exact (W6_arr m ρ c 1).trans h
/-- The sources, carried. -/
theorem w6_row : W6 m ρ c (Proc.devRef .tc main_v3) = (Cert.Gcn.ends0 (m ((c : Thread nD τ).loc main_arg1))) :=
  calc W6 m ρ c (Proc.devRef .tc main_v3)
    _ = W5 m ρ c (Proc.devRef .tc main_v3) := W6_of_ne m ρ c main_v3 (by decide)
    _ = W4 m ρ c (Proc.devRef .tc main_v3) := by keeps hostOps1
    _ = (Cert.Gcn.ends0 (m ((c : Thread nD τ).loc main_arg1))) := w4_row m ρ c

/-- The targets, carried. -/
theorem w6_col : W6 m ρ c (Proc.devRef .tc main_v6) = (Cert.Gcn.ends1 (m ((c : Thread nD τ).loc main_arg1))) :=
  calc W6 m ρ c (Proc.devRef .tc main_v6)
    _ = W5 m ρ c (Proc.devRef .tc main_v6) := W6_of_ne m ρ c main_v6 (by decide)
    _ = W4 m ρ c (Proc.devRef .tc main_v6) := by keeps hostOps1
    _ = (Cert.Gcn.ends1 (m ((c : Thread nD τ).loc main_arg1))) := w4_col m ρ c

/-- The weights, carried. -/
theorem w6_norm : W6 m ρ c (Proc.devRef .tc main_v29) = (Cert.Gcn.normK (Cert.Gcn.ends0 (m ((c : Thread nD τ).loc main_arg1))) (Cert.Gcn.ends1 (m ((c : Thread nD τ).loc main_arg1)))) :=
  calc W6 m ρ c (Proc.devRef .tc main_v29)
    _ = W5 m ρ c (Proc.devRef .tc main_v29) := W6_of_ne m ρ c main_v29 (by decide)
    _ = W4 m ρ c (Proc.devRef .tc main_v29) := by keeps hostOps1
    _ = (Cert.Gcn.normK (Cert.Gcn.ends0 (m ((c : Thread nD τ).loc main_arg1))) (Cert.Gcn.ends1 (m ((c : Thread nD τ).loc main_arg1)))) := w4_norm m ρ c

/-- The stack of layer weights, not yet touched. -/
theorem w6_x6 : W6 m ρ c (Proc.devRef .tc main_arg6) = (m ((c : Thread nD τ).loc main_arg6)) :=
  calc W6 m ρ c (Proc.devRef .tc main_arg6)
    _ = W5 m ρ c (Proc.devRef .tc main_arg6) := W6_of_ne m ρ c main_arg6 (by decide)
    _ = W4 m ρ c (Proc.devRef .tc main_arg6) := by keeps hostOps1
    _ = W3 m ρ c (Proc.devRef .tc main_arg6) := W4_of_ne m ρ c main_arg6 (by decide)
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = (m ((c : Thread nD τ).loc main_arg6)) := rfl

/-- The second propagation. -/
theorem w7_p : W7 m ρ c (Proc.devRef .tc main_v58) = (Cert.Gcn.prop (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)))) := by
  have h := HostK.prop2 (W6 m ρ c)
  rw [w6_norm m ρ c, w6_row m ρ c, w6_col m ρ c, w6_h m ρ c] at h
  exact h
/-- The first layer's weights. -/
theorem w7_w : W7 m ρ c (Proc.devRef .tc main_v60) = Cert.Gcn.w1 (m ((c : Thread nD τ).loc main_arg6)) := by
  have h := HostK.weights1 (W6 m ρ c)
  rw [w6_x6 m ρ c] at h
  exact h
/-- The first features, carried. -/
theorem w7_h1 : W7 m ρ c (Proc.devRef .tc main_v45) = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) :=
  calc W7 m ρ c (Proc.devRef .tc main_v45)
    _ = W6 m ρ c (Proc.devRef .tc main_v45) := by keeps hostOps2
    _ = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) := w6_h m ρ c

/-! ## Region 2 -/

/-- Residual layer 1. -/
theorem w8_h : W8 m ρ c (Proc.devRef .tc main_v61) = (Cert.Gcn.feat2 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6))) := by
  have h := Region2.value (V7 m ρ) c
  rw [show V7 m ρ c main_v58 = (Cert.Gcn.prop (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)))) from w7_p m ρ c, show V7 m ρ c main_v45 = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) from w7_h1 m ρ c,
    show V7 m ρ c main_v60 = Cert.Gcn.w1 (m ((c : Thread nD τ).loc main_arg6)) from w7_w m ρ c] at h
  exact (W8_arr m ρ c 3).trans h
/-- The first features are an input array of the region: they end as they were entered. -/
theorem w8_h1 : W8 m ρ c (Proc.devRef .tc main_v45) = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) :=
  ((W8_arr m ρ c 1).trans (((dat2 (V7 m ρ) c).arrAt_in 1 rfl _).trans (A_eq2 (V7 m ρ) c 1))).trans (w7_h1 m ρ c)
/-- The sources, carried. -/
theorem w8_row : W8 m ρ c (Proc.devRef .tc main_v3) = (Cert.Gcn.ends0 (m ((c : Thread nD τ).loc main_arg1))) :=
  calc W8 m ρ c (Proc.devRef .tc main_v3)
    _ = W7 m ρ c (Proc.devRef .tc main_v3) := W8_of_ne m ρ c main_v3 (by decide)
    _ = W6 m ρ c (Proc.devRef .tc main_v3) := by keeps hostOps2
    _ = (Cert.Gcn.ends0 (m ((c : Thread nD τ).loc main_arg1))) := w6_row m ρ c

/-- The targets, carried. -/
theorem w8_col : W8 m ρ c (Proc.devRef .tc main_v6) = (Cert.Gcn.ends1 (m ((c : Thread nD τ).loc main_arg1))) :=
  calc W8 m ρ c (Proc.devRef .tc main_v6)
    _ = W7 m ρ c (Proc.devRef .tc main_v6) := W8_of_ne m ρ c main_v6 (by decide)
    _ = W6 m ρ c (Proc.devRef .tc main_v6) := by keeps hostOps2
    _ = (Cert.Gcn.ends1 (m ((c : Thread nD τ).loc main_arg1))) := w6_col m ρ c

/-- The weights, carried. -/
theorem w8_norm : W8 m ρ c (Proc.devRef .tc main_v29) = (Cert.Gcn.normK (Cert.Gcn.ends0 (m ((c : Thread nD τ).loc main_arg1))) (Cert.Gcn.ends1 (m ((c : Thread nD τ).loc main_arg1)))) :=
  calc W8 m ρ c (Proc.devRef .tc main_v29)
    _ = W7 m ρ c (Proc.devRef .tc main_v29) := W8_of_ne m ρ c main_v29 (by decide)
    _ = W6 m ρ c (Proc.devRef .tc main_v29) := by keeps hostOps2
    _ = (Cert.Gcn.normK (Cert.Gcn.ends0 (m ((c : Thread nD τ).loc main_arg1))) (Cert.Gcn.ends1 (m ((c : Thread nD τ).loc main_arg1)))) := w6_norm m ρ c

/-- The stack of layer weights, carried. -/
theorem w8_x6 : W8 m ρ c (Proc.devRef .tc main_arg6) = (m ((c : Thread nD τ).loc main_arg6)) :=
  calc W8 m ρ c (Proc.devRef .tc main_arg6)
    _ = W7 m ρ c (Proc.devRef .tc main_arg6) := W8_of_ne m ρ c main_arg6 (by decide)
    _ = W6 m ρ c (Proc.devRef .tc main_arg6) := by keeps hostOps2
    _ = (m ((c : Thread nD τ).loc main_arg6)) := w6_x6 m ρ c

/-- The third propagation. -/
theorem w9_p : W9 m ρ c (Proc.devRef .tc main_v74) = (Cert.Gcn.prop (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (Cert.Gcn.feat2 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6)))) := by
  have h := HostK.prop3 (W8 m ρ c)
  rw [w8_norm m ρ c, w8_row m ρ c, w8_col m ρ c, w8_h m ρ c] at h
  exact h
/-- The second layer's weights. -/
theorem w9_w : W9 m ρ c (Proc.devRef .tc main_v76) = Cert.Gcn.w2 (m ((c : Thread nD τ).loc main_arg6)) := by
  have h := HostK.weights2 (W8 m ρ c)
  rw [w8_x6 m ρ c] at h
  exact h
/-- The first features, carried. -/
theorem w9_h1 : W9 m ρ c (Proc.devRef .tc main_v45) = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) :=
  calc W9 m ρ c (Proc.devRef .tc main_v45)
    _ = W8 m ρ c (Proc.devRef .tc main_v45) := by keeps hostOps3
    _ = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) := w8_h1 m ρ c

/-! ## Region 3 -/

/-- Residual layer 2. -/
theorem w10_h : W10 m ρ c (Proc.devRef .tc main_v77) = (Cert.Gcn.feat3 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6))) := by
  have h := Region3.value (V9 m ρ) c
  rw [show V9 m ρ c main_v74 = (Cert.Gcn.prop (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (Cert.Gcn.feat2 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6)))) from w9_p m ρ c, show V9 m ρ c main_v45 = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) from w9_h1 m ρ c,
    show V9 m ρ c main_v76 = Cert.Gcn.w2 (m ((c : Thread nD τ).loc main_arg6)) from w9_w m ρ c] at h
  exact (W10_arr m ρ c 3).trans h
/-- The first features are an input array of the region: they end as they were entered. -/
theorem w10_h1 : W10 m ρ c (Proc.devRef .tc main_v45) = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) :=
  ((W10_arr m ρ c 1).trans (((dat3 (V9 m ρ) c).arrAt_in 1 rfl _).trans (A_eq3 (V9 m ρ) c 1))).trans (w9_h1 m ρ c)
/-- The sources, carried. -/
theorem w10_row : W10 m ρ c (Proc.devRef .tc main_v3) = (Cert.Gcn.ends0 (m ((c : Thread nD τ).loc main_arg1))) :=
  calc W10 m ρ c (Proc.devRef .tc main_v3)
    _ = W9 m ρ c (Proc.devRef .tc main_v3) := W10_of_ne m ρ c main_v3 (by decide)
    _ = W8 m ρ c (Proc.devRef .tc main_v3) := by keeps hostOps3
    _ = (Cert.Gcn.ends0 (m ((c : Thread nD τ).loc main_arg1))) := w8_row m ρ c

/-- The targets, carried. -/
theorem w10_col : W10 m ρ c (Proc.devRef .tc main_v6) = (Cert.Gcn.ends1 (m ((c : Thread nD τ).loc main_arg1))) :=
  calc W10 m ρ c (Proc.devRef .tc main_v6)
    _ = W9 m ρ c (Proc.devRef .tc main_v6) := W10_of_ne m ρ c main_v6 (by decide)
    _ = W8 m ρ c (Proc.devRef .tc main_v6) := by keeps hostOps3
    _ = (Cert.Gcn.ends1 (m ((c : Thread nD τ).loc main_arg1))) := w8_col m ρ c

/-- The weights, carried. -/
theorem w10_norm : W10 m ρ c (Proc.devRef .tc main_v29) = (Cert.Gcn.normK (Cert.Gcn.ends0 (m ((c : Thread nD τ).loc main_arg1))) (Cert.Gcn.ends1 (m ((c : Thread nD τ).loc main_arg1)))) :=
  calc W10 m ρ c (Proc.devRef .tc main_v29)
    _ = W9 m ρ c (Proc.devRef .tc main_v29) := W10_of_ne m ρ c main_v29 (by decide)
    _ = W8 m ρ c (Proc.devRef .tc main_v29) := by keeps hostOps3
    _ = (Cert.Gcn.normK (Cert.Gcn.ends0 (m ((c : Thread nD τ).loc main_arg1))) (Cert.Gcn.ends1 (m ((c : Thread nD τ).loc main_arg1)))) := w8_norm m ρ c

/-- The stack of layer weights, carried. -/
theorem w10_x6 : W10 m ρ c (Proc.devRef .tc main_arg6) = (m ((c : Thread nD τ).loc main_arg6)) :=
  calc W10 m ρ c (Proc.devRef .tc main_arg6)
    _ = W9 m ρ c (Proc.devRef .tc main_arg6) := W10_of_ne m ρ c main_arg6 (by decide)
    _ = W8 m ρ c (Proc.devRef .tc main_arg6) := by keeps hostOps3
    _ = (m ((c : Thread nD τ).loc main_arg6)) := w8_x6 m ρ c

/-- The fourth propagation. -/
theorem w11_p : W11 m ρ c (Proc.devRef .tc main_v90) = (Cert.Gcn.prop (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (Cert.Gcn.feat3 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6)))) := by
  have h := HostK.prop4 (W10 m ρ c)
  rw [w10_norm m ρ c, w10_row m ρ c, w10_col m ρ c, w10_h m ρ c] at h
  exact h
/-- The third layer's weights. -/
theorem w11_w : W11 m ρ c (Proc.devRef .tc main_v92) = Cert.Gcn.w3 (m ((c : Thread nD τ).loc main_arg6)) := by
  have h := HostK.weights3 (W10 m ρ c)
  rw [w10_x6 m ρ c] at h
  exact h
/-- The first features, carried. -/
theorem w11_h1 : W11 m ρ c (Proc.devRef .tc main_v45) = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) :=
  calc W11 m ρ c (Proc.devRef .tc main_v45)
    _ = W10 m ρ c (Proc.devRef .tc main_v45) := by keeps hostOps4
    _ = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) := w10_h1 m ρ c

/-! ## Region 4 -/

/-- Residual layer 3. -/
theorem w12_h : W12 m ρ c (Proc.devRef .tc main_v93) = (Cert.Gcn.feat4 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6))) := by
  have h := Region4.value (V11 m ρ) c
  rw [show V11 m ρ c main_v90 = (Cert.Gcn.prop (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (Cert.Gcn.feat3 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6)))) from w11_p m ρ c, show V11 m ρ c main_v45 = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) from w11_h1 m ρ c,
    show V11 m ρ c main_v92 = Cert.Gcn.w3 (m ((c : Thread nD τ).loc main_arg6)) from w11_w m ρ c] at h
  exact (W12_arr m ρ c 3).trans h
/-- The first features are an input array of the region: they end as they were entered. -/
theorem w12_h1 : W12 m ρ c (Proc.devRef .tc main_v45) = (Cert.Gcn.feat1 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3))) :=
  ((W12_arr m ρ c 1).trans (((dat4 (V11 m ρ) c).arrAt_in 1 rfl _).trans (A_eq4 (V11 m ρ) c 1))).trans (w11_h1 m ρ c)

/-! ## The last dense layer -/

/-- The last weights, not yet touched. -/
theorem w12_x4 : W12 m ρ c (Proc.devRef .tc main_arg4) = (m ((c : Thread nD τ).loc main_arg4)) :=
  calc W12 m ρ c (Proc.devRef .tc main_arg4)
    _ = W11 m ρ c (Proc.devRef .tc main_arg4) := W12_of_ne m ρ c main_arg4 (by decide)
    _ = W10 m ρ c (Proc.devRef .tc main_arg4) := by keeps hostOps4
    _ = W9 m ρ c (Proc.devRef .tc main_arg4) := W10_of_ne m ρ c main_arg4 (by decide)
    _ = W8 m ρ c (Proc.devRef .tc main_arg4) := by keeps hostOps3
    _ = W7 m ρ c (Proc.devRef .tc main_arg4) := W8_of_ne m ρ c main_arg4 (by decide)
    _ = W6 m ρ c (Proc.devRef .tc main_arg4) := by keeps hostOps2
    _ = W5 m ρ c (Proc.devRef .tc main_arg4) := W6_of_ne m ρ c main_arg4 (by decide)
    _ = W4 m ρ c (Proc.devRef .tc main_arg4) := by keeps hostOps1
    _ = W3 m ρ c (Proc.devRef .tc main_arg4) := W4_of_ne m ρ c main_arg4 (by decide)
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = (m ((c : Thread nD τ).loc main_arg4)) := rfl

/-- The last bias, not yet touched. -/
theorem w12_x5 : W12 m ρ c (Proc.devRef .tc main_arg5) = (m ((c : Thread nD τ).loc main_arg5)) :=
  calc W12 m ρ c (Proc.devRef .tc main_arg5)
    _ = W11 m ρ c (Proc.devRef .tc main_arg5) := W12_of_ne m ρ c main_arg5 (by decide)
    _ = W10 m ρ c (Proc.devRef .tc main_arg5) := by keeps hostOps4
    _ = W9 m ρ c (Proc.devRef .tc main_arg5) := W10_of_ne m ρ c main_arg5 (by decide)
    _ = W8 m ρ c (Proc.devRef .tc main_arg5) := by keeps hostOps3
    _ = W7 m ρ c (Proc.devRef .tc main_arg5) := W8_of_ne m ρ c main_arg5 (by decide)
    _ = W6 m ρ c (Proc.devRef .tc main_arg5) := by keeps hostOps2
    _ = W5 m ρ c (Proc.devRef .tc main_arg5) := W6_of_ne m ρ c main_arg5 (by decide)
    _ = W4 m ρ c (Proc.devRef .tc main_arg5) := by keeps hostOps1
    _ = W3 m ρ c (Proc.devRef .tc main_arg5) := W4_of_ne m ρ c main_arg5 (by decide)
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = (m ((c : Thread nD τ).loc main_arg5)) := rfl

/-- The last bias as a row. -/
theorem w13_bias : W13 m ρ c (Proc.devRef .tc main_v94) = shapeCast S1x40 (m ((c : Thread nD τ).loc main_arg5)) Facts₀.shapeCasts_S40_S1x40 := by
  have h := HostK.bias5 (W12 m ρ c)
  rw [w12_x5 m ρ c] at h
  exact h
/-- The last features, carried. -/
theorem w13_h : W13 m ρ c (Proc.devRef .tc main_v93) = (Cert.Gcn.feat4 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6))) :=
  calc W13 m ρ c (Proc.devRef .tc main_v93)
    _ = W12 m ρ c (Proc.devRef .tc main_v93) := by keeps hostOps5
    _ = (Cert.Gcn.feat4 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6))) := w12_h m ρ c

/-- The last weights, carried. -/
theorem w13_x4 : W13 m ρ c (Proc.devRef .tc main_arg4) = (m ((c : Thread nD τ).loc main_arg4)) :=
  calc W13 m ρ c (Proc.devRef .tc main_arg4)
    _ = W12 m ρ c (Proc.devRef .tc main_arg4) := by keeps hostOps5
    _ = (m ((c : Thread nD τ).loc main_arg4)) := w12_x4 m ρ c

/-- THE RESULT: the buffer the program returns holds the network's output of the seven arguments. -/
theorem result : W14 m ρ c (Proc.devRef .tc main_v95)
    = Cert.Gcn.out (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  have h := Region5.value (V13 m ρ) c (m ((c : Thread nD τ).loc main_arg5)) (w13_bias m ρ c)
  rw [show V13 m ρ c main_v93 = (Cert.Gcn.feat4 (Cert.Gcn.normK (Cert.Gcn.ends0 (m ((c : Thread nD τ).loc main_arg1))) (Cert.Gcn.ends1 (m ((c : Thread nD τ).loc main_arg1)))) (Cert.Gcn.ends0 (m ((c : Thread nD τ).loc main_arg1))) (Cert.Gcn.ends1 (m ((c : Thread nD τ).loc main_arg1))) (m ((c : Thread nD τ).loc main_arg0)) (m ((c : Thread nD τ).loc main_arg2)) (m ((c : Thread nD τ).loc main_arg3)) (m ((c : Thread nD τ).loc main_arg6))) from w13_h m ρ c, show V13 m ρ c main_arg4 = (m ((c : Thread nD τ).loc main_arg4)) from w13_x4 m ρ c] at h
  exact (W14_arr m ρ c 3).trans h

end Cert.KernelIdeal.ResultValue

end
-- ==== Proof.RefRun.lean ====
/-
  The idealized reference's run.

  The reference is one straight line of 179 host operations (an outlined function's operations stand where it is
  called). Every weakly fair execution terminates with each buffer at the fold of the operations' results over the
  launch contents. The line is cut into seven stretches — the edge weights, the first dense layer, the first
  propagation, the three residual layers, the last dense layer — and the fold over the line is the stretches' folds one
  after the other.
-/
import proofs.«116112_j81028853006976_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The whole line, in order. -/
abbrev ops : List (HloOp τ sig (Elt F)) :=
  [ nullary main_v0 (iotaInDim S100000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst (constant S_ .f32 0x3F800000#32),
    unary main_cst main_v7 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S900000x1 ![0] bcast_S900000_S900000x1_0 : (⟨S900000, .i32⟩ : BufTy).Contents (Elt F) → (⟨S900000x1, .i32⟩ : BufTy).Contents (Elt F)),
    ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S900000 ![] bcast_S_S900000 : (⟨S_, .i32⟩ : BufTy).Contents (Elt F) → (⟨S900000, .i32⟩ : BufTy).Contents (Elt F)),
    binary main_v3 main_v15 main_v16 (cmpi .slt : (⟨S900000, .i32⟩ : BufTy).Contents (Elt F) → (⟨S900000, .i32⟩ : BufTy).Contents (Elt F) → (⟨S900000, .i1⟩ : BufTy).Contents (Elt F)),
    nullary main_c_3 (constantI S_ 32 100000#32),
    unary main_c_3 main_v17 (broadcastInDim S900000 ![] bcast_S_S900000 : (⟨S_, .i32⟩ : BufTy).Contents (Elt F) → (⟨S900000, .i32⟩ : BufTy).Contents (Elt F)),
    binary main_v3 main_v17 main_v18 (addi : (⟨S900000, .i32⟩ : BufTy).Contents (Elt F) → (⟨S900000, .i32⟩ : BufTy).Contents (Elt F) → (⟨S900000, .i32⟩ : BufTy).Contents (Elt F)),
    ternary main_v16 main_v18 main_v3 main_v19 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v19 main_v20 (broadcastInDim S900000x1 ![0] bcast_S900000_S900000x1_0 : (⟨S900000, .i32⟩ : BufTy).Contents (Elt F) → (⟨S900000x1, .i32⟩ : BufTy).Contents (Elt F)),
    binary main_v14 main_v20 main_v21 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v21 main_v7 main_v22 (mulf : (⟨S900000, .f32⟩ : BufTy).Contents (Elt F) → (⟨S900000, .f32⟩ : BufTy).Contents (Elt F) → (⟨S900000, .f32⟩ : BufTy).Contents (Elt F)),
    nullary main_c_4 (constantI S_ 32 0#32),
    unary main_c_4 main_v23 (broadcastInDim S900000 ![] bcast_S_S900000 : (⟨S_, .i32⟩ : BufTy).Contents (Elt F) → (⟨S900000, .i32⟩ : BufTy).Contents (Elt F)),
    binary main_v6 main_v23 main_v24 (cmpi .slt : (⟨S900000, .i32⟩ : BufTy).Contents (Elt F) → (⟨S900000, .i32⟩ : BufTy).Contents (Elt F) → (⟨S900000, .i1⟩ : BufTy).Contents (Elt F)),
    nullary main_c_5 (constantI S_ 32 100000#32),
    unary main_c_5 main_v25 (broadcastInDim S900000 ![] bcast_S_S900000 : (⟨S_, .i32⟩ : BufTy).Contents (Elt F) → (⟨S900000, .i32⟩ : BufTy).Contents (Elt F)),
    binary main_v6 main_v25 main_v26 (addi : (⟨S900000, .i32⟩ : BufTy).Contents (Elt F) → (⟨S900000, .i32⟩ : BufTy).Contents (Elt F) → (⟨S900000, .i32⟩ : BufTy).Contents (Elt F)),
    ternary main_v24 main_v26 main_v6 main_v27 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v27 main_v28 (broadcastInDim S900000x1 ![0] bcast_S900000_S900000x1_0 : (⟨S900000, .i32⟩ : BufTy).Contents (Elt F) → (⟨S900000x1, .i32⟩ : BufTy).Contents (Elt F)),
    binary main_v14 main_v28 main_v29 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v22 main_v29 main_v30 (mulf : (⟨S900000, .f32⟩ : BufTy).Contents (Elt F) → (⟨S900000, .f32⟩ : BufTy).Contents (Elt F) → (⟨S900000, .f32⟩ : BufTy).Contents (Elt F)),
    binary main_arg0 main_arg2 main_v31 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v34) (TRef.of (T := ⟨S100000x64, .f32⟩) main_call1_v0) (TRef.of (T := ⟨S100000x64, .f32⟩) main_v35) maximumf,
    unary main_v30 main_v36 (broadcastInDim S900000x1 ![0] bcast_S900000_S900000x1_0 : (⟨S900000, .f32⟩ : BufTy).Contents (Elt F) → (⟨S900000x1, .f32⟩ : BufTy).Contents (Elt F)),
    nullary main_c_6 (constantI S_ 32 0#32),
    unary main_c_6 main_v37 (broadcastInDim S900000 ![] bcast_S_S900000 : (⟨S_, .i32⟩ : BufTy).Contents (Elt F) → (⟨S900000, .i32⟩ : BufTy).Contents (Elt F)),
    binary main_v3 main_v37 main_v38 (cmpi .slt : (⟨S900000, .i32⟩ : BufTy).Contents (Elt F) → (⟨S900000, .i32⟩ : BufTy).Contents (Elt F) → (⟨S900000, .i1⟩ : BufTy).Contents (Elt F)),
    nullary main_c_7 (constantI S_ 32 100000#32),
    unary main_c_7 main_v39 (broadcastInDim S900000 ![] bcast_S_S900000 : (⟨S_, .i32⟩ : BufTy).Contents (Elt F) → (⟨S900000, .i32⟩ : BufTy).Contents (Elt F)),
    binary main_v3 main_v39 main_v40 (addi : (⟨S900000, .i32⟩ : BufTy).Contents (Elt F) → (⟨S900000, .i32⟩ : BufTy).Contents (Elt F) → (⟨S900000, .i32⟩ : BufTy).Contents (Elt F)),
    ternary main_v38 main_v40 main_v3 main_v41 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v41 main_v42 (broadcastInDim S900000x1 ![0] bcast_S900000_S900000x1_0 : (⟨S900000, .i32⟩ : BufTy).Contents (Elt F) → (⟨S900000x1, .i32⟩ : BufTy).Contents (Elt F)),
    binary main_v35 main_v42 main_v43 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    unary main_v36 main_v44 (broadcastInDim S900000x64 ![0, 1] bcast_S900000x1_S900000x64_0_1 : (⟨S900000x1, .f32⟩ : BufTy).Contents (Elt F) → (⟨S900000x64, .f32⟩ : BufTy).Contents (Elt F)),
    binary main_v44 main_v43 main_v45 (mulf : (⟨S900000x64, .f32⟩ : BufTy).Contents (Elt F) → (⟨S900000x64, .f32⟩ : BufTy).Contents (Elt F) → (⟨S900000x64, .f32⟩ : BufTy).Contents (Elt F)),
    nullary main_cst_8 (constant S_ .f32 0x00000000#32),
    unary main_cst_8 main_v46 (broadcastInDim S100000x64 ![] bcast_S_S100000x64 : (⟨S_, .f32⟩ : BufTy).Contents (Elt F) → (⟨S100000x64, .f32⟩ : BufTy).Contents (Elt F)),
    unary main_v6 main_v47 (broadcastInDim S900000x1 ![0] bcast_S900000_S900000x1_0 : (⟨S900000, .i32⟩ : BufTy).Contents (Elt F) → (⟨S900000x1, .i32⟩ : BufTy).Contents (Elt F)),
    ternary main_v46 main_v47 main_v45 main_v48 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v48) (TRef.of (T := ⟨S100000x64, .f32⟩) main_call2_v0) (TRef.of (T := ⟨S100000x64, .f32⟩) main_v49) maximumf,
    unary main_v30 main_v50 (broadcastInDim S900000x1 ![0] bcast_S900000_S900000x1_0 : (⟨S900000, .f32⟩ : BufTy).Contents (Elt F) → (⟨S900000x1, .f32⟩ : BufTy).Contents (Elt F)),
    nullary main_c_9 (constantI S_ 32 0#32),
    unary main_c_9 main_v51 (broadcastInDim S900000 ![] bcast_S_S900000 : (⟨S_, .i32⟩ : BufTy).Contents (Elt F) → (⟨S900000, .i32⟩ : BufTy).Contents (Elt F)),
    binary main_v3 main_v51 main_v52 (cmpi .slt : (⟨S900000, .i32⟩ : BufTy).Contents (Elt F) → (⟨S900000, .i32⟩ : BufTy).Contents (Elt F) → (⟨S900000, .i1⟩ : BufTy).Contents (Elt F)),
    nullary main_c_10 (constantI S_ 32 100000#32),
    unary main_c_10 main_v53 (broadcastInDim S900000 ![] bcast_S_S900000 : (⟨S_, .i32⟩ : BufTy).Contents (Elt F) → (⟨S900000, .i32⟩ : BufTy).Contents (Elt F)),
    binary main_v3 main_v53 main_v54 (addi : (⟨S900000, .i32⟩ : BufTy).Contents (Elt F) → (⟨S900000, .i32⟩ : BufTy).Contents (Elt F) → (⟨S900000, .i32⟩ : BufTy).Contents (Elt F)),
    ternary main_v52 main_v54 main_v3 main_v55 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v55 main_v56 (broadcastInDim S900000x1 ![0] bcast_S900000_S900000x1_0 : (⟨S900000, .i32⟩ : BufTy).Contents (Elt F) → (⟨S900000x1, .i32⟩ : BufTy).Contents (Elt F)),
    binary main_v49 main_v56 main_v57 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    unary main_v50 main_v58 (broadcastInDim S900000x64 ![0, 1] bcast_S900000x1_S900000x64_0_1 : (⟨S900000x1, .f32⟩ : BufTy).Contents (Elt F) → (⟨S900000x64, .f32⟩ : BufTy).Contents (Elt F)),
    binary main_v58 main_v57 main_v59 (mulf : (⟨S900000x64, .f32⟩ : BufTy).Contents (Elt F) → (⟨S900000x64, .f32⟩ : BufTy).Contents (Elt F) → (⟨S900000x64, .f32⟩ : BufTy).Contents (Elt F)),
    nullary main_cst_11 (constant S_ .f32 0x00000000#32),
    unary main_cst_11 main_v60 (broadcastInDim S100000x64 ![] bcast_S_S100000x64 : (⟨S_, .f32⟩ : BufTy).Contents (Elt F) → (⟨S100000x64, .f32⟩ : BufTy).Contents (Elt F)),
    unary main_v6 main_v61 (broadcastInDim S900000x1 ![0] bcast_S900000_S900000x1_0 : (⟨S900000, .i32⟩ : BufTy).Contents (Elt F) → (⟨S900000x1, .i32⟩ : BufTy).Contents (Elt F)),
    ternary main_v60 main_v61 main_v59 main_v62 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    nullary main_cst_12 (constant S_ .f32 0x3F666666#32),
    unary main_cst_12 main_v63 (broadcastInDim S100000x64 ![] bcast_S_S100000x64 : (⟨S_, .f32⟩ : BufTy).Contents (Elt F) → (⟨S100000x64, .f32⟩ : BufTy).Contents (Elt F)),
    binary main_v63 main_v62 main_v64 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3DCCCCCD#32),
    unary main_cst_13 main_v65 (broadcastInDim S100000x64 ![] bcast_S_S100000x64 : (⟨S_, .f32⟩ : BufTy).Contents (Elt F) → (⟨S100000x64, .f32⟩ : BufTy).Contents (Elt F)),
    binary main_v65 main_v49 main_v66 (mulf : (⟨S100000x64, .f32⟩ : BufTy).Contents (Elt F) → (⟨S100000x64, .f32⟩ : BufTy).Contents (Elt F) → (⟨S100000x64, .f32⟩ : BufTy).Contents (Elt F)),
    binary main_v64 main_v66 main_v67 (addf : (⟨S100000x64, .f32⟩ : BufTy).Contents (Elt F) → (⟨S100000x64, .f32⟩ : BufTy).Contents (Elt F) → (⟨S100000x64, .f32⟩ : BufTy).Contents (Elt F)),
    nullary main_cst_14 (constant S_ .f32 0x3F46E010#32),
    unary main_cst_14 main_v68 (broadcastInDim S100000x64 ![] bcast_S_S100000x64 : (⟨S_, .f32⟩ : BufTy).Contents (Elt F) → (⟨S100000x64, .f32⟩ : BufTy).Contents (Elt F)),
    binary main_v68 main_v67 main_v69 (mulf : (⟨S100000x64, .f32⟩ : BufTy).Contents (Elt F) → (⟨S100000x64, .f32⟩ : BufTy).Contents (Elt F) → (⟨S100000x64, .f32⟩ : BufTy).Contents (Elt F)),
    unary main_arg6 main_v70 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v70 main_v71 rfl shapeCasts_S1x64x64_S64x64,
    binary main_v67 main_v71 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_15 (constant S_ .f32 0x3E647FBE#32),
    unary main_cst_15 main_v73 (broadcastInDim S100000x64 ![] bcast_S_S100000x64 : (⟨S_, .f32⟩ : BufTy).Contents (Elt F) → (⟨S100000x64, .f32⟩ : BufTy).Contents (Elt F)),
    binary main_v73 main_v72 main_v74 (mulf : (⟨S100000x64, .f32⟩ : BufTy).Contents (Elt F) → (⟨S100000x64, .f32⟩ : BufTy).Contents (Elt F) → (⟨S100000x64, .f32⟩ : BufTy).Contents (Elt F)),
    binary main_v69 main_v74 main_v75 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v75) (TRef.of (T := ⟨S100000x64, .f32⟩) main_call3_v0) (TRef.of (T := ⟨S100000x64, .f32⟩) main_v76) maximumf,
    unary main_v30 main_v77 (broadcastInDim S900000x1 ![0] bcast_S900000_S900000x1_0 : (⟨S900000, .f32⟩ : BufTy).Contents (Elt F) → (⟨S900000x1, .f32⟩ : BufTy).Contents (Elt F)),
    nullary main_c_16 (constantI S_ 32 0#32),
    unary main_c_16 main_v78 (broadcastInDim S900000 ![] bcast_S_S900000 : (⟨S_, .i32⟩ : BufTy).Contents (Elt F) → (⟨S900000, .i32⟩ : BufTy).Contents (Elt F)),
    binary main_v3 main_v78 main_v79 (cmpi .slt : (⟨S900000, .i32⟩ : BufTy).Contents (Elt F) → (⟨S900000, .i32⟩ : BufTy).Contents (Elt F) → (⟨S900000, .i1⟩ : BufTy).Contents (Elt F)),
    nullary main_c_17 (constantI S_ 32 100000#32),
    unary main_c_17 main_v80 (broadcastInDim S900000 ![] bcast_S_S900000 : (⟨S_, .i32⟩ : BufTy).Contents (Elt F) → (⟨S900000, .i32⟩ : BufTy).Contents (Elt F)),
    binary main_v3 main_v80 main_v81 (addi : (⟨S900000, .i32⟩ : BufTy).Contents (Elt F) → (⟨S900000, .i32⟩ : BufTy).Contents (Elt F) → (⟨S900000, .i32⟩ : BufTy).Contents (Elt F)),
    ternary main_v79 main_v81 main_v3 main_v82 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v82 main_v83 (broadcastInDim S900000x1 ![0] bcast_S900000_S900000x1_0 : (⟨S900000, .i32⟩ : BufTy).Contents (Elt F) → (⟨S900000x1, .i32⟩ : BufTy).Contents (Elt F)),
    binary main_v76 main_v83 main_v84 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    unary main_v77 main_v85 (broadcastInDim S900000x64 ![0, 1] bcast_S900000x1_S900000x64_0_1 : (⟨S900000x1, .f32⟩ : BufTy).Contents (Elt F) → (⟨S900000x64, .f32⟩ : BufTy).Contents (Elt F)),
    binary main_v85 main_v84 main_v86 (mulf : (⟨S900000x64, .f32⟩ : BufTy).Contents (Elt F) → (⟨S900000x64, .f32⟩ : BufTy).Contents (Elt F) → (⟨S900000x64, .f32⟩ : BufTy).Contents (Elt F)),
    nullary main_cst_18 (constant S_ .f32 0x00000000#32),
    unary main_cst_18 main_v87 (broadcastInDim S100000x64 ![] bcast_S_S100000x64 : (⟨S_, .f32⟩ : BufTy).Contents (Elt F) → (⟨S100000x64, .f32⟩ : BufTy).Contents (Elt F)),
    unary main_v6 main_v88 (broadcastInDim S900000x1 ![0] bcast_S900000_S900000x1_0 : (⟨S900000, .i32⟩ : BufTy).Contents (Elt F) → (⟨S900000x1, .i32⟩ : BufTy).Contents (Elt F)),
    ternary main_v87 main_v88 main_v86 main_v89 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    nullary main_cst_19 (constant S_ .f32 0x3F666666#32),
    unary main_cst_19 main_v90 (broadcastInDim S100000x64 ![] bcast_S_S100000x64 : (⟨S_, .f32⟩ : BufTy).Contents (Elt F) → (⟨S100000x64, .f32⟩ : BufTy).Contents (Elt F)),
    binary main_v90 main_v89 main_v91 (mulf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3DCCCCCD#32),
    unary main_cst_20 main_v92 (broadcastInDim S100000x64 ![] bcast_S_S100000x64 : (⟨S_, .f32⟩ : BufTy).Contents (Elt F) → (⟨S100000x64, .f32⟩ : BufTy).Contents (Elt F)),
    binary main_v92 main_v49 main_v93 (mulf : (⟨S100000x64, .f32⟩ : BufTy).Contents (Elt F) → (⟨S100000x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3F588995#32),
    unary main_cst_21 main_v95 (broadcastInDim S100000x64 ![] bcast_S_S100000x64 : (⟨S_, .f32⟩ : BufTy).Contents (Elt F) → (⟨S100000x64, .f32⟩ : BufTy).Contents (Elt F)),
    binary main_v95 main_v94 main_v96 (mulf : (⟨S100000x64, .f32⟩ : BufTy).Contents (Elt F) → (⟨S100000x64, .f32⟩ : BufTy).Contents (Elt F) → (⟨S100000x64, .f32⟩ : BufTy).Contents (Elt F)),
    unary main_arg6 main_v97 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v97 main_v98 rfl shapeCasts_S1x64x64_S64x64,
    binary main_v94 main_v98 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_22 (constant S_ .f32 0x3E1DD9AD#32),
    unary main_cst_22 main_v100 (broadcastInDim S100000x64 ![] bcast_S_S100000x64 : (⟨S_, .f32⟩ : BufTy).Contents (Elt F) → (⟨S100000x64, .f32⟩ : BufTy).Contents (Elt F)),
    binary main_v100 main_v99 main_v101 (mulf : (⟨S100000x64, .f32⟩ : BufTy).Contents (Elt F) → (⟨S100000x64, .f32⟩ : BufTy).Contents (Elt F) → (⟨S100000x64, .f32⟩ : BufTy).Contents (Elt F)),
    binary main_v96 main_v101 main_v102 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v102) (TRef.of (T := ⟨S100000x64, .f32⟩) main_call4_v0) (TRef.of (T := ⟨S100000x64, .f32⟩) main_v103) maximumf,
    unary main_v30 main_v104 (broadcastInDim S900000x1 ![0] bcast_S900000_S900000x1_0 : (⟨S900000, .f32⟩ : BufTy).Contents (Elt F) → (⟨S900000x1, .f32⟩ : BufTy).Contents (Elt F)),
    nullary main_c_23 (constantI S_ 32 0#32),
    unary main_c_23 main_v105 (broadcastInDim S900000 ![] bcast_S_S900000 : (⟨S_, .i32⟩ : BufTy).Contents (Elt F) → (⟨S900000, .i32⟩ : BufTy).Contents (Elt F)),
    binary main_v3 main_v105 main_v106 (cmpi .slt : (⟨S900000, .i32⟩ : BufTy).Contents (Elt F) → (⟨S900000, .i32⟩ : BufTy).Contents (Elt F) → (⟨S900000, .i1⟩ : BufTy).Contents (Elt F)),
    nullary main_c_24 (constantI S_ 32 100000#32),
    unary main_c_24 main_v107 (broadcastInDim S900000 ![] bcast_S_S900000 : (⟨S_, .i32⟩ : BufTy).Contents (Elt F) → (⟨S900000, .i32⟩ : BufTy).Contents (Elt F)),
    binary main_v3 main_v107 main_v108 (addi : (⟨S900000, .i32⟩ : BufTy).Contents (Elt F) → (⟨S900000, .i32⟩ : BufTy).Contents (Elt F) → (⟨S900000, .i32⟩ : BufTy).Contents (Elt F)),
    ternary main_v106 main_v108 main_v3 main_v109 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v109 main_v110 (broadcastInDim S900000x1 ![0] bcast_S900000_S900000x1_0 : (⟨S900000, .i32⟩ : BufTy).Contents (Elt F) → (⟨S900000x1, .i32⟩ : BufTy).Contents (Elt F)),
    binary main_v103 main_v110 main_v111 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    unary main_v104 main_v112 (broadcastInDim S900000x64 ![0, 1] bcast_S900000x1_S900000x64_0_1 : (⟨S900000x1, .f32⟩ : BufTy).Contents (Elt F) → (⟨S900000x64, .f32⟩ : BufTy).Contents (Elt F)),
    binary main_v112 main_v111 main_v113 (mulf : (⟨S900000x64, .f32⟩ : BufTy).Contents (Elt F) → (⟨S900000x64, .f32⟩ : BufTy).Contents (Elt F) → (⟨S900000x64, .f32⟩ : BufTy).Contents (Elt F)),
    nullary main_cst_25 (constant S_ .f32 0x00000000#32),
    unary main_cst_25 main_v114 (broadcastInDim S100000x64 ![] bcast_S_S100000x64 : (⟨S_, .f32⟩ : BufTy).Contents (Elt F) → (⟨S100000x64, .f32⟩ : BufTy).Contents (Elt F)),
    unary main_v6 main_v115 (broadcastInDim S900000x1 ![0] bcast_S900000_S900000x1_0 : (⟨S900000, .i32⟩ : BufTy).Contents (Elt F) → (⟨S900000x1, .i32⟩ : BufTy).Contents (Elt F)),
    ternary main_v114 main_v115 main_v113 main_v116 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    nullary main_cst_26 (constant S_ .f32 0x3F666666#32),
    unary main_cst_26 main_v117 (broadcastInDim S100000x64 ![] bcast_S_S100000x64 : (⟨S_, .f32⟩ : BufTy).Contents (Elt F) → (⟨S100000x64, .f32⟩ : BufTy).Contents (Elt F)),
    binary main_v117 main_v116 main_v118 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x3DCCCCCD#32),
    unary main_cst_27 main_v119 (broadcastInDim S100000x64 ![] bcast_S_S100000x64 : (⟨S_, .f32⟩ : BufTy).Contents (Elt F) → (⟨S100000x64, .f32⟩ : BufTy).Contents (Elt F)),
    binary main_v119 main_v49 main_v120 (mulf : (⟨S100000x64, .f32⟩ : BufTy).Contents (Elt F) → (⟨S100000x64, .f32⟩ : BufTy).Contents (Elt F) → (⟨S100000x64, .f32⟩ : BufTy).Contents (Elt F)),
    binary main_v118 main_v120 main_v121 (addf : (⟨S100000x64, .f32⟩ : BufTy).Contents (Elt F) → (⟨S100000x64, .f32⟩ : BufTy).Contents (Elt F) → (⟨S100000x64, .f32⟩ : BufTy).Contents (Elt F)),
    nullary main_cst_28 (constant S_ .f32 0x3F61D8F9#32),
    unary main_cst_28 main_v122 (broadcastInDim S100000x64 ![] bcast_S_S100000x64 : (⟨S_, .f32⟩ : BufTy).Contents (Elt F) → (⟨S100000x64, .f32⟩ : BufTy).Contents (Elt F)),
    binary main_v122 main_v121 main_v123 (mulf : (⟨S100000x64, .f32⟩ : BufTy).Contents (Elt F) → (⟨S100000x64, .f32⟩ : BufTy).Contents (Elt F) → (⟨S100000x64, .f32⟩ : BufTy).Contents (Elt F)),
    unary main_arg6 main_v124 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v124 main_v125 rfl shapeCasts_S1x64x64_S64x64,
    binary main_v121 main_v125 main_v126 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_29 (constant S_ .f32 0x3DF1383B#32),
    unary main_cst_29 main_v127 (broadcastInDim S100000x64 ![] bcast_S_S100000x64 : (⟨S_, .f32⟩ : BufTy).Contents (Elt F) → (⟨S100000x64, .f32⟩ : BufTy).Contents (Elt F)),
    binary main_v127 main_v126 main_v128 (mulf : (⟨S100000x64, .f32⟩ : BufTy).Contents (Elt F) → (⟨S100000x64, .f32⟩ : BufTy).Contents (Elt F) → (⟨S100000x64, .f32⟩ : BufTy).Contents (Elt F)),
    binary main_v123 main_v128 main_v129 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v129) (TRef.of (T := ⟨S100000x64, .f32⟩) main_call5_v0) (TRef.of (T := ⟨S100000x64, .f32⟩) main_v130) maximumf,
    binary main_v130 main_arg4 main_v131 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg5 main_v132 (broadcastInDim S1x40 ![1] bcast_S40_S1x40_1 : (⟨S40, .f32⟩ : BufTy).Contents (Elt F) → (⟨S1x40, .f32⟩ : BufTy).Contents (Elt F)),
    unary main_v132 main_v133 (broadcastInDim S100000x40 ![0, 1] bcast_S1x40_S100000x40_0_1 : (⟨S1x40, .f32⟩ : BufTy).Contents (Elt F) → (⟨S100000x40, .f32⟩ : BufTy).Contents (Elt F)),
    binary main_v131 main_v133 main_v134 (addf : (⟨S100000x40, .f32⟩ : BufTy).Contents (Elt F) → (⟨S100000x40, .f32⟩ : BufTy).Contents (Elt F) → (⟨S100000x40, .f32⟩ : BufTy).Contents (Elt F)) ]

/-- Stretch A: operations 1 to 41. -/
abbrev opsA : List (HloOp τ sig (Elt F)) :=
  [ nullary main_v0 (iotaInDim S100000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst (constant S_ .f32 0x3F800000#32),
    unary main_cst main_v7 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S900000x1 ![0] bcast_S900000_S900000x1_0 : (⟨S900000, .i32⟩ : BufTy).Contents (Elt F) → (⟨S900000x1, .i32⟩ : BufTy).Contents (Elt F)),
    ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S900000 ![] bcast_S_S900000 : (⟨S_, .i32⟩ : BufTy).Contents (Elt F) → (⟨S900000, .i32⟩ : BufTy).Contents (Elt F)),
    binary main_v3 main_v15 main_v16 (cmpi .slt : (⟨S900000, .i32⟩ : BufTy).Contents (Elt F) → (⟨S900000, .i32⟩ : BufTy).Contents (Elt F) → (⟨S900000, .i1⟩ : BufTy).Contents (Elt F)),
    nullary main_c_3 (constantI S_ 32 100000#32),
    unary main_c_3 main_v17 (broadcastInDim S900000 ![] bcast_S_S900000 : (⟨S_, .i32⟩ : BufTy).Contents (Elt F) → (⟨S900000, .i32⟩ : BufTy).Contents (Elt F)),
    binary main_v3 main_v17 main_v18 (addi : (⟨S900000, .i32⟩ : BufTy).Contents (Elt F) → (⟨S900000, .i32⟩ : BufTy).Contents (Elt F) → (⟨S900000, .i32⟩ : BufTy).Contents (Elt F)),
    ternary main_v16 main_v18 main_v3 main_v19 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v19 main_v20 (broadcastInDim S900000x1 ![0] bcast_S900000_S900000x1_0 : (⟨S900000, .i32⟩ : BufTy).Contents (Elt F) → (⟨S900000x1, .i32⟩ : BufTy).Contents (Elt F)),
    binary main_v14 main_v20 main_v21 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v21 main_v7 main_v22 (mulf : (⟨S900000, .f32⟩ : BufTy).Contents (Elt F) → (⟨S900000, .f32⟩ : BufTy).Contents (Elt F) → (⟨S900000, .f32⟩ : BufTy).Contents (Elt F)),
    nullary main_c_4 (constantI S_ 32 0#32),
    unary main_c_4 main_v23 (broadcastInDim S900000 ![] bcast_S_S900000 : (⟨S_, .i32⟩ : BufTy).Contents (Elt F) → (⟨S900000, .i32⟩ : BufTy).Contents (Elt F)),
    binary main_v6 main_v23 main_v24 (cmpi .slt : (⟨S900000, .i32⟩ : BufTy).Contents (Elt F) → (⟨S900000, .i32⟩ : BufTy).Contents (Elt F) → (⟨S900000, .i1⟩ : BufTy).Contents (Elt F)),
    nullary main_c_5 (constantI S_ 32 100000#32),
    unary main_c_5 main_v25 (broadcastInDim S900000 ![] bcast_S_S900000 : (⟨S_, .i32⟩ : BufTy).Contents (Elt F) → (⟨S900000, .i32⟩ : BufTy).Contents (Elt F)),
    binary main_v6 main_v25 main_v26 (addi : (⟨S900000, .i32⟩ : BufTy).Contents (Elt F) → (⟨S900000, .i32⟩ : BufTy).Contents (Elt F) → (⟨S900000, .i32⟩ : BufTy).Contents (Elt F)),
    ternary main_v24 main_v26 main_v6 main_v27 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v27 main_v28 (broadcastInDim S900000x1 ![0] bcast_S900000_S900000x1_0 : (⟨S900000, .i32⟩ : BufTy).Contents (Elt F) → (⟨S900000x1, .i32⟩ : BufTy).Contents (Elt F)),
    binary main_v14 main_v28 main_v29 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v22 main_v29 main_v30 (mulf : (⟨S900000, .f32⟩ : BufTy).Contents (Elt F) → (⟨S900000, .f32⟩ : BufTy).Contents (Elt F) → (⟨S900000, .f32⟩ : BufTy).Contents (Elt F)) ]

/-- Stretch B: operations 42 to 48. -/
abbrev opsB : List (HloOp τ sig (Elt F)) :=
  [ binary main_arg0 main_arg2 main_v31 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v34) (TRef.of (T := ⟨S100000x64, .f32⟩) main_call1_v0) (TRef.of (T := ⟨S100000x64, .f32⟩) main_v35) maximumf ]

/-- Stretch C: operations 49 to 67. -/
abbrev opsC : List (HloOp τ sig (Elt F)) :=
  [ unary main_v30 main_v36 (broadcastInDim S900000x1 ![0] bcast_S900000_S900000x1_0 : (⟨S900000, .f32⟩ : BufTy).Contents (Elt F) → (⟨S900000x1, .f32⟩ : BufTy).Contents (Elt F)),
    nullary main_c_6 (constantI S_ 32 0#32),
    unary main_c_6 main_v37 (broadcastInDim S900000 ![] bcast_S_S900000 : (⟨S_, .i32⟩ : BufTy).Contents (Elt F) → (⟨S900000, .i32⟩ : BufTy).Contents (Elt F)),
    binary main_v3 main_v37 main_v38 (cmpi .slt : (⟨S900000, .i32⟩ : BufTy).Contents (Elt F) → (⟨S900000, .i32⟩ : BufTy).Contents (Elt F) → (⟨S900000, .i1⟩ : BufTy).Contents (Elt F)),
    nullary main_c_7 (constantI S_ 32 100000#32),
    unary main_c_7 main_v39 (broadcastInDim S900000 ![] bcast_S_S900000 : (⟨S_, .i32⟩ : BufTy).Contents (Elt F) → (⟨S900000, .i32⟩ : BufTy).Contents (Elt F)),
    binary main_v3 main_v39 main_v40 (addi : (⟨S900000, .i32⟩ : BufTy).Contents (Elt F) → (⟨S900000, .i32⟩ : BufTy).Contents (Elt F) → (⟨S900000, .i32⟩ : BufTy).Contents (Elt F)),
    ternary main_v38 main_v40 main_v3 main_v41 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v41 main_v42 (broadcastInDim S900000x1 ![0] bcast_S900000_S900000x1_0 : (⟨S900000, .i32⟩ : BufTy).Contents (Elt F) → (⟨S900000x1, .i32⟩ : BufTy).Contents (Elt F)),
    binary main_v35 main_v42 main_v43 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    unary main_v36 main_v44 (broadcastInDim S900000x64 ![0, 1] bcast_S900000x1_S900000x64_0_1 : (⟨S900000x1, .f32⟩ : BufTy).Contents (Elt F) → (⟨S900000x64, .f32⟩ : BufTy).Contents (Elt F)),
    binary main_v44 main_v43 main_v45 (mulf : (⟨S900000x64, .f32⟩ : BufTy).Contents (Elt F) → (⟨S900000x64, .f32⟩ : BufTy).Contents (Elt F) → (⟨S900000x64, .f32⟩ : BufTy).Contents (Elt F)),
    nullary main_cst_8 (constant S_ .f32 0x00000000#32),
    unary main_cst_8 main_v46 (broadcastInDim S100000x64 ![] bcast_S_S100000x64 : (⟨S_, .f32⟩ : BufTy).Contents (Elt F) → (⟨S100000x64, .f32⟩ : BufTy).Contents (Elt F)),
    unary main_v6 main_v47 (broadcastInDim S900000x1 ![0] bcast_S900000_S900000x1_0 : (⟨S900000, .i32⟩ : BufTy).Contents (Elt F) → (⟨S900000x1, .i32⟩ : BufTy).Contents (Elt F)),
    ternary main_v46 main_v47 main_v45 main_v48 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v48) (TRef.of (T := ⟨S100000x64, .f32⟩) main_call2_v0) (TRef.of (T := ⟨S100000x64, .f32⟩) main_v49) maximumf ]

/-- Stretch D: operations 68 to 103. -/
abbrev opsD : List (HloOp τ sig (Elt F)) :=
  [ unary main_v30 main_v50 (broadcastInDim S900000x1 ![0] bcast_S900000_S900000x1_0 : (⟨S900000, .f32⟩ : BufTy).Contents (Elt F) → (⟨S900000x1, .f32⟩ : BufTy).Contents (Elt F)),
    nullary main_c_9 (constantI S_ 32 0#32),
    unary main_c_9 main_v51 (broadcastInDim S900000 ![] bcast_S_S900000 : (⟨S_, .i32⟩ : BufTy).Contents (Elt F) → (⟨S900000, .i32⟩ : BufTy).Contents (Elt F)),
    binary main_v3 main_v51 main_v52 (cmpi .slt : (⟨S900000, .i32⟩ : BufTy).Contents (Elt F) → (⟨S900000, .i32⟩ : BufTy).Contents (Elt F) → (⟨S900000, .i1⟩ : BufTy).Contents (Elt F)),
    nullary main_c_10 (constantI S_ 32 100000#32),
    unary main_c_10 main_v53 (broadcastInDim S900000 ![] bcast_S_S900000 : (⟨S_, .i32⟩ : BufTy).Contents (Elt F) → (⟨S900000, .i32⟩ : BufTy).Contents (Elt F)),
    binary main_v3 main_v53 main_v54 (addi : (⟨S900000, .i32⟩ : BufTy).Contents (Elt F) → (⟨S900000, .i32⟩ : BufTy).Contents (Elt F) → (⟨S900000, .i32⟩ : BufTy).Contents (Elt F)),
    ternary main_v52 main_v54 main_v3 main_v55 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v55 main_v56 (broadcastInDim S900000x1 ![0] bcast_S900000_S900000x1_0 : (⟨S900000, .i32⟩ : BufTy).Contents (Elt F) → (⟨S900000x1, .i32⟩ : BufTy).Contents (Elt F)),
    binary main_v49 main_v56 main_v57 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    unary main_v50 main_v58 (broadcastInDim S900000x64 ![0, 1] bcast_S900000x1_S900000x64_0_1 : (⟨S900000x1, .f32⟩ : BufTy).Contents (Elt F) → (⟨S900000x64, .f32⟩ : BufTy).Contents (Elt F)),
    binary main_v58 main_v57 main_v59 (mulf : (⟨S900000x64, .f32⟩ : BufTy).Contents (Elt F) → (⟨S900000x64, .f32⟩ : BufTy).Contents (Elt F) → (⟨S900000x64, .f32⟩ : BufTy).Contents (Elt F)),
    nullary main_cst_11 (constant S_ .f32 0x00000000#32),
    unary main_cst_11 main_v60 (broadcastInDim S100000x64 ![] bcast_S_S100000x64 : (⟨S_, .f32⟩ : BufTy).Contents (Elt F) → (⟨S100000x64, .f32⟩ : BufTy).Contents (Elt F)),
    unary main_v6 main_v61 (broadcastInDim S900000x1 ![0] bcast_S900000_S900000x1_0 : (⟨S900000, .i32⟩ : BufTy).Contents (Elt F) → (⟨S900000x1, .i32⟩ : BufTy).Contents (Elt F)),
    ternary main_v60 main_v61 main_v59 main_v62 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    nullary main_cst_12 (constant S_ .f32 0x3F666666#32),
    unary main_cst_12 main_v63 (broadcastInDim S100000x64 ![] bcast_S_S100000x64 : (⟨S_, .f32⟩ : BufTy).Contents (Elt F) → (⟨S100000x64, .f32⟩ : BufTy).Contents (Elt F)),
    binary main_v63 main_v62 main_v64 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3DCCCCCD#32),
    unary main_cst_13 main_v65 (broadcastInDim S100000x64 ![] bcast_S_S100000x64 : (⟨S_, .f32⟩ : BufTy).Contents (Elt F) → (⟨S100000x64, .f32⟩ : BufTy).Contents (Elt F)),
    binary main_v65 main_v49 main_v66 (mulf : (⟨S100000x64, .f32⟩ : BufTy).Contents (Elt F) → (⟨S100000x64, .f32⟩ : BufTy).Contents (Elt F) → (⟨S100000x64, .f32⟩ : BufTy).Contents (Elt F)),
    binary main_v64 main_v66 main_v67 (addf : (⟨S100000x64, .f32⟩ : BufTy).Contents (Elt F) → (⟨S100000x64, .f32⟩ : BufTy).Contents (Elt F) → (⟨S100000x64, .f32⟩ : BufTy).Contents (Elt F)),
    nullary main_cst_14 (constant S_ .f32 0x3F46E010#32),
    unary main_cst_14 main_v68 (broadcastInDim S100000x64 ![] bcast_S_S100000x64 : (⟨S_, .f32⟩ : BufTy).Contents (Elt F) → (⟨S100000x64, .f32⟩ : BufTy).Contents (Elt F)),
    binary main_v68 main_v67 main_v69 (mulf : (⟨S100000x64, .f32⟩ : BufTy).Contents (Elt F) → (⟨S100000x64, .f32⟩ : BufTy).Contents (Elt F) → (⟨S100000x64, .f32⟩ : BufTy).Contents (Elt F)),
    unary main_arg6 main_v70 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v70 main_v71 rfl shapeCasts_S1x64x64_S64x64,
    binary main_v67 main_v71 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_15 (constant S_ .f32 0x3E647FBE#32),
    unary main_cst_15 main_v73 (broadcastInDim S100000x64 ![] bcast_S_S100000x64 : (⟨S_, .f32⟩ : BufTy).Contents (Elt F) → (⟨S100000x64, .f32⟩ : BufTy).Contents (Elt F)),
    binary main_v73 main_v72 main_v74 (mulf : (⟨S100000x64, .f32⟩ : BufTy).Contents (Elt F) → (⟨S100000x64, .f32⟩ : BufTy).Contents (Elt F) → (⟨S100000x64, .f32⟩ : BufTy).Contents (Elt F)),
    binary main_v69 main_v74 main_v75 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v75) (TRef.of (T := ⟨S100000x64, .f32⟩) main_call3_v0) (TRef.of (T := ⟨S100000x64, .f32⟩) main_v76) maximumf ]

/-- Stretch E: operations 104 to 139. -/
abbrev opsE : List (HloOp τ sig (Elt F)) :=
  [ unary main_v30 main_v77 (broadcastInDim S900000x1 ![0] bcast_S900000_S900000x1_0 : (⟨S900000, .f32⟩ : BufTy).Contents (Elt F) → (⟨S900000x1, .f32⟩ : BufTy).Contents (Elt F)),
    nullary main_c_16 (constantI S_ 32 0#32),
    unary main_c_16 main_v78 (broadcastInDim S900000 ![] bcast_S_S900000 : (⟨S_, .i32⟩ : BufTy).Contents (Elt F) → (⟨S900000, .i32⟩ : BufTy).Contents (Elt F)),
    binary main_v3 main_v78 main_v79 (cmpi .slt : (⟨S900000, .i32⟩ : BufTy).Contents (Elt F) → (⟨S900000, .i32⟩ : BufTy).Contents (Elt F) → (⟨S900000, .i1⟩ : BufTy).Contents (Elt F)),
    nullary main_c_17 (constantI S_ 32 100000#32),
    unary main_c_17 main_v80 (broadcastInDim S900000 ![] bcast_S_S900000 : (⟨S_, .i32⟩ : BufTy).Contents (Elt F) → (⟨S900000, .i32⟩ : BufTy).Contents (Elt F)),
    binary main_v3 main_v80 main_v81 (addi : (⟨S900000, .i32⟩ : BufTy).Contents (Elt F) → (⟨S900000, .i32⟩ : BufTy).Contents (Elt F) → (⟨S900000, .i32⟩ : BufTy).Contents (Elt F)),
    ternary main_v79 main_v81 main_v3 main_v82 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v82 main_v83 (broadcastInDim S900000x1 ![0] bcast_S900000_S900000x1_0 : (⟨S900000, .i32⟩ : BufTy).Contents (Elt F) → (⟨S900000x1, .i32⟩ : BufTy).Contents (Elt F)),
    binary main_v76 main_v83 main_v84 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    unary main_v77 main_v85 (broadcastInDim S900000x64 ![0, 1] bcast_S900000x1_S900000x64_0_1 : (⟨S900000x1, .f32⟩ : BufTy).Contents (Elt F) → (⟨S900000x64, .f32⟩ : BufTy).Contents (Elt F)),
    binary main_v85 main_v84 main_v86 (mulf : (⟨S900000x64, .f32⟩ : BufTy).Contents (Elt F) → (⟨S900000x64, .f32⟩ : BufTy).Contents (Elt F) → (⟨S900000x64, .f32⟩ : BufTy).Contents (Elt F)),
    nullary main_cst_18 (constant S_ .f32 0x00000000#32),
    unary main_cst_18 main_v87 (broadcastInDim S100000x64 ![] bcast_S_S100000x64 : (⟨S_, .f32⟩ : BufTy).Contents (Elt F) → (⟨S100000x64, .f32⟩ : BufTy).Contents (Elt F)),
    unary main_v6 main_v88 (broadcastInDim S900000x1 ![0] bcast_S900000_S900000x1_0 : (⟨S900000, .i32⟩ : BufTy).Contents (Elt F) → (⟨S900000x1, .i32⟩ : BufTy).Contents (Elt F)),
    ternary main_v87 main_v88 main_v86 main_v89 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    nullary main_cst_19 (constant S_ .f32 0x3F666666#32),
    unary main_cst_19 main_v90 (broadcastInDim S100000x64 ![] bcast_S_S100000x64 : (⟨S_, .f32⟩ : BufTy).Contents (Elt F) → (⟨S100000x64, .f32⟩ : BufTy).Contents (Elt F)),
    binary main_v90 main_v89 main_v91 (mulf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3DCCCCCD#32),
    unary main_cst_20 main_v92 (broadcastInDim S100000x64 ![] bcast_S_S100000x64 : (⟨S_, .f32⟩ : BufTy).Contents (Elt F) → (⟨S100000x64, .f32⟩ : BufTy).Contents (Elt F)),
    binary main_v92 main_v49 main_v93 (mulf : (⟨S100000x64, .f32⟩ : BufTy).Contents (Elt F) → (⟨S100000x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3F588995#32),
    unary main_cst_21 main_v95 (broadcastInDim S100000x64 ![] bcast_S_S100000x64 : (⟨S_, .f32⟩ : BufTy).Contents (Elt F) → (⟨S100000x64, .f32⟩ : BufTy).Contents (Elt F)),
    binary main_v95 main_v94 main_v96 (mulf : (⟨S100000x64, .f32⟩ : BufTy).Contents (Elt F) → (⟨S100000x64, .f32⟩ : BufTy).Contents (Elt F) → (⟨S100000x64, .f32⟩ : BufTy).Contents (Elt F)),
    unary main_arg6 main_v97 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v97 main_v98 rfl shapeCasts_S1x64x64_S64x64,
    binary main_v94 main_v98 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_22 (constant S_ .f32 0x3E1DD9AD#32),
    unary main_cst_22 main_v100 (broadcastInDim S100000x64 ![] bcast_S_S100000x64 : (⟨S_, .f32⟩ : BufTy).Contents (Elt F) → (⟨S100000x64, .f32⟩ : BufTy).Contents (Elt F)),
    binary main_v100 main_v99 main_v101 (mulf : (⟨S100000x64, .f32⟩ : BufTy).Contents (Elt F) → (⟨S100000x64, .f32⟩ : BufTy).Contents (Elt F) → (⟨S100000x64, .f32⟩ : BufTy).Contents (Elt F)),
    binary main_v96 main_v101 main_v102 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v102) (TRef.of (T := ⟨S100000x64, .f32⟩) main_call4_v0) (TRef.of (T := ⟨S100000x64, .f32⟩) main_v103) maximumf ]

/-- Stretch F: operations 140 to 175. -/
abbrev opsF : List (HloOp τ sig (Elt F)) :=
  [ unary main_v30 main_v104 (broadcastInDim S900000x1 ![0] bcast_S900000_S900000x1_0 : (⟨S900000, .f32⟩ : BufTy).Contents (Elt F) → (⟨S900000x1, .f32⟩ : BufTy).Contents (Elt F)),
    nullary main_c_23 (constantI S_ 32 0#32),
    unary main_c_23 main_v105 (broadcastInDim S900000 ![] bcast_S_S900000 : (⟨S_, .i32⟩ : BufTy).Contents (Elt F) → (⟨S900000, .i32⟩ : BufTy).Contents (Elt F)),
    binary main_v3 main_v105 main_v106 (cmpi .slt : (⟨S900000, .i32⟩ : BufTy).Contents (Elt F) → (⟨S900000, .i32⟩ : BufTy).Contents (Elt F) → (⟨S900000, .i1⟩ : BufTy).Contents (Elt F)),
    nullary main_c_24 (constantI S_ 32 100000#32),
    unary main_c_24 main_v107 (broadcastInDim S900000 ![] bcast_S_S900000 : (⟨S_, .i32⟩ : BufTy).Contents (Elt F) → (⟨S900000, .i32⟩ : BufTy).Contents (Elt F)),
    binary main_v3 main_v107 main_v108 (addi : (⟨S900000, .i32⟩ : BufTy).Contents (Elt F) → (⟨S900000, .i32⟩ : BufTy).Contents (Elt F) → (⟨S900000, .i32⟩ : BufTy).Contents (Elt F)),
    ternary main_v106 main_v108 main_v3 main_v109 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v109 main_v110 (broadcastInDim S900000x1 ![0] bcast_S900000_S900000x1_0 : (⟨S900000, .i32⟩ : BufTy).Contents (Elt F) → (⟨S900000x1, .i32⟩ : BufTy).Contents (Elt F)),
    binary main_v103 main_v110 main_v111 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    unary main_v104 main_v112 (broadcastInDim S900000x64 ![0, 1] bcast_S900000x1_S900000x64_0_1 : (⟨S900000x1, .f32⟩ : BufTy).Contents (Elt F) → (⟨S900000x64, .f32⟩ : BufTy).Contents (Elt F)),
    binary main_v112 main_v111 main_v113 (mulf : (⟨S900000x64, .f32⟩ : BufTy).Contents (Elt F) → (⟨S900000x64, .f32⟩ : BufTy).Contents (Elt F) → (⟨S900000x64, .f32⟩ : BufTy).Contents (Elt F)),
    nullary main_cst_25 (constant S_ .f32 0x00000000#32),
    unary main_cst_25 main_v114 (broadcastInDim S100000x64 ![] bcast_S_S100000x64 : (⟨S_, .f32⟩ : BufTy).Contents (Elt F) → (⟨S100000x64, .f32⟩ : BufTy).Contents (Elt F)),
    unary main_v6 main_v115 (broadcastInDim S900000x1 ![0] bcast_S900000_S900000x1_0 : (⟨S900000, .i32⟩ : BufTy).Contents (Elt F) → (⟨S900000x1, .i32⟩ : BufTy).Contents (Elt F)),
    ternary main_v114 main_v115 main_v113 main_v116 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    nullary main_cst_26 (constant S_ .f32 0x3F666666#32),
    unary main_cst_26 main_v117 (broadcastInDim S100000x64 ![] bcast_S_S100000x64 : (⟨S_, .f32⟩ : BufTy).Contents (Elt F) → (⟨S100000x64, .f32⟩ : BufTy).Contents (Elt F)),
    binary main_v117 main_v116 main_v118 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x3DCCCCCD#32),
    unary main_cst_27 main_v119 (broadcastInDim S100000x64 ![] bcast_S_S100000x64 : (⟨S_, .f32⟩ : BufTy).Contents (Elt F) → (⟨S100000x64, .f32⟩ : BufTy).Contents (Elt F)),
    binary main_v119 main_v49 main_v120 (mulf : (⟨S100000x64, .f32⟩ : BufTy).Contents (Elt F) → (⟨S100000x64, .f32⟩ : BufTy).Contents (Elt F) → (⟨S100000x64, .f32⟩ : BufTy).Contents (Elt F)),
    binary main_v118 main_v120 main_v121 (addf : (⟨S100000x64, .f32⟩ : BufTy).Contents (Elt F) → (⟨S100000x64, .f32⟩ : BufTy).Contents (Elt F) → (⟨S100000x64, .f32⟩ : BufTy).Contents (Elt F)),
    nullary main_cst_28 (constant S_ .f32 0x3F61D8F9#32),
    unary main_cst_28 main_v122 (broadcastInDim S100000x64 ![] bcast_S_S100000x64 : (⟨S_, .f32⟩ : BufTy).Contents (Elt F) → (⟨S100000x64, .f32⟩ : BufTy).Contents (Elt F)),
    binary main_v122 main_v121 main_v123 (mulf : (⟨S100000x64, .f32⟩ : BufTy).Contents (Elt F) → (⟨S100000x64, .f32⟩ : BufTy).Contents (Elt F) → (⟨S100000x64, .f32⟩ : BufTy).Contents (Elt F)),
    unary main_arg6 main_v124 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v124 main_v125 rfl shapeCasts_S1x64x64_S64x64,
    binary main_v121 main_v125 main_v126 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_29 (constant S_ .f32 0x3DF1383B#32),
    unary main_cst_29 main_v127 (broadcastInDim S100000x64 ![] bcast_S_S100000x64 : (⟨S_, .f32⟩ : BufTy).Contents (Elt F) → (⟨S100000x64, .f32⟩ : BufTy).Contents (Elt F)),
    binary main_v127 main_v126 main_v128 (mulf : (⟨S100000x64, .f32⟩ : BufTy).Contents (Elt F) → (⟨S100000x64, .f32⟩ : BufTy).Contents (Elt F) → (⟨S100000x64, .f32⟩ : BufTy).Contents (Elt F)),
    binary main_v123 main_v128 main_v129 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v129) (TRef.of (T := ⟨S100000x64, .f32⟩) main_call5_v0) (TRef.of (T := ⟨S100000x64, .f32⟩) main_v130) maximumf ]

/-- Stretch G: operations 176 to 179. -/
abbrev opsG : List (HloOp τ sig (Elt F)) :=
  [ binary main_v130 main_arg4 main_v131 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg5 main_v132 (broadcastInDim S1x40 ![1] bcast_S40_S1x40_1 : (⟨S40, .f32⟩ : BufTy).Contents (Elt F) → (⟨S1x40, .f32⟩ : BufTy).Contents (Elt F)),
    unary main_v132 main_v133 (broadcastInDim S100000x40 ![0, 1] bcast_S1x40_S100000x40_0_1 : (⟨S1x40, .f32⟩ : BufTy).Contents (Elt F) → (⟨S100000x40, .f32⟩ : BufTy).Contents (Elt F)),
    binary main_v131 main_v133 main_v134 (addf : (⟨S100000x40, .f32⟩ : BufTy).Contents (Elt F) → (⟨S100000x40, .f32⟩ : BufTy).Contents (Elt F) → (⟨S100000x40, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., binary_bufs_sub ..⟩

set_option maxRecDepth 8192 in
/-- The line is its seven stretches one after the other. -/
theorem ops_split : (ops : List (HloOp τ sig (Elt F))) = opsA ++ (opsB ++ (opsC ++ (opsD ++ (opsE ++ (opsF ++ opsG))))) := rfl

/-- The fold over two lists in a row is the second's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The fold over the line, stretch by stretch. -/
theorem after_ops (V : Valuation τ sig (Elt F)) :
    after ops V = after opsG (after opsF (after opsE (after opsD (after opsC (after opsB (after opsA V)))))) := by
  rw [ops_split]
  simp only [after_append]

set_option maxRecDepth 8192 in
set_option maxHeartbeats 4000000 in
/-- Every weakly fair execution of the reference terminates, nothing faulting, with every buffer at the fold of the
    line over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.HandRun

end
-- ==== Proof.HostR.lean ====
/-
  What the reference's seven stretches compute.

  Each stretch is read off the fold of its operations, from any contents `V` it starts from, as the stage function of
  `V` at the buffers the stretch reads: the edges' ends and weights; the first dense layer; the first propagation and
  rectifier; three residual layers, each over a propagation of the layer before; the last dense layer.
-/
import proofs.«116112_j81028853006976_1_alg».proof.Proof.RefRun
import proofs.«116112_j81028853006976_1_alg».proof.Proof.LibHostRead
import proofs.«116112_j81028853006976_1_alg».proof.Proof.Stages

set_option maxRecDepth 16384

noncomputable section

namespace Cert.ReferenceIdeal.HostR

open Cert.ReferenceIdeal Cert.ReferenceIdeal.Gen Cert.ReferenceIdeal.HandRun
open Idealize.ShloMosaic Idealize.ShloMosaic.TcCoe Idealize.ShloMosaic.StableHlo
open Cert.HostRead

variable (V : Valuation τ sig (Elt Ideal))

theorem A_row : after opsA V (Proc.devRef .tc main_v3) = Cert.Gcn.ends0 (V (Proc.devRef .tc main_arg1)) := by
  read_results
  rfl
theorem A_col : after opsA V (Proc.devRef .tc main_v6) = Cert.Gcn.ends1 (V (Proc.devRef .tc main_arg1)) := by
  read_results
  rfl
theorem A_norm : after opsA V (Proc.devRef .tc main_v30)
    = Cert.Gcn.normR (Cert.Gcn.ends0 (V (Proc.devRef .tc main_arg1))) (Cert.Gcn.ends1 (V (Proc.devRef .tc main_arg1))) := by
  read_results
  rfl
theorem B_dense : after opsB V (Proc.devRef .tc main_v35)
    = Cert.Gcn.fc0 (V (Proc.devRef .tc main_arg0)) (V (Proc.devRef .tc main_arg2)) (V (Proc.devRef .tc main_arg3)) := by
  read_results
  rfl
theorem C_feat : after opsC V (Proc.devRef .tc main_v49)
    = Cert.Gcn.relu (Cert.Gcn.prop (V (Proc.devRef .tc main_v30)) (V (Proc.devRef .tc main_v3)) (V (Proc.devRef .tc main_v6)) (V (Proc.devRef .tc main_v35))) := by
  read_results
  rfl
theorem D_layer : after opsD V (Proc.devRef .tc main_v76)
    = Cert.Gcn.layer 0x3F46E010#32 0x3E647FBE#32 (Cert.Gcn.prop (V (Proc.devRef .tc main_v30)) (V (Proc.devRef .tc main_v3)) (V (Proc.devRef .tc main_v6)) (V (Proc.devRef .tc main_v49)))
        (V (Proc.devRef .tc main_v49)) (Cert.Gcn.w1 (V (Proc.devRef .tc main_arg6))) := by
  read_results
  rfl
theorem E_layer : after opsE V (Proc.devRef .tc main_v103)
    = Cert.Gcn.layer 0x3F588995#32 0x3E1DD9AD#32 (Cert.Gcn.prop (V (Proc.devRef .tc main_v30)) (V (Proc.devRef .tc main_v3)) (V (Proc.devRef .tc main_v6)) (V (Proc.devRef .tc main_v76)))
        (V (Proc.devRef .tc main_v49)) (Cert.Gcn.w2 (V (Proc.devRef .tc main_arg6))) := by
  read_results
  rfl
theorem F_layer : after opsF V (Proc.devRef .tc main_v130)
    = Cert.Gcn.layer 0x3F61D8F9#32 0x3DF1383B#32 (Cert.Gcn.prop (V (Proc.devRef .tc main_v30)) (V (Proc.devRef .tc main_v3)) (V (Proc.devRef .tc main_v6)) (V (Proc.devRef .tc main_v103)))
        (V (Proc.devRef .tc main_v49)) (Cert.Gcn.w3 (V (Proc.devRef .tc main_arg6))) := by
  read_results
  rfl
theorem G_dense : after opsG V (Proc.devRef .tc main_v134)
    = Cert.Gcn.fc1 (V (Proc.devRef .tc main_v130)) (V (Proc.devRef .tc main_arg4)) (V (Proc.devRef .tc main_arg5)) := by
  read_results
  rfl

end Cert.ReferenceIdeal.HostR

end
-- ==== Proof.RefValue.lean ====
/-
  The reference's result as the network of its arguments.

  The contents after each of the reference's seven stretches are a fold from the launch memory. Going up the fold, each
  stretch's output is its stage function of what the stretch before left, and a buffer a stretch does not write is
  carried unchanged. After the last stretch the result buffer holds `out` of the seven arguments, the edge weights in
  the form with the unit factor written out.
-/
import proofs.«116112_j81028853006976_1_alg».proof.Proof.RefRun
import proofs.«116112_j81028853006976_1_alg».proof.Proof.LibKeep
import proofs.«116112_j81028853006976_1_alg».proof.Proof.HostR

set_option maxRecDepth 16384

noncomputable section

namespace Cert.ReferenceIdeal.ResultValue

open Cert.ReferenceIdeal Cert.ReferenceIdeal.Gen Cert.ReferenceIdeal.HandRun
open Idealize.ShloMosaic Idealize.ShloMosaic.TcCoe Idealize.ShloMosaic.StableHlo Idealize.SL.Sem
open Cert.Keep

variable (m : (ℓ : Loc nD τ sig) → Buf (Elt Ideal) ℓ) (d : Dev nD)

/-- The contents after each stretch. -/
abbrev UA : Valuation τ sig (Elt Ideal) := after opsA (launchContents m d)
abbrev UB : Valuation τ sig (Elt Ideal) := after opsB (UA m d)
abbrev UC : Valuation τ sig (Elt Ideal) := after opsC (UB m d)
abbrev UD : Valuation τ sig (Elt Ideal) := after opsD (UC m d)
abbrev UE : Valuation τ sig (Elt Ideal) := after opsE (UD m d)
abbrev UF : Valuation τ sig (Elt Ideal) := after opsF (UE m d)
abbrev UG : Valuation τ sig (Elt Ideal) := after opsG (UF m d)

/-! ## The edges -/

theorem a_row : UA m d (Proc.devRef .tc main_v3) = (Cert.Gcn.ends0 (m ((d.tc : Thread nD τ).loc main_arg1))) := HostR.A_row (launchContents m d)
theorem a_col : UA m d (Proc.devRef .tc main_v6) = (Cert.Gcn.ends1 (m ((d.tc : Thread nD τ).loc main_arg1))) := HostR.A_col (launchContents m d)
theorem a_norm : UA m d (Proc.devRef .tc main_v30) = (Cert.Gcn.normR (Cert.Gcn.ends0 (m ((d.tc : Thread nD τ).loc main_arg1))) (Cert.Gcn.ends1 (m ((d.tc : Thread nD τ).loc main_arg1)))) := HostR.A_norm (launchContents m d)
/-- Argument 0, not yet touched. -/
theorem a_x0 : UA m d (Proc.devRef .tc main_arg0) = (m ((d.tc : Thread nD τ).loc main_arg0)) :=
  calc UA m d (Proc.devRef .tc main_arg0)
    _ = launchContents m d (Proc.devRef .tc main_arg0) := by keeps opsA
    _ = (m ((d.tc : Thread nD τ).loc main_arg0)) := rfl
/-- Argument 2, not yet touched. -/
theorem a_x2 : UA m d (Proc.devRef .tc main_arg2) = (m ((d.tc : Thread nD τ).loc main_arg2)) :=
  calc UA m d (Proc.devRef .tc main_arg2)
    _ = launchContents m d (Proc.devRef .tc main_arg2) := by keeps opsA
    _ = (m ((d.tc : Thread nD τ).loc main_arg2)) := rfl
/-- Argument 3, not yet touched. -/
theorem a_x3 : UA m d (Proc.devRef .tc main_arg3) = (m ((d.tc : Thread nD τ).loc main_arg3)) :=
  calc UA m d (Proc.devRef .tc main_arg3)
    _ = launchContents m d (Proc.devRef .tc main_arg3) := by keeps opsA
    _ = (m ((d.tc : Thread nD τ).loc main_arg3)) := rfl
/-- Argument 4, not yet touched. -/
theorem a_x4 : UA m d (Proc.devRef .tc main_arg4) = (m ((d.tc : Thread nD τ).loc main_arg4)) :=
  calc UA m d (Proc.devRef .tc main_arg4)
    _ = launchContents m d (Proc.devRef .tc main_arg4) := by keeps opsA
    _ = (m ((d.tc : Thread nD τ).loc main_arg4)) := rfl
/-- Argument 5, not yet touched. -/
theorem a_x5 : UA m d (Proc.devRef .tc main_arg5) = (m ((d.tc : Thread nD τ).loc main_arg5)) :=
  calc UA m d (Proc.devRef .tc main_arg5)
    _ = launchContents m d (Proc.devRef .tc main_arg5) := by keeps opsA
    _ = (m ((d.tc : Thread nD τ).loc main_arg5)) := rfl
/-- Argument 6, not yet touched. -/
theorem a_x6 : UA m d (Proc.devRef .tc main_arg6) = (m ((d.tc : Thread nD τ).loc main_arg6)) :=
  calc UA m d (Proc.devRef .tc main_arg6)
    _ = launchContents m d (Proc.devRef .tc main_arg6) := by keeps opsA
    _ = (m ((d.tc : Thread nD τ).loc main_arg6)) := rfl

/-! ## The first dense layer -/

theorem b_h : UB m d (Proc.devRef .tc main_v35) = (Cert.Gcn.fc0 (m ((d.tc : Thread nD τ).loc main_arg0)) (m ((d.tc : Thread nD τ).loc main_arg2)) (m ((d.tc : Thread nD τ).loc main_arg3))) := by
  have h := HostR.B_dense (UA m d)
  rw [a_x0 m d, a_x2 m d, a_x3 m d] at h
  exact h
/-- The sources, carried. -/
theorem b_row : UB m d (Proc.devRef .tc main_v3) = (Cert.Gcn.ends0 (m ((d.tc : Thread nD τ).loc main_arg1))) :=
  calc UB m d (Proc.devRef .tc main_v3)
    _ = UA m d (Proc.devRef .tc main_v3) := by keeps opsB
    _ = (Cert.Gcn.ends0 (m ((d.tc : Thread nD τ).loc main_arg1))) := a_row m d
/-- The targets, carried. -/
theorem b_col : UB m d (Proc.devRef .tc main_v6) = (Cert.Gcn.ends1 (m ((d.tc : Thread nD τ).loc main_arg1))) :=
  calc UB m d (Proc.devRef .tc main_v6)
    _ = UA m d (Proc.devRef .tc main_v6) := by keeps opsB
    _ = (Cert.Gcn.ends1 (m ((d.tc : Thread nD τ).loc main_arg1))) := a_col m d
/-- The weights, carried. -/
theorem b_norm : UB m d (Proc.devRef .tc main_v30) = (Cert.Gcn.normR (Cert.Gcn.ends0 (m ((d.tc : Thread nD τ).loc main_arg1))) (Cert.Gcn.ends1 (m ((d.tc : Thread nD τ).loc main_arg1)))) :=
  calc UB m d (Proc.devRef .tc main_v30)
    _ = UA m d (Proc.devRef .tc main_v30) := by keeps opsB
    _ = (Cert.Gcn.normR (Cert.Gcn.ends0 (m ((d.tc : Thread nD τ).loc main_arg1))) (Cert.Gcn.ends1 (m ((d.tc : Thread nD τ).loc main_arg1)))) := a_norm m d
/-- Argument 4, carried. -/
theorem b_x4 : UB m d (Proc.devRef .tc main_arg4) = (m ((d.tc : Thread nD τ).loc main_arg4)) :=
  calc UB m d (Proc.devRef .tc main_arg4)
    _ = UA m d (Proc.devRef .tc main_arg4) := by keeps opsB
    _ = (m ((d.tc : Thread nD τ).loc main_arg4)) := a_x4 m d
/-- Argument 5, carried. -/
theorem b_x5 : UB m d (Proc.devRef .tc main_arg5) = (m ((d.tc : Thread nD τ).loc main_arg5)) :=
  calc UB m d (Proc.devRef .tc main_arg5)
    _ = UA m d (Proc.devRef .tc main_arg5) := by keeps opsB
    _ = (m ((d.tc : Thread nD τ).loc main_arg5)) := a_x5 m d
/-- Argument 6, carried. -/
theorem b_x6 : UB m d (Proc.devRef .tc main_arg6) = (m ((d.tc : Thread nD τ).loc main_arg6)) :=
  calc UB m d (Proc.devRef .tc main_arg6)
    _ = UA m d (Proc.devRef .tc main_arg6) := by keeps opsB
    _ = (m ((d.tc : Thread nD τ).loc main_arg6)) := a_x6 m d

/-! ## The first propagation -/

theorem c_h : UC m d (Proc.devRef .tc main_v49) = (Cert.Gcn.feat1 (Cert.Gcn.normR (Cert.Gcn.ends0 (m ((d.tc : Thread nD τ).loc main_arg1))) (Cert.Gcn.ends1 (m ((d.tc : Thread nD τ).loc main_arg1)))) (Cert.Gcn.ends0 (m ((d.tc : Thread nD τ).loc main_arg1))) (Cert.Gcn.ends1 (m ((d.tc : Thread nD τ).loc main_arg1))) (m ((d.tc : Thread nD τ).loc main_arg0)) (m ((d.tc : Thread nD τ).loc main_arg2)) (m ((d.tc : Thread nD τ).loc main_arg3))) := by
  have h := HostR.C_feat (UB m d)
  rw [b_norm m d, b_row m d, b_col m d, b_h m d] at h
  exact h
/-- The sources, carried. -/
theorem c_row : UC m d (Proc.devRef .tc main_v3) = (Cert.Gcn.ends0 (m ((d.tc : Thread nD τ).loc main_arg1))) :=
  calc UC m d (Proc.devRef .tc main_v3)
    _ = UB m d (Proc.devRef .tc main_v3) := by keeps opsC
    _ = (Cert.Gcn.ends0 (m ((d.tc : Thread nD τ).loc main_arg1))) := b_row m d
/-- The targets, carried. -/
theorem c_col : UC m d (Proc.devRef .tc main_v6) = (Cert.Gcn.ends1 (m ((d.tc : Thread nD τ).loc main_arg1))) :=
  calc UC m d (Proc.devRef .tc main_v6)
    _ = UB m d (Proc.devRef .tc main_v6) := by keeps opsC
    _ = (Cert.Gcn.ends1 (m ((d.tc : Thread nD τ).loc main_arg1))) := b_col m d
/-- The weights, carried. -/
theorem c_norm : UC m d (Proc.devRef .tc main_v30) = (Cert.Gcn.normR (Cert.Gcn.ends0 (m ((d.tc : Thread nD τ).loc main_arg1))) (Cert.Gcn.ends1 (m ((d.tc : Thread nD τ).loc main_arg1)))) :=
  calc UC m d (Proc.devRef .tc main_v30)
    _ = UB m d (Proc.devRef .tc main_v30) := by keeps opsC
    _ = (Cert.Gcn.normR (Cert.Gcn.ends0 (m ((d.tc : Thread nD τ).loc main_arg1))) (Cert.Gcn.ends1 (m ((d.tc : Thread nD τ).loc main_arg1)))) := b_norm m d
/-- Argument 4, carried. -/
theorem c_x4 : UC m d (Proc.devRef .tc main_arg4) = (m ((d.tc : Thread nD τ).loc main_arg4)) :=
  calc UC m d (Proc.devRef .tc main_arg4)
    _ = UB m d (Proc.devRef .tc main_arg4) := by keeps opsC
    _ = (m ((d.tc : Thread nD τ).loc main_arg4)) := b_x4 m d
/-- Argument 5, carried. -/
theorem c_x5 : UC m d (Proc.devRef .tc main_arg5) = (m ((d.tc : Thread nD τ).loc main_arg5)) :=
  calc UC m d (Proc.devRef .tc main_arg5)
    _ = UB m d (Proc.devRef .tc main_arg5) := by keeps opsC
    _ = (m ((d.tc : Thread nD τ).loc main_arg5)) := b_x5 m d
/-- Argument 6, carried. -/
theorem c_x6 : UC m d (Proc.devRef .tc main_arg6) = (m ((d.tc : Thread nD τ).loc main_arg6)) :=
  calc UC m d (Proc.devRef .tc main_arg6)
    _ = UB m d (Proc.devRef .tc main_arg6) := by keeps opsC
    _ = (m ((d.tc : Thread nD τ).loc main_arg6)) := b_x6 m d

/-! ## The three residual layers -/

theorem d_h : UD m d (Proc.devRef .tc main_v76) = (Cert.Gcn.feat2 (Cert.Gcn.normR (Cert.Gcn.ends0 (m ((d.tc : Thread nD τ).loc main_arg1))) (Cert.Gcn.ends1 (m ((d.tc : Thread nD τ).loc main_arg1)))) (Cert.Gcn.ends0 (m ((d.tc : Thread nD τ).loc main_arg1))) (Cert.Gcn.ends1 (m ((d.tc : Thread nD τ).loc main_arg1))) (m ((d.tc : Thread nD τ).loc main_arg0)) (m ((d.tc : Thread nD τ).loc main_arg2)) (m ((d.tc : Thread nD τ).loc main_arg3)) (m ((d.tc : Thread nD τ).loc main_arg6))) := by
  have h := HostR.D_layer (UC m d)
  rw [c_norm m d, c_row m d, c_col m d, c_h m d, c_x6 m d] at h
  exact h
/-- The sources, carried. -/
theorem d_row : UD m d (Proc.devRef .tc main_v3) = (Cert.Gcn.ends0 (m ((d.tc : Thread nD τ).loc main_arg1))) :=
  calc UD m d (Proc.devRef .tc main_v3)
    _ = UC m d (Proc.devRef .tc main_v3) := by keeps opsD
    _ = (Cert.Gcn.ends0 (m ((d.tc : Thread nD τ).loc main_arg1))) := c_row m d
/-- The targets, carried. -/
theorem d_col : UD m d (Proc.devRef .tc main_v6) = (Cert.Gcn.ends1 (m ((d.tc : Thread nD τ).loc main_arg1))) :=
  calc UD m d (Proc.devRef .tc main_v6)
    _ = UC m d (Proc.devRef .tc main_v6) := by keeps opsD
    _ = (Cert.Gcn.ends1 (m ((d.tc : Thread nD τ).loc main_arg1))) := c_col m d
/-- The weights, carried. -/
theorem d_norm : UD m d (Proc.devRef .tc main_v30) = (Cert.Gcn.normR (Cert.Gcn.ends0 (m ((d.tc : Thread nD τ).loc main_arg1))) (Cert.Gcn.ends1 (m ((d.tc : Thread nD τ).loc main_arg1)))) :=
  calc UD m d (Proc.devRef .tc main_v30)
    _ = UC m d (Proc.devRef .tc main_v30) := by keeps opsD
    _ = (Cert.Gcn.normR (Cert.Gcn.ends0 (m ((d.tc : Thread nD τ).loc main_arg1))) (Cert.Gcn.ends1 (m ((d.tc : Thread nD τ).loc main_arg1)))) := c_norm m d
/-- Argument 4, carried. -/
theorem d_x4 : UD m d (Proc.devRef .tc main_arg4) = (m ((d.tc : Thread nD τ).loc main_arg4)) :=
  calc UD m d (Proc.devRef .tc main_arg4)
    _ = UC m d (Proc.devRef .tc main_arg4) := by keeps opsD
    _ = (m ((d.tc : Thread nD τ).loc main_arg4)) := c_x4 m d
/-- Argument 5, carried. -/
theorem d_x5 : UD m d (Proc.devRef .tc main_arg5) = (m ((d.tc : Thread nD τ).loc main_arg5)) :=
  calc UD m d (Proc.devRef .tc main_arg5)
    _ = UC m d (Proc.devRef .tc main_arg5) := by keeps opsD
    _ = (m ((d.tc : Thread nD τ).loc main_arg5)) := c_x5 m d
/-- Argument 6, carried. -/
theorem d_x6 : UD m d (Proc.devRef .tc main_arg6) = (m ((d.tc : Thread nD τ).loc main_arg6)) :=
  calc UD m d (Proc.devRef .tc main_arg6)
    _ = UC m d (Proc.devRef .tc main_arg6) := by keeps opsD
    _ = (m ((d.tc : Thread nD τ).loc main_arg6)) := c_x6 m d
/-- The first features, carried. -/
theorem d_h1 : UD m d (Proc.devRef .tc main_v49) = (Cert.Gcn.feat1 (Cert.Gcn.normR (Cert.Gcn.ends0 (m ((d.tc : Thread nD τ).loc main_arg1))) (Cert.Gcn.ends1 (m ((d.tc : Thread nD τ).loc main_arg1)))) (Cert.Gcn.ends0 (m ((d.tc : Thread nD τ).loc main_arg1))) (Cert.Gcn.ends1 (m ((d.tc : Thread nD τ).loc main_arg1))) (m ((d.tc : Thread nD τ).loc main_arg0)) (m ((d.tc : Thread nD τ).loc main_arg2)) (m ((d.tc : Thread nD τ).loc main_arg3))) :=
  calc UD m d (Proc.devRef .tc main_v49)
    _ = UC m d (Proc.devRef .tc main_v49) := by keeps opsD
    _ = (Cert.Gcn.feat1 (Cert.Gcn.normR (Cert.Gcn.ends0 (m ((d.tc : Thread nD τ).loc main_arg1))) (Cert.Gcn.ends1 (m ((d.tc : Thread nD τ).loc main_arg1)))) (Cert.Gcn.ends0 (m ((d.tc : Thread nD τ).loc main_arg1))) (Cert.Gcn.ends1 (m ((d.tc : Thread nD τ).loc main_arg1))) (m ((d.tc : Thread nD τ).loc main_arg0)) (m ((d.tc : Thread nD τ).loc main_arg2)) (m ((d.tc : Thread nD τ).loc main_arg3))) := c_h m d

theorem e_h : UE m d (Proc.devRef .tc main_v103) = (Cert.Gcn.feat3 (Cert.Gcn.normR (Cert.Gcn.ends0 (m ((d.tc : Thread nD τ).loc main_arg1))) (Cert.Gcn.ends1 (m ((d.tc : Thread nD τ).loc main_arg1)))) (Cert.Gcn.ends0 (m ((d.tc : Thread nD τ).loc main_arg1))) (Cert.Gcn.ends1 (m ((d.tc : Thread nD τ).loc main_arg1))) (m ((d.tc : Thread nD τ).loc main_arg0)) (m ((d.tc : Thread nD τ).loc main_arg2)) (m ((d.tc : Thread nD τ).loc main_arg3)) (m ((d.tc : Thread nD τ).loc main_arg6))) := by
  have h := HostR.E_layer (UD m d)
  rw [d_norm m d, d_row m d, d_col m d, d_h m d, d_h1 m d, d_x6 m d] at h
  exact h
/-- The sources, carried. -/
theorem e_row : UE m d (Proc.devRef .tc main_v3) = (Cert.Gcn.ends0 (m ((d.tc : Thread nD τ).loc main_arg1))) :=
  calc UE m d (Proc.devRef .tc main_v3)
    _ = UD m d (Proc.devRef .tc main_v3) := by keeps opsE
    _ = (Cert.Gcn.ends0 (m ((d.tc : Thread nD τ).loc main_arg1))) := d_row m d
/-- The targets, carried. -/
theorem e_col : UE m d (Proc.devRef .tc main_v6) = (Cert.Gcn.ends1 (m ((d.tc : Thread nD τ).loc main_arg1))) :=
  calc UE m d (Proc.devRef .tc main_v6)
    _ = UD m d (Proc.devRef .tc main_v6) := by keeps opsE
    _ = (Cert.Gcn.ends1 (m ((d.tc : Thread nD τ).loc main_arg1))) := d_col m d
/-- The weights, carried. -/
theorem e_norm : UE m d (Proc.devRef .tc main_v30) = (Cert.Gcn.normR (Cert.Gcn.ends0 (m ((d.tc : Thread nD τ).loc main_arg1))) (Cert.Gcn.ends1 (m ((d.tc : Thread nD τ).loc main_arg1)))) :=
  calc UE m d (Proc.devRef .tc main_v30)
    _ = UD m d (Proc.devRef .tc main_v30) := by keeps opsE
    _ = (Cert.Gcn.normR (Cert.Gcn.ends0 (m ((d.tc : Thread nD τ).loc main_arg1))) (Cert.Gcn.ends1 (m ((d.tc : Thread nD τ).loc main_arg1)))) := d_norm m d
/-- Argument 4, carried. -/
theorem e_x4 : UE m d (Proc.devRef .tc main_arg4) = (m ((d.tc : Thread nD τ).loc main_arg4)) :=
  calc UE m d (Proc.devRef .tc main_arg4)
    _ = UD m d (Proc.devRef .tc main_arg4) := by keeps opsE
    _ = (m ((d.tc : Thread nD τ).loc main_arg4)) := d_x4 m d
/-- Argument 5, carried. -/
theorem e_x5 : UE m d (Proc.devRef .tc main_arg5) = (m ((d.tc : Thread nD τ).loc main_arg5)) :=
  calc UE m d (Proc.devRef .tc main_arg5)
    _ = UD m d (Proc.devRef .tc main_arg5) := by keeps opsE
    _ = (m ((d.tc : Thread nD τ).loc main_arg5)) := d_x5 m d
/-- Argument 6, carried. -/
theorem e_x6 : UE m d (Proc.devRef .tc main_arg6) = (m ((d.tc : Thread nD τ).loc main_arg6)) :=
  calc UE m d (Proc.devRef .tc main_arg6)
    _ = UD m d (Proc.devRef .tc main_arg6) := by keeps opsE
    _ = (m ((d.tc : Thread nD τ).loc main_arg6)) := d_x6 m d
/-- The first features, carried. -/
theorem e_h1 : UE m d (Proc.devRef .tc main_v49) = (Cert.Gcn.feat1 (Cert.Gcn.normR (Cert.Gcn.ends0 (m ((d.tc : Thread nD τ).loc main_arg1))) (Cert.Gcn.ends1 (m ((d.tc : Thread nD τ).loc main_arg1)))) (Cert.Gcn.ends0 (m ((d.tc : Thread nD τ).loc main_arg1))) (Cert.Gcn.ends1 (m ((d.tc : Thread nD τ).loc main_arg1))) (m ((d.tc : Thread nD τ).loc main_arg0)) (m ((d.tc : Thread nD τ).loc main_arg2)) (m ((d.tc : Thread nD τ).loc main_arg3))) :=
  calc UE m d (Proc.devRef .tc main_v49)
    _ = UD m d (Proc.devRef .tc main_v49) := by keeps opsE
    _ = (Cert.Gcn.feat1 (Cert.Gcn.normR (Cert.Gcn.ends0 (m ((d.tc : Thread nD τ).loc main_arg1))) (Cert.Gcn.ends1 (m ((d.tc : Thread nD τ).loc main_arg1)))) (Cert.Gcn.ends0 (m ((d.tc : Thread nD τ).loc main_arg1))) (Cert.Gcn.ends1 (m ((d.tc : Thread nD τ).loc main_arg1))) (m ((d.tc : Thread nD τ).loc main_arg0)) (m ((d.tc : Thread nD τ).loc main_arg2)) (m ((d.tc : Thread nD τ).loc main_arg3))) := d_h1 m d

theorem f_h : UF m d (Proc.devRef .tc main_v130) = (Cert.Gcn.feat4 (Cert.Gcn.normR (Cert.Gcn.ends0 (m ((d.tc : Thread nD τ).loc main_arg1))) (Cert.Gcn.ends1 (m ((d.tc : Thread nD τ).loc main_arg1)))) (Cert.Gcn.ends0 (m ((d.tc : Thread nD τ).loc main_arg1))) (Cert.Gcn.ends1 (m ((d.tc : Thread nD τ).loc main_arg1))) (m ((d.tc : Thread nD τ).loc main_arg0)) (m ((d.tc : Thread nD τ).loc main_arg2)) (m ((d.tc : Thread nD τ).loc main_arg3)) (m ((d.tc : Thread nD τ).loc main_arg6))) := by
  have h := HostR.F_layer (UE m d)
  rw [e_norm m d, e_row m d, e_col m d, e_h m d, e_h1 m d, e_x6 m d] at h
  exact h
/-- Argument 4, carried. -/
theorem f_x4 : UF m d (Proc.devRef .tc main_arg4) = (m ((d.tc : Thread nD τ).loc main_arg4)) :=
  calc UF m d (Proc.devRef .tc main_arg4)
    _ = UE m d (Proc.devRef .tc main_arg4) := by keeps opsF
    _ = (m ((d.tc : Thread nD τ).loc main_arg4)) := e_x4 m d
/-- Argument 5, carried. -/
theorem f_x5 : UF m d (Proc.devRef .tc main_arg5) = (m ((d.tc : Thread nD τ).loc main_arg5)) :=
  calc UF m d (Proc.devRef .tc main_arg5)
    _ = UE m d (Proc.devRef .tc main_arg5) := by keeps opsF
    _ = (m ((d.tc : Thread nD τ).loc main_arg5)) := e_x5 m d

/-! ## The last dense layer -/

/-- THE RESULT: after the whole line the result buffer holds the network's output of the seven arguments. -/
theorem result : after ops (launchContents m d) (Proc.devRef .tc main_v134)
    = Cert.Gcn.out (Cert.Gcn.normR (Cert.Gcn.ends0 (m ((d.tc : Thread nD τ).loc main_arg1))) (Cert.Gcn.ends1 (m ((d.tc : Thread nD τ).loc main_arg1)))) (Cert.Gcn.ends0 (m ((d.tc : Thread nD τ).loc main_arg1))) (Cert.Gcn.ends1 (m ((d.tc : Thread nD τ).loc main_arg1))) (m ((d.tc : Thread nD τ).loc main_arg0)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) := by
  rw [after_ops]
  have h := HostR.G_dense (UF m d)
  rw [f_h m d, f_x4 m d, f_x5 m d] at h
  exact h

/-- Argument 0's buffer is written by no operation of the line. -/
theorem kept_arg0 : after ops (launchContents m d) (Proc.devRef .tc main_arg0) = (m ((d.tc : Thread nD τ).loc main_arg0)) :=
  calc after ops (launchContents m d) (Proc.devRef .tc main_arg0)
    _ = launchContents m d (Proc.devRef .tc main_arg0) := by keeps ops
    _ = (m ((d.tc : Thread nD τ).loc main_arg0)) := rfl
/-- Argument 1's buffer is written by no operation of the line. -/
theorem kept_arg1 : after ops (launchContents m d) (Proc.devRef .tc main_arg1) = (m ((d.tc : Thread nD τ).loc main_arg1)) :=
  calc after ops (launchContents m d) (Proc.devRef .tc main_arg1)
    _ = launchContents m d (Proc.devRef .tc main_arg1) := by keeps ops
    _ = (m ((d.tc : Thread nD τ).loc main_arg1)) := rfl
/-- Argument 2's buffer is written by no operation of the line. -/
theorem kept_arg2 : after ops (launchContents m d) (Proc.devRef .tc main_arg2) = (m ((d.tc : Thread nD τ).loc main_arg2)) :=
  calc after ops (launchContents m d) (Proc.devRef .tc main_arg2)
    _ = launchContents m d (Proc.devRef .tc main_arg2) := by keeps ops
    _ = (m ((d.tc : Thread nD τ).loc main_arg2)) := rfl
/-- Argument 3's buffer is written by no operation of the line. -/
theorem kept_arg3 : after ops (launchContents m d) (Proc.devRef .tc main_arg3) = (m ((d.tc : Thread nD τ).loc main_arg3)) :=
  calc after ops (launchContents m d) (Proc.devRef .tc main_arg3)
    _ = launchContents m d (Proc.devRef .tc main_arg3) := by keeps ops
    _ = (m ((d.tc : Thread nD τ).loc main_arg3)) := rfl
/-- Argument 4's buffer is written by no operation of the line. -/
theorem kept_arg4 : after ops (launchContents m d) (Proc.devRef .tc main_arg4) = (m ((d.tc : Thread nD τ).loc main_arg4)) :=
  calc after ops (launchContents m d) (Proc.devRef .tc main_arg4)
    _ = launchContents m d (Proc.devRef .tc main_arg4) := by keeps ops
    _ = (m ((d.tc : Thread nD τ).loc main_arg4)) := rfl
/-- Argument 5's buffer is written by no operation of the line. -/
theorem kept_arg5 : after ops (launchContents m d) (Proc.devRef .tc main_arg5) = (m ((d.tc : Thread nD τ).loc main_arg5)) :=
  calc after ops (launchContents m d) (Proc.devRef .tc main_arg5)
    _ = launchContents m d (Proc.devRef .tc main_arg5) := by keeps ops
    _ = (m ((d.tc : Thread nD τ).loc main_arg5)) := rfl
/-- Argument 6's buffer is written by no operation of the line. -/
theorem kept_arg6 : after ops (launchContents m d) (Proc.devRef .tc main_arg6) = (m ((d.tc : Thread nD τ).loc main_arg6)) :=
  calc after ops (launchContents m d) (Proc.devRef .tc main_arg6)
    _ = launchContents m d (Proc.devRef .tc main_arg6) := by keeps ops
    _ = (m ((d.tc : Thread nD τ).loc main_arg6)) := rfl

end Cert.ReferenceIdeal.ResultValue

end
-- ==== Proof.EdgeWeights.lean ====
/-
  The two forms of the edge weights agree.

  The reference multiplies `dinv` at an edge's source by the edge's own weight, the f32 word of one, before multiplying by
  `dinv` at its target; the kernel program multiplies the two `dinv`s directly. The word `0x3F800000` denotes the extended
  real `1`, and `x · 1 = x` for every extended real, so the two arrays are equal entry by entry — with no condition on
  the entries.
-/
import proofs.«116112_j81028853006976_1_alg».proof.Proof.Stages
import Idealize.ShloMosaic.Lib.IdealHost
import Idealize.ShloMosaic.Lib.Pipeline.Value

noncomputable section

namespace Cert.Gcn

open Cert.ReferenceIdeal Cert.ReferenceIdeal.Facts₀ Idealize.ShloMosaic Idealize.ShloMosaic.ValueIdx

/-- A word broadcast over the edges is that word at every edge. -/
theorem splatE_apply (b : BitVec 32) (i : S900000.Idx) : splatE b i = Ideal.ofBits .f32 b :=
  broadcastInDim_apply _ bcast_S_S900000 _ i (fun a => a.elim0) (fun a => a.elim0)

/-- Two arrays over the edges multiplied with the unit weight between them are the two multiplied. -/
theorem mulf_one_mid (A B : F32 S900000) : mulf (mulf A (splatE 0x3F800000#32)) B = mulf A B := by
  funext i
  show A i * splatE 0x3F800000#32 i * B i = A i * B i
  rw [splatE_apply, Ideal.ofBits_one_f32, mul_one]

/-- The weights with the unit factor written out are the weights without it. -/
theorem normR_eq (row col : I32 S900000) : normR row col = normK row col := by
  unfold normR normK
  exact mulf_one_mid _ _

end Cert.Gcn

end
-- ==== Proof.lean ====
/-
  The certificate's five claims.

  The kernel program computes a graph convolution network in six kernel regions joined by host operations: a dense layer
  with rectifier, a propagation along the graph's edges with rectifier, three residual layers each over a propagation,
  and a last dense layer. The reference computes the same network with host operations only.

  The two frames of the kernel program are the generated frame proofs. The reference's frame is its run with the result
  forgotten: no operation writes an argument. The idealization rewrote nothing, so it is preserved trivially.

  For the equality of the results on the extended reals: the kernel program's result buffer ends at the network's
  output as a function of the seven argument arrays (each region's bands are restrictions of one whole-array stage, and
  the host stretches between the regions are the propagation stages); so does the reference's, with the edge weights
  carrying an extra factor one, which drops out; and the two programs start from memories that agree on the arguments.
  No law used here needs the inputs to be finite.
-/
import proofs.«116112_j81028853006976_1_alg».proof.Defs
import proofs.«116112_j81028853006976_1_alg».proof.Proof.Gen.Kernel
import proofs.«116112_j81028853006976_1_alg».proof.Proof.Gen.Kernel.Frame
import proofs.«116112_j81028853006976_1_alg».proof.Proof.Gen.KernelIdeal
import proofs.«116112_j81028853006976_1_alg».proof.Proof.Gen.KernelIdeal.Frame
import proofs.«116112_j81028853006976_1_alg».proof.Proof.Gen.ReferenceIdeal
import proofs.«116112_j81028853006976_1_alg».proof.Proof.Gen.Pre_finite_inputs
import proofs.«116112_j81028853006976_1_alg».proof.Proof.ResultRun
import proofs.«116112_j81028853006976_1_alg».proof.Proof.ResultValue
import proofs.«116112_j81028853006976_1_alg».proof.Proof.RefRun
import proofs.«116112_j81028853006976_1_alg».proof.Proof.RefValue
import proofs.«116112_j81028853006976_1_alg».proof.Proof.EdgeWeights
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and leaves its arguments as launched. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: none of its operations writes one. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
      ⟨(h c _).trans (Cert.ReferenceIdeal.ResultValue.kept_arg0 m c), (h c _).trans (Cert.ReferenceIdeal.ResultValue.kept_arg1 m c),
       (h c _).trans (Cert.ReferenceIdeal.ResultValue.kept_arg2 m c), (h c _).trans (Cert.ReferenceIdeal.ResultValue.kept_arg3 m c),
       (h c _).trans (Cert.ReferenceIdeal.ResultValue.kept_arg4 m c), (h c _).trans (Cert.ReferenceIdeal.ResultValue.kept_arg5 m c),
       (h c _).trans (Cert.ReferenceIdeal.ResultValue.kept_arg6 m c)⟩)
    (Cert.ReferenceIdeal.HandRun.run (F := Ideal) m ρ)

/-- The idealization rewrote no operation. -/
theorem preserves : Cert.preserves_Kernel_KernelIdeal := trivial

/-- From memories agreeing on the arguments both idealized programs end with the network's output of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.out (Cert.Gcn.normK (Cert.Gcn.ends0 (m ((c.tc : Thread Cert.KernelIdeal.nD Cert.KernelIdeal.τ).loc Cert.KernelIdeal.main_arg1))) (Cert.Gcn.ends1 (m ((c.tc : Thread Cert.KernelIdeal.nD Cert.KernelIdeal.τ).loc Cert.KernelIdeal.main_arg1)))) (Cert.Gcn.ends0 (m ((c.tc : Thread Cert.KernelIdeal.nD Cert.KernelIdeal.τ).loc Cert.KernelIdeal.main_arg1))) (Cert.Gcn.ends1 (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.ResultValue.result m ρ c), (h c).2⟩)
      (Cert.KernelIdeal.ResultRun.run (F := Ideal) m ρ)
  · refine (θ_run Cert.ReferenceIdeal.defs _ _).mono (fun r h c =>
      ⟨(h c _).trans ?_, (h c _).trans (Cert.ReferenceIdeal.ResultValue.kept_arg0 m' c), (h c _).trans (Cert.ReferenceIdeal.ResultValue.kept_arg1 m' c),
       (h c _).trans (Cert.ReferenceIdeal.ResultValue.kept_arg2 m' c), (h c _).trans (Cert.ReferenceIdeal.ResultValue.kept_arg3 m' c),
       (h c _).trans (Cert.ReferenceIdeal.ResultValue.kept_arg4 m' c), (h c _).trans (Cert.ReferenceIdeal.ResultValue.kept_arg5 m' c),
       (h c _).trans (Cert.ReferenceIdeal.ResultValue.kept_arg6 m' c)⟩)
      (Cert.ReferenceIdeal.HandRun.run (F := Ideal) m' ρ')
    obtain ⟨a0, a1, a2, a3, a4, a5, a6⟩ := hagree c
    rw [Cert.ReferenceIdeal.ResultValue.result m' c, Cert.Gcn.normR_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
